-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_1023" .f32 0x3A802008#32 ((1 / 1023 : ℝ) : EReal)
  ∧ IdealRules.named_const.Statement Cert.KernelIdeal.κ "inv_1023" .f32 0x3A802008#32 ((1 / 1023 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S16x1024x4 : Shape := ⟨3, ![16, 1024, 4]⟩
abbrev S1024x4 : Shape := ⟨2, ![1024, 4]⟩
abbrev S1024 : Shape := ⟨1, ![1024]⟩
abbrev S1024x1024 : Shape := ⟨2, ![1024, 1024]⟩
abbrev S3072x1024 : Shape := ⟨2, ![3072, 1024]⟩
abbrev S3072 : Shape := ⟨1, ![3072]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S16x1024x4 : S_.BroadcastsInDim S16x1024x4 (![] : Fin 0 → Fin S16x1024x4.rank)
  reducesTo_S16x1024x4_S_d0_1_2 : S16x1024x4.ReducesTo [0, 1, 2] S_
  bcast_S_S1024x4 : S_.BroadcastsInDim S1024x4 (![] : Fin 0 → Fin S1024x4.rank)
  reducesTo_S1024x4_S_d0_1 : S1024x4.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part2 {F : FTy → Type} [FloatOps F] (main_arg7 : FVec F S3072x1024 .f32) (main_arg8 : FVec F S3072 .f32) (main_arg9 : FVec F S3072 .f32) (main_v33 : IVec S_ 1) : IVec S_ 1 :=
  let main_v34 : FVec F S3072x1024 .f32 := Host.absf main_arg7
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072 .f32 := Host.absf main_arg8
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  let main_v44 : FVec F S3072 .f32 := Host.absf main_arg9
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S3072x1024 .f32) (main_arg7 : FVec F S3072x1024 .f32) (main_arg8 : FVec F S3072 .f32) (main_arg9 : FVec F S3072 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S3072x1024 .f32 := Host.absf main_arg6
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x1024x1024 .f32) (main_arg1 : FVec F S16x1024x4 .f32) (main_arg2 : FVec F S1024x4 .f32) (main_arg3 : FVec F S1024 .f32) (main_arg4 : FVec F S1024x1024 .f32) (main_arg5 : FVec F S1024 .f32) (main_arg6 : FVec F S3072x1024 .f32) (main_arg7 : FVec F S3072x1024 .f32) (main_arg8 : FVec F S3072 .f32) (main_arg9 : FVec F S3072 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x4 .f32 := Host.absf main_arg1
  let main_cst_0 : FVec F S_ .f32 := constant S_ .f32 0x7F800000#32
  let main_v5 : FVec F S16x1024x4 .f32 := broadcastInDim S16x1024x4 ![] bcast_S_S16x1024x4 main_cst_0
  let main_v6 : IVec S16x1024x4 1 := cmpf .olt main_v4 main_v5
  let main_c_1 : IVec S_ 1 := constantI S_ 1 1#1
  let main_v7 : IVec S_ 1 := (fun x v => Host.reduce IntOp.andi x v reducesTo_S16x1024x4_S_d0_1_2 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S16x1024x1024 : Shape := ⟨3, ![16, 1024, 1024]⟩
abbrev S16x1024x4 : Shape := ⟨3, ![16, 1024, 4]⟩
abbrev S1024x4 : Shape := ⟨2, ![1024, 4]⟩
abbrev S1024 : Shape := ⟨1, ![1024]⟩
abbrev S1024x1024 : Shape := ⟨2, ![1024, 1024]⟩
abbrev S3072x1024 : Shape := ⟨2, ![3072, 1024]⟩
abbrev S3072 : Shape := ⟨1, ![3072]⟩
abbrev S1x1024 : Shape := ⟨2, ![1, 1024]⟩
abbrev S1x3072 : Shape := ⟨2, ![1, 3072]⟩
abbrev S1x1024x1024 : Shape := ⟨3, ![1, 1024, 1024]⟩
abbrev S1x1024x4 : Shape := ⟨3, ![1, 1024, 4]⟩
abbrev S1x128x1024 : Shape := ⟨3, ![1, 128, 1024]⟩
abbrev S128x1024 : Shape := ⟨2, ![128, 1024]⟩
abbrev S1x128x4 : Shape := ⟨3, ![1, 128, 4]⟩
abbrev S128x4 : Shape := ⟨2, ![128, 4]⟩
abbrev S16384x1024 : Shape := ⟨2, ![16384, 1024]⟩

abbrev nBuf : Space → Nat
  | .hbm => 20
  | .vmem => 16
  | .smem => 0
  | _ => 0

abbrev bufTy : (tb : Table) → Fin (tcTables nBuf tb) → BufTy
  | .hbm, ⟨0, _⟩ => ⟨S16x1024x1024, .f32⟩
  | .hbm, ⟨1, _⟩ => ⟨S16x1024x4, .f32⟩
  | .hbm, ⟨2, _⟩ => ⟨S1024x4, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S3072x1024, .f32⟩
  | .hbm, ⟨7, _⟩ => ⟨S3072x1024, .f32⟩
  | .hbm, ⟨8, _⟩ => ⟨S3072, .f32⟩
  | .hbm, ⟨9, _⟩ => ⟨S3072, .f32⟩
  | .hbm, ⟨10, _⟩ => ⟨S1x1024, .f32⟩
  | .hbm, ⟨11, _⟩ => ⟨S1x1024, .f32⟩
  | .hbm, ⟨12, _⟩ => ⟨S1x3072, .f32⟩
  | .hbm, ⟨13, _⟩ => ⟨S1x3072, .f32⟩
  | .hbm, ⟨14, _⟩ => ⟨S1024x4, .bf16⟩
  | .hbm, ⟨15, _⟩ => ⟨S1024x1024, .bf16⟩
  | .hbm, ⟨16, _⟩ => ⟨S3072x1024, .bf16⟩
  | .hbm, ⟨17, _⟩ => ⟨S3072x1024, .bf16⟩
  | .hbm, ⟨18, _⟩ => ⟨S16x1024x1024, .f32⟩
  | .hbm, ⟨19, _⟩ => ⟨S16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x4, .f32⟩
  | .local _ .vmem, ⟨3, _⟩ => ⟨S1x1024x4, .f32⟩
  | .local _ .vmem, ⟨4, _⟩ => ⟨S1024x4, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S3072x1024, .bf16⟩
  | .local _ .vmem, ⟨9, _⟩ => ⟨S3072x1024, .bf16⟩
  | .local _ .vmem, ⟨10, _⟩ => ⟨S1x3072, .f32⟩
  | .local _ .vmem, ⟨11, _⟩ => ⟨S1x3072, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .bf16⟩
  | .local _ .vmem, ⟨15, _⟩ => ⟨S1x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  v13
def k0_off1 (k0_t1 : Fin k0_t1_loop.trips) : Fin 3 → Nat :=
  let c0_21 : Index := 0#32
  let c0_i32 : BitVec 32 := 0#32
  let c1_i32 : BitVec 32 := 1#32
  let arg14 : BitVec 32 := Scf.iv c0_i32 c1_i32 k0_t1
  let c128_i32 : BitVec 32 := 128#32
  let v13 : BitVec 32 := Scalar.muli arg14 c128_i32
  let v14 : BitVec 32 := v13
  let v15 : Index := Scalar.indexCast v14
  let c0_22 : Index := 0#32
  ![0, v15.toNat, 0]
@[reducible] def k0_t2_loop : Scf.Loop 32 :=
  let c0_i32_2 : BitVec 32 := 0#32
  let c8_i32_3 : BitVec 32 := 8#32
  let v5 : BitVec 32 := Scalar.addi c0_i32_2 c8_i32_3
  let c1_i32_4 : BitVec 32 := 1#32
  ⟨c0_i32_2, v5, c1_i32_4⟩
def k0_mult2 (k0_t2 : Fin k0_t2_loop.trips) : BitVec 32 :=
  let c0_i32_2 : BitVec 32 := 0#32
  let c1_i32_4 : BitVec 32 := 1#32
  let arg14 : BitVec 32 := Scf.iv c0_i32_2 c1_i32_4 k0_t2
  let c128_i32 : BitVec 32 := 128#32
  let v13 : BitVec 32 := Scalar.muli arg14 c128_i32
  v13
def k0_off2 (k0_t2 : Fin k0_t2_loop.trips) : Fin 3 → Nat :=
  let c0_21 : Index := 0#32
  let c0_i32_2 : BitVec 32 := 0#32
  let c1_i32_4 : BitVec 32 := 1#32
  let arg14 : BitVec 32 := Scf.iv c0_i32_2 c1_i32_4 k0_t2
  let c128_i32 : BitVec 32 := 128#32
  let v13 : BitVec 32 := Scalar.muli arg14 c128_i32
  let v14 : BitVec 32 := v13
  let v15 : Index := Scalar.indexCast v14
  let c0_22 : Index := 0#32
  ![0, v15.toNat, 0]
def k0_off3 (k0_t2 : Fin k0_t2_loop.trips) : Fin 3 → Nat :=
  let c0_23 : Index := 0#32
  let c0_i32_2 : BitVec 32 := 0#32
  let c1_i32_4 : BitVec 32 := 1#32
  let arg14 : BitVec 32 := Scf.iv c0_i32_2 c1_i32_4 k0_t2
  let c128_i32 : BitVec 32 := 128#32
  let v13 : BitVec 32 := Scalar.muli arg14 c128_i32
  let v14 : BitVec 32 := v13
  let v18 : Index := Scalar.indexCast v14
  let c0_24 : Index := 0#32
  ![0, v18.toNat, 0]
def k0_off4 (k0_t2 : Fin k0_t2_loop.trips) : Fin 2 → Nat :=
  let c0_i32_2 : BitVec 32 := 0#32
  let c1_i32_4 : BitVec 32 := 1#32
  let arg14 : BitVec 32 := Scf.iv c0_i32_2 c1_i32_4 k0_t2
  let c128_i32 : BitVec 32 := 128#32
  let v13 : BitVec 32 := Scalar.muli arg14 c128_i32
  let v14 : BitVec 32 := v13
  let v41 : Index := Scalar.indexCast v14
  let c0_36 : Index := 0#32
  ![v41.toNat, 0]
@[reducible] def k0_t3_loop : Scf.Loop 32 :=
  let c0_i32_6 : BitVec 32 := 0#32
  let c8_i32_7 : BitVec 32 := 8#32
  let v6 : BitVec 32 := Scalar.addi c0_i32_6 c8_i32_7
  let c1_i32_8 : BitVec 32 := 1#32
  ⟨c0_i32_6, v6, c1_i32_8⟩
def k0_mult3 (k0_t3 : Fin k0_t3_loop.trips) : BitVec 32 :=
  let c0_i32_6 : BitVec 32 := 0#32
  let c1_i32_8 : BitVec 32 := 1#32
  let arg14 : BitVec 32 := Scf.iv c0_i32_6 c1_i32_8 k0_t3
  let c128_i32 : BitVec 32 := 128#32
  let v13 : BitVec 32 := Scalar.muli arg14 c128_i32
  v13
def k0_off5 (k0_t3 : Fin k0_t3_loop.trips) : Fin 3 → Nat :=
  let c0_21 : Index := 0#32
  let c0_i32_6 : BitVec 32 := 0#32
  let c1_i32_8 : BitVec 32 := 1#32
  let arg14 : BitVec 32 := Scf.iv c0_i32_6 c1_i32_8 k0_t3
  let c128_i32 : BitVec 32 := 128#32
  let v13 : BitVec 32 := Scalar.muli arg14 c128_i32
  let v14 : BitVec 32 := v13
  let v15 : Index := Scalar.indexCast v14
  let c0_22 : Index := 0#32
  ![0, v15.toNat, 0]
def k0_off6 (k0_t3 : Fin k0_t3_loop.trips) : Fin 2 → Nat :=
  let c0_i32_6 : BitVec 32 := 0#32
  let c1_i32_8 : BitVec 32 := 1#32
  let arg14 : BitVec 32 := Scf.iv c0_i32_6 c1_i32_8 k0_t3
  let c128_i32 : BitVec 32 := 128#32
  let v13 : BitVec 32 := Scalar.muli arg14 c128_i32
  let v14 : BitVec 32 := v13
  let v18 : Index := Scalar.indexCast v14
  let c0_23 : Index := 0#32
  ![v18.toNat, 0]
@[reducible] def k0_t4_loop : Scf.Loop 32 :=
  let c0_i32_13 : BitVec 32 := 0#32
  let c8_i32_14 : BitVec 32 := 8#32
  let v11 : BitVec 32 := Scalar.addi c0_i32_13 c8_i32_14
  let c1_i32_15 : BitVec 32 := 1#32
  ⟨c0_i32_13, v11, c1_i32_15⟩
def k0_mult4 (k0_t4 : Fin k0_t4_loop.trips) : BitVec 32 :=
  let c0_i32_13 : BitVec 32 := 0#32
  let c1_i32_15 : BitVec 32 := 1#32
  let arg14 : BitVec 32 := Scf.iv c0_i32_13 c1_i32_15 k0_t4
  let c128_i32 : BitVec 32 := 128#32
  let v13 : BitVec 32 := Scalar.muli arg14 c128_i32
  v13
def k0_off7 (k0_t4 : Fin k0_t4_loop.trips) : Fin 3 → Nat :=
  let c0_21 : Index := 0#32
  let c0_i32_13 : BitVec 32 := 0#32
  let c1_i32_15 : BitVec 32 := 1#32
  let arg14 : BitVec 32 := Scf.iv c0_i32_13 c1_i32_15 k0_t4
  let c128_i32 : BitVec 32 := 128#32
  let v13 : BitVec 32 := Scalar.muli arg14 c128_i32
  let v14 : BitVec 32 := v13
  let v15 : Index := Scalar.indexCast v14
  let c0_22 : Index := 0#32
  ![0, v15.toNat, 0]
def k0_off8 (k0_t4 : Fin k0_t4_loop.trips) : Fin 3 → Nat :=
  let c0_23 : Index := 0#32
  let c0_i32_13 : BitVec 32 := 0#32
  let c1_i32_15 : BitVec 32 := 1#32
  let arg14 : BitVec 32 := Scf.iv c0_i32_13 c1_i32_15 k0_t4
  let c128_i32 : BitVec 32 := 128#32
  let v13 : BitVec 32 := Scalar.muli arg14 c128_i32
  let v14 : BitVec 32 := v13
  let v18 : Index := Scalar.indexCast v14
  let c0_24 : Index := 0#32
  ![0, v18.toNat, 0]
def k0_off9 (k0_t4 : Fin k0_t4_loop.trips) : Fin 2 → Nat :=
  let c0_i32_13 : BitVec 32 := 0#32
  let c1_i32_15 : BitVec 32 := 1#32
  let arg14 : BitVec 32 := Scf.iv c0_i32_13 c1_i32_15 k0_t4
  let c128_i32 : BitVec 32 := 128#32
  let v13 : BitVec 32 := Scalar.muli arg14 c128_i32
  let v14 : BitVec 32 := v13
  let v41 : Index := Scalar.indexCast v14
  let c0_36 : Index := 0#32
  ![v41.toNat, 0]
@[reducible] def k0_t5_loop : Scf.Loop 32 :=
  let c0_i32_17 : BitVec 32 := 0#32
  let c8_i32_18 : BitVec 32 := 8#32
  let v12 : BitVec 32 := Scalar.addi c0_i32_17 c8_i32_18
  let c1_i32_19 : BitVec 32 := 1#32
  ⟨c0_i32_17, v12, c1_i32_19⟩
def k0_mult5 (k0_t5 : Fin k0_t5_loop.trips) : BitVec 32 :=
  let c0_i32_17 : BitVec 32 := 0#32
  let c1_i32_19 : BitVec 32 := 1#32
  let arg14 : BitVec 32 := Scf.iv c0_i32_17 c1_i32_19 k0_t5
  let c128_i32 : BitVec 32 := 128#32
  let v13 : BitVec 32 := Scalar.muli arg14 c128_i32
  v13
def k0_off10 (k0_t5 : Fin k0_t5_loop.trips) : Fin 3 → Nat :=
  let c0_21 : Index := 0#32
  let c0_i32_17 : BitVec 32 := 0#32
  let c1_i32_19 : BitVec 32 := 1#32
  let arg14 : BitVec 32 := Scf.iv c0_i32_17 c1_i32_19 k0_t5
  let c128_i32 : BitVec 32 := 128#32
  let v13 : BitVec 32 := Scalar.muli arg14 c128_i32
  let v14 : BitVec 32 := v13
  let v15 : Index := Scalar.indexCast v14
  let c0_22 : Index := 0#32
  ![0, v15.toNat, 0]
def k0_off11 (k0_t5 : Fin k0_t5_loop.trips) : Fin 2 → Nat :=
  let c0_i32_17 : BitVec 32 := 0#32
  let c1_i32_19 : BitVec 32 := 1#32
  let arg14 : BitVec 32 := Scf.iv c0_i32_17 c1_i32_19 k0_t5
  let c128_i32 : BitVec 32 := 128#32
  let v13 : BitVec 32 := Scalar.muli arg14 c128_i32
  let v14 : BitVec 32 := v13
  let v18 : Index := Scalar.indexCast v14
  let c0_23 : Index := 0#32
  ![v18.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1024_S1x1024 : S1024.ShapeCasts S1x1024
  shapeCasts_S3072_S1x3072 : S3072.ShapeCasts S1x3072
  bitsLt_bf16_f32 : FTy.bits .bf16 < FTy.bits .f32
  h_S1x128x1024 : 0 < S1x128x1024.numel
  shapeCasts_S1x128x1024_S128x1024 : S1x128x1024.ShapeCasts S128x1024
  shapeCasts_S128x1024_S1x128x1024 : S128x1024.ShapeCasts S1x128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S1x128x4 : 0 < S1x128x4.numel
  shapeCasts_S1x128x4_S128x4 : S1x128x4.ShapeCasts S128x4
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S128x1024 : S1x1024.Broadcasts S128x1024
  h_S128x1024 : 0 < S128x1024.numel
  shapeCasts_S128x1024_S128x1024 : S128x1024.ShapeCasts S128x1024
  reduces_S128x1024_S1024 : S128x1024.Reduces [0] S1024
  inb_S3072x1024_S1024x1024_0_0 : ∀ a, (![0, 0] : Fin 2 → Nat) a + S1024x1024.size a ≤ S3072x1024.size a
  inb_S3072x1024_S1024x1024_1024_0 : ∀ a, (![1024, 0] : Fin 2 → Nat) a + S1024x1024.size a ≤ S3072x1024.size a
  inb_S3072x1024_S1024x1024_2048_0 : ∀ a, (![2048, 0] : Fin 2 → Nat) a + S1024x1024.size a ≤ S3072x1024.size a
  inb_S1x3072_S1x1024_0_0 : ∀ a, (![0, 0] : Fin 2 → Nat) a + S1x1024.size a ≤ S1x3072.size a
  inb_S1x3072_S1x1024_0_1024 : ∀ a, (![0, 1024] : Fin 2 → Nat) a + S1x1024.size a ≤ S1x3072.size a
  inb_S1x3072_S1x1024_0_2048 : ∀ a, (![0, 2048] : Fin 2 → Nat) a + S1x1024.size a ≤ S1x3072.size a
  shapeCasts_S16x1024x1024_S16384x1024 : S16x1024x1024.ShapeCasts S16384x1024
  dot_S128x4_S1024x4_S128x1024_1_1_0_0_n_n_wf : DotDims.WF S128x4 S1024x4 S128x1024 [1] [1] [0] [0] [] []
  dot_S128x1024_S1024x1024_S128x1024_1_1_0_0_n_n_wf : DotDims.WF S128x1024 S1024x1024 S128x1024 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x1024.size a ≤ S1x1024x1024.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S1x128x1024.size a ≤ S1x1024x1024.size a
  k0_off3_inb : ∀ k0_t2 : Fin k0_t2_loop.trips, ∀ a, (k0_off3 k0_t2) a + S1x128x4.size a ≤ S1x1024x4.size a
  k0_off4_inb : ∀ k0_t2 : Fin k0_t2_loop.trips, ∀ a, (k0_off4 k0_t2) a + S128x1024.size a ≤ S1024x1024.size a
  k0_off4_packedbf16 : ∀ k0_t2 : Fin k0_t2_loop.trips, (Rect.unit (s := S1024x1024) (k0_off4 k0_t2) S128x1024.size (k0_off4_inb k0_t2)).PackedRows (EltTy.packing .bf16)
  k0_t3_ok : k0_t3_loop.OK
  k0_mult3_dvd : ∀ k0_t3 : Fin k0_t3_loop.trips, 128 ∣ (k0_mult3 k0_t3).toNat
  k0_off5_inb : ∀ k0_t3 : Fin k0_t3_loop.trips, ∀ a, (k0_off5 k0_t3) a + S1x128x1024.size a ≤ S1x1024x1024.size a
  k0_off6_inb : ∀ k0_t3 : Fin k0_t3_loop.trips, ∀ a, (k0_off6 k0_t3) a + S128x1024.size a ≤ S1024x1024.size a
  k0_t4_ok : k0_t4_loop.OK
  k0_mult4_dvd : ∀ k0_t4 : Fin k0_t4_loop.trips, 128 ∣ (k0_mult4 k0_t4).toNat
  k0_off7_inb : ∀ k0_t4 : Fin k0_t4_loop.trips, ∀ a, (k0_off7 k0_t4) a + S1x128x1024.size a ≤ S1x1024x1024.size a
  k0_off8_inb : ∀ k0_t4 : Fin k0_t4_loop.trips, ∀ a, (k0_off8 k0_t4) a + S1x128x4.size a ≤ S1x1024x4.size a
  k0_off9_inb : ∀ k0_t4 : Fin k0_t4_loop.trips, ∀ a, (k0_off9 k0_t4) a + S128x1024.size a ≤ S1024x1024.size a
  k0_off9_packedbf16 : ∀ k0_t4 : Fin k0_t4_loop.trips, (Rect.unit (s := S1024x1024) (k0_off9 k0_t4) S128x1024.size (k0_off9_inb k0_t4)).PackedRows (EltTy.packing .bf16)
  k0_t5_ok : k0_t5_loop.OK
  k0_mult5_dvd : ∀ k0_t5 : Fin k0_t5_loop.trips, 128 ∣ (k0_mult5 k0_t5).toNat
  k0_off10_inb : ∀ k0_t5 : Fin k0_t5_loop.trips, ∀ a, (k0_off10 k0_t5) a + S1x128x1024.size a ≤ S1x1024x1024.size a
  k0_off11_inb : ∀ k0_t5 : Fin k0_t5_loop.trips, ∀ a, (k0_off11 k0_t5) a + S128x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4.size a ≤ S16x1024x4.size a
  hwx0_1 : ∀ i : grid0.Coords, EltTy.bits .f32 = 32 ∨ (Rect.block (s := S16x1024x4) S1x1024x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S1024x4.size a
  hwx0_2 : ∀ i : grid0.Coords, EltTy.bits .bf16 = 32 ∨ (Rect.block (s := S1024x4) S1024x4.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3072x1024.size a ≤ S3072x1024.size a
  hwx0_6 : ∀ i : grid0.Coords, EltTy.bits .bf16 = 32 ∨ (Rect.block (s := S3072x1024) S3072x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072x1024.size a ≤ S3072x1024.size a
  hwx0_7 : ∀ i : grid0.Coords, EltTy.bits .bf16 = 32 ∨ (Rect.block (s := S3072x1024) S3072x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3072.size a ≤ S1x3072.size a
  hwx0_8 : ∀ i : grid0.Coords, EltTy.bits .f32 = 32 ∨ (Rect.block (s := S1x3072) S1x3072.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3072.size a ≤ S1x3072.size a
  hwx0_9 : ∀ i : grid0.Coords, EltTy.bits .f32 = 32 ∨ (Rect.block (s := S1x3072) S1x3072.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x1024.size a ≤ S16x1024x1024.size a
  hwx0_10 : ∀ i : grid0.Coords, EltTy.bits .f32 = 32 ∨ (Rect.block (s := S16x1024x1024) S1x1024x1024.size (cc0_transform_10 i) (hinb0_10 i)).WholeWords (EltTy.packing .f32)

variable [Facts₀]

def dot_S128x4_S1024x4_S128x1024_1_1_0_0_n_n : DotDims S128x4 S1024x4 S128x1024 where
  lhsContracting := [1]
  rhsContracting := [1]
  lhsNonContracting := [0]
  rhsNonContracting := [0]
  lhsBatch := []
  rhsBatch := []
  wf := dot_S128x4_S1024x4_S128x1024_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S3072x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S3072x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x3072.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1024x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S16x1024x4 : Shape := ⟨3, ![16, 1024, 4]⟩
abbrev S1024x4 : Shape := ⟨2, ![1024, 4]⟩
abbrev S1024 : Shape := ⟨1, ![1024]⟩
abbrev S1024x1024 : Shape := ⟨2, ![1024, 1024]⟩
abbrev S3072x1024 : Shape := ⟨2, ![3072, 1024]⟩
abbrev S3072 : Shape := ⟨1, ![3072]⟩
abbrev S1x1x1024 : Shape := ⟨3, ![1, 1, 1024]⟩
abbrev S_ : Shape := ⟨0, ![]⟩
abbrev S16x1024 : Shape := ⟨2, ![16, 1024]⟩
abbrev S16x1x1024 : Shape := ⟨3, ![16, 1, 1024]⟩
abbrev S16x1024x3072 : Shape := ⟨3, ![16, 1024, 3072]⟩
abbrev S1x1x3072 : Shape := ⟨3, ![1, 1, 3072]⟩
abbrev S16384x1024 : Shape := ⟨2, ![16384, 1024]⟩

abbrev nBuf : Space → Nat
  | .hbm => 129
  | .vmem => 0
  | .smem => 0
  | _ => 0

abbrev hbmTy0_0 (i : Nat) : BufTy := match i % 128 with
  | 0 => ⟨S16x1024x1024, .f32⟩
  | 1 => ⟨S16x1024x4, .f32⟩
  | 2 => ⟨S1024x4, .f32⟩
  | 3 => ⟨S1024, .f32⟩
  | 4 => ⟨S1024x1024, .f32⟩
  | 5 => ⟨S1024, .f32⟩
  | 6 => ⟨S3072x1024, .f32⟩
  | 7 => ⟨S3072x1024, .f32⟩
  | 8 => ⟨S3072, .f32⟩
  | 9 => ⟨S3072, .f32⟩
  | 10 => ⟨S16x1024x1024, .f32⟩
  | 11 => ⟨S1x1x1024, .f32⟩
  | 12 => ⟨S16x1024x1024, .f32⟩
  | 13 => ⟨S16x1024x1024, .f32⟩
  | 14 => ⟨S16x1024x1024, .f32⟩
  | 15 => ⟨S_, .f32⟩
  | 16 => ⟨S16x1024x1024, .f32⟩
  | 17 => ⟨S16x1024x1024, .f32⟩
  | 18 => ⟨S16x1024x1024, .f32⟩
  | 19 => ⟨S1x1x1024, .f32⟩
  | 20 => ⟨S16x1024x1024, .f32⟩
  | 21 => ⟨S16x1024x1024, .f32⟩
  | 22 => ⟨S_, .f32⟩
  | 23 => ⟨S16x1024, .f32⟩
  | 24 => ⟨S16x1x1024, .f32⟩
  | 25 => ⟨S16x1024x1024, .f32⟩
  | 26 => ⟨S16x1024x1024, .f32⟩
  | 27 => ⟨S_, .f32⟩
  | 28 => ⟨S16x1024x1024, .f32⟩
  | 29 => ⟨S16x1024x1024, .f32⟩
  | 30 => ⟨S16x1024x3072, .f32⟩
  | 31 => ⟨S1x1x3072, .f32⟩
  | 32 => ⟨S16x1024x3072, .f32⟩
  | 33 => ⟨S16x1024x3072, .f32⟩
  | 34 => ⟨S16x1024x3072, .f32⟩
  | 35 => ⟨S1x1x3072, .f32⟩
  | 36 => ⟨S16x1024x3072, .f32⟩
  | 37 => ⟨S16x1024x3072, .f32⟩
  | 38 => ⟨S16x1024x1024, .f32⟩
  | 39 => ⟨S16x1024x1024, .f32⟩
  | 40 => ⟨S16x1024x1024, .f32⟩
  | 41 => ⟨S16x1024x1024, .f32⟩
  | 42 => ⟨S16x1024x1024, .f32⟩
  | 43 => ⟨S16x1024x1024, .f32⟩
  | 44 => ⟨S16x1024x1024, .f32⟩
  | 45 => ⟨S16x1024x1024, .f32⟩
  | 46 => ⟨S16x1024x1024, .f32⟩
  | 47 => ⟨S_, .f32⟩
  | 48 => ⟨S16x1024x1024, .f32⟩
  | 49 => ⟨S16x1024x1024, .f32⟩
  | 50 => ⟨S_, .f32⟩
  | 51 => ⟨S16x1024x1024, .f32⟩
  | 52 => ⟨S16x1024x1024, .f32⟩
  | 53 => ⟨S16x1024x1024, .f32⟩
  | 54 => ⟨S16x1024x1024, .f32⟩
  | 55 => ⟨S16x1024x1024, .f32⟩
  | 56 => ⟨S_, .f32⟩
  | 57 => ⟨S16x1024x1024, .f32⟩
  | 58 => ⟨S16x1024x1024, .f32⟩
  | 59 => ⟨S_, .f32⟩
  | 60 => ⟨S16x1024x1024, .f32⟩
  | 61 => ⟨S16x1024x1024, .f32⟩
  | 62 => ⟨S16x1024x1024, .f32⟩
  | 63 => ⟨S16x1024x1024, .f32⟩
  | 64 => ⟨S16x1024x1024, .f32⟩
  | 65 => ⟨S_, .f32⟩
  | 66 => ⟨S16x1024x1024, .f32⟩
  | 67 => ⟨S16x1024x1024, .f32⟩
  | 68 => ⟨S16x1024x1024, .f32⟩
  | 69 => ⟨S16x1024x1024, .f32⟩
  | 70 => ⟨S16x1024x1024, .f32⟩
  | 71 => ⟨S16x1024x1024, .f32⟩
  | 72 => ⟨S_, .f32⟩
  | 73 => ⟨S16x1024x1024, .f32⟩
  | 74 => ⟨S16x1024x1024, .f32⟩
  | 75 => ⟨S16x1024x1024, .f32⟩
  | 76 => ⟨S1x1x1024, .f32⟩
  | 77 => ⟨S16x1024x1024, .f32⟩
  | 78 => ⟨S16x1024x1024, .f32⟩
  | 79 => ⟨S_, .f32⟩
  | 80 => ⟨S16x1024, .f32⟩
  | 81 => ⟨S16x1x1024, .f32⟩
  | 82 => ⟨S16x1024x1024, .f32⟩
  | 83 => ⟨S16x1024x1024, .f32⟩
  | 84 => ⟨S_, .f32⟩
  | 85 => ⟨S16x1024x1024, .f32⟩
  | 86 => ⟨S16x1024x1024, .f32⟩
  | 87 => ⟨S16x1024x3072, .f32⟩
  | 88 => ⟨S1x1x3072, .f32⟩
  | 89 => ⟨S16x1024x3072, .f32⟩
  | 90 => ⟨S16x1024x3072, .f32⟩
  | 91 => ⟨S16x1024x3072, .f32⟩
  | 92 => ⟨S1x1x3072, .f32⟩
  | 93 => ⟨S16x1024x3072, .f32⟩
  | 94 => ⟨S16x1024x3072, .f32⟩
  | 95 => ⟨S16x1024x1024, .f32⟩
  | 96 => ⟨S16x1024x1024, .f32⟩
  | 97 => ⟨S16x1024x1024, .f32⟩
  | 98 => ⟨S16x1024x1024, .f32⟩
  | 99 => ⟨S16x1024x1024, .f32⟩
  | 100 => ⟨S16x1024x1024, .f32⟩
  | 101 => ⟨S16x1024x1024, .f32⟩
  | 102 => ⟨S16x1024x1024, .f32⟩
  | 103 => ⟨S16x1024x1024, .f32⟩
  | 104 => ⟨S_, .f32⟩
  | 105 => ⟨S16x1024x1024, .f32⟩
  | 106 => ⟨S16x1024x1024, .f32⟩
  | 107 => ⟨S_, .f32⟩
  | 108 => ⟨S16x1024x1024, .f32⟩
  | 109 => ⟨S16x1024x1024, .f32⟩
  | 110 => ⟨S16x1024x1024, .f32⟩
  | 111 => ⟨S16x1024x1024, .f32⟩
  | 112 => ⟨S16x1024x1024, .f32⟩
  | 113 => ⟨S_, .f32⟩
  | 114 => ⟨S16x1024x1024, .f32⟩
  | 115 => ⟨S16x1024x1024, .f32⟩
  | 116 => ⟨S_, .f32⟩
  | 117 => ⟨S16x1024x1024, .f32⟩
  | 118 => ⟨S16x1024x1024, .f32⟩
  | 119 => ⟨S16x1024x1024, .f32⟩
  | 120 => ⟨S16x1024x1024, .f32⟩
  | 121 => ⟨S16x1024x1024, .f32⟩
  | 122 => ⟨S_, .f32⟩
  | 123 => ⟨S16x1024x1024, .f32⟩
  | 124 => ⟨S16x1024x1024, .f32⟩
  | 125 => ⟨S16x1024x1024, .f32⟩
  | 126 => ⟨S16x1024x1024, .f32⟩
  | 127 => ⟨S16x1024x1024, .f32⟩
  | _ => ⟨S16x1024x1024, .f32⟩

abbrev hbmTy0_1 (i : Nat) : BufTy := match i % 128 with
  | 0 => ⟨S16384x1024, .f32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call1_cst : Ref sig .tc := ⟨.hbm, 72, rfl⟩
abbrev main_call1_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_8 : Ref sig .tc := ⟨.hbm, 104, rfl⟩
abbrev main_v81 : Ref sig .tc := ⟨.hbm, 105, rfl⟩
abbrev main_v82 : Ref sig .tc := ⟨.hbm, 106, rfl⟩
abbrev main_cst_9 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_10 : Ref sig .tc := ⟨.hbm, 113, rfl⟩
abbrev main_v88 : Ref sig .tc := ⟨.hbm, 114, rfl⟩
abbrev main_v89 : Ref sig .tc := ⟨.hbm, 115, rfl⟩
abbrev main_cst_11 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_12 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  bcast_S_S16x1024x1024 : S_.BroadcastsInDim S16x1024x1024 (![] : Fin 0 → Fin S16x1024x1024.rank)
  reducesTo_S16x1024x1024_S16x1024_d1 : S16x1024x1024.ReducesTo [1] S16x1024
  h_S_ : 0 < S_.numel
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  bcast_S3072_S1x1x3072_2 : S3072.BroadcastsInDim S1x1x3072 (![2] : Fin 1 → Fin S1x1x3072.rank)
  bcast_S1x1x3072_S16x1024x3072_0_1_2 : S1x1x3072.BroadcastsInDim S16x1024x3072 (![0, 1, 2] : Fin 3 → Fin S16x1024x3072.rank)
  slices_S16x1024x3072_S16x1024x1024_0_0_0 : S16x1024x3072.Slices ![0, 0, 0] S16x1024x1024
  slices_S16x1024x3072_S16x1024x1024_0_0_1024 : S16x1024x3072.Slices ![0, 0, 1024] S16x1024x1024
  slices_S16x1024x3072_S16x1024x1024_0_0_2048 : S16x1024x3072.Slices ![0, 0, 2048] S16x1024x1024
  shapeCasts_S16x1024x1024_S16384x1024 : S16x1024x1024.ShapeCasts S16384x1024
  dot_S16x1024x4_S1024x4_S16x1024x1024_2_1_01_0_n_n_wf : DotDims.WF S16x1024x4 S1024x4 S16x1024x1024 [2] [1] [0, 1] [0] [] []
  dot_S16x1024x1024_S1024x1024_S16x1024x1024_2_1_01_0_n_n_wf : DotDims.WF S16x1024x1024 S1024x1024 S16x1024x1024 [2] [1] [0, 1] [0] [] []
  dot_S16x1024x1024_S3072x1024_S16x1024x3072_2_1_01_0_n_n_wf : DotDims.WF S16x1024x1024 S3072x1024 S16x1024x3072 [2] [1] [0, 1] [0] [] []

variable [Facts₀]

def dot_S16x1024x4_S1024x4_S16x1024x1024_2_1_01_0_n_n : DotDims S16x1024x4 S1024x4 S16x1024x1024 where
  lhsContracting := [2]
  rhsContracting := [1]
  lhsNonContracting := [0, 1]
  rhsNonContracting := [0]
  lhsBatch := []
  rhsBatch := []
  wf := dot_S16x1024x4_S1024x4_S16x1024x1024_2_1_01_0_n_n_wf
def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S3072x1024_S16x1024x3072_2_1_01_0_n_n : DotDims S16x1024x1024 S3072x1024 S16x1024x3072 where
  lhsContracting := [2]
  rhsContracting := [1]
  lhsNonContracting := [0, 1]
  rhsNonContracting := [0]
  lhsBatch := []
  rhsBatch := []
  wf := dot_S16x1024x1024_S3072x1024_S16x1024x3072_2_1_01_0_n_n_wf

class Facts : Prop extends Facts₀ where

variable [Facts]
-- ==== Proof.KTrips.lean ====
/-
  What one trip of each of the kernel body's five counted loops stores, read off the run of that trip: one store per
  written buffer, at the trip's row offset, of the body's arithmetic applied to the trip's loads.
-/
import proofs.«127752_j39092792328632_2_alg».proof.Proof.Gen.KernelIdeal.Loops
import Idealize.ShloMosaic.Lib.WritesUnit
set_option maxRecDepth 16384
noncomputable section
namespace Cert.KernelIdeal.Trips
open Idealize.ShloMosaic Idealize.ShloMosaic.TcCoe Idealize.ShloMosaic.Tactic Cert.KernelIdeal Cert.KernelIdeal.Gen
variable {F : FTy → Type} [FloatOps F] [Named F]
variable (𝒱 : Variants) (c : Dev nD) (bd : Option 𝒱.V) (i : grid0.Coords) (arg1 : Memref sig .tc .vmem S1x1024x1024 .f32) (harg1 : arg1.IsWhole) (arg2 : Memref sig .tc .vmem S1x1024x4 .f32) (harg2 : arg2.IsWhole) (arg3 : Memref sig .tc .vmem S1024x4 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S3072x1024 .bf16) (harg7 : arg7.IsWhole) (arg8 : Memref sig .tc .vmem S3072x1024 .bf16) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1x1024 .f32) (harg13 : arg13.IsWhole)

/-- Trip `k` of the copying loop stores rows `128 k … 128 k + 127` of the features block into the same rows of the state. -/
theorem trip1_eq (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 k
      = [(⟨Rect.unit (s := S1x1024x1024) (k0_off1 k) S1x128x1024.size (k0_off1_inb k),
          k0_pay1 (View.readAt (Elt F) arg1.view (Rect.unit (s := S1x1024x1024) (k0_off1 k) S1x128x1024.size (k0_off1_inb k)).toLoadRect X_arg1)⟩ : View.Piece (Elt F) S1x1024x1024 .f32)] := by
  unfold tripL_k0_t1 trip_k0_t1
  rfl

/-- Trip `k` of the first round's message loop stores, into rows `128 k … 128 k + 127` of the message buffer, the messages of
    those regions, and into the running sum the sum found there plus the tile's column sums. -/
theorem trip2_eq (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (k : Fin k0_t2_loop.trips) (f_arg12 : BufTy.Contents (Elt F) arg12.view.ty) (f_arg13 : BufTy.Contents (Elt F) arg13.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 k f_arg12 f_arg13
      = ([(⟨Rect.unit (s := S1024x1024) (k0_off4 k) S128x1024.size (k0_off4_inb k), k0_pay7
        (View.readAt (Elt F) arg11.view (Rect.unit (s := S1x1024x1024) (k0_off2 k) S1x128x1024.size (k0_off2_inb k)).toLoadRect X_arg11)
        (View.readAt (Elt F) arg2.view (Rect.unit (s := S1x1024x4) (k0_off3 k) S1x128x4.size (k0_off3_inb k)).toLoadRect X_arg2)
        (View.readAt (Elt F) arg3.view (Rect.unit (s := S1024x4) ![0, 0] S1024x4.size inb_S1024x4_S1024x4_0_0).toLoadRect X_arg3)
        (View.readAt (Elt F) arg4.view (Rect.unit (s := S1x1024) ![0, 0] S1x1024.size inb_S1x1024_S1x1024_0_0).toLoadRect X_arg4)
        (View.readAt (Elt F) arg5.view (Rect.unit (s := S1024x1024) ![0, 0] S1024x1024.size inb_S1024x1024_S1024x1024_0_0).toLoadRect X_arg5)
        (View.readAt (Elt F) arg6.view (Rect.unit (s := S1x1024) ![0, 0] S1x1024.size inb_S1x1024_S1x1024_0_0).toLoadRect X_arg6)⟩ : View.Piece (Elt F) S1024x1024 .bf16)],
         [(⟨Rect.unit (s := S1x1024) ![0, 0] S1x1024.size inb_S1x1024_S1x1024_0_0, k0_pay3 (k0_pay8
        (View.readAt (Elt F) arg11.view (Rect.unit (s := S1x1024x1024) (k0_off2 k) S1x128x1024.size (k0_off2_inb k)).toLoadRect X_arg11)
        (View.readAt (Elt F) arg2.view (Rect.unit (s := S1x1024x4) (k0_off3 k) S1x128x4.size (k0_off3_inb k)).toLoadRect X_arg2)
        (View.readAt (Elt F) arg3.view (Rect.unit (s := S1024x4) ![0, 0] S1024x4.size inb_S1024x4_S1024x4_0_0).toLoadRect X_arg3)
        (View.readAt (Elt F) arg4.view (Rect.unit (s := S1x1024) ![0, 0] S1x1024.size inb_S1x1024_S1x1024_0_0).toLoadRect X_arg4)
        (View.readAt (Elt F) arg5.view (Rect.unit (s := S1024x1024) ![0, 0] S1024x1024.size inb_S1024x1024_S1024x1024_0_0).toLoadRect X_arg5)
        (View.readAt (Elt F) arg6.view (Rect.unit (s := S1x1024) ![0, 0] S1x1024.size inb_S1x1024_S1x1024_0_0).toLoadRect X_arg6)
        (View.readAt (Elt F) arg13.view (Rect.unit (s := S1x1024) ![0, 0] S1x1024.size inb_S1x1024_S1x1024_0_0).toLoadRect f_arg13))⟩ : View.Piece (Elt F) S1x1024 .f32)]) := by
  unfold tripL_k0_t2 trip_k0_t2
  rfl

/-- Trip `k` of the first round's update loop stores, into rows `128 k … 128 k + 127` of the state, the cell's output computed
    from those rows of the state as the trip finds it, the same rows of the message buffer, and the running sum. -/
theorem trip3_eq (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (k : Fin k0_t3_loop.trips) (f_arg11 : BufTy.Contents (Elt F) arg11.view.ty) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 X_arg12 X_arg13 k f_arg11
      = [(⟨Rect.unit (s := S1x1024x1024) (k0_off5 k) S1x128x1024.size (k0_off5_inb k), k0_pay20
        (k0_pay9 (View.readAt (Elt F) arg11.view (Rect.unit (s := S1x1024x1024) (k0_off5 k) S1x128x1024.size (k0_off5_inb k)).toLoadRect f_arg11))
        (k0_pay10 (View.readAt (Elt F) arg12.view (Rect.unit (s := S1024x1024) (k0_off6 k) S128x1024.size (k0_off6_inb k)).toLoadRect X_arg12) (View.readAt (Elt F) arg13.view (Rect.unit (s := S1x1024) ![0, 0] S1x1024.size inb_S1x1024_S1x1024_0_0).toLoadRect X_arg13))
        (k0_pay11 (View.readAt (Elt F) arg7.view (Rect.unit (s := S3072x1024) ![0, 0] S1024x1024.size inb_S3072x1024_S1024x1024_0_0).toLoadRect X_arg7))
        (k0_pay12 (View.readAt (Elt F) arg7.view (Rect.unit (s := S3072x1024) ![1024, 0] S1024x1024.size inb_S3072x1024_S1024x1024_1024_0).toLoadRect X_arg7))
        (k0_pay13 (View.readAt (Elt F) arg7.view (Rect.unit (s := S3072x1024) ![2048, 0] S1024x1024.size inb_S3072x1024_S1024x1024_2048_0).toLoadRect X_arg7))
        (k0_pay14 (View.readAt (Elt F) arg8.view (Rect.unit (s := S3072x1024) ![0, 0] S1024x1024.size inb_S3072x1024_S1024x1024_0_0).toLoadRect X_arg8))
        (k0_pay15 (View.readAt (Elt F) arg8.view (Rect.unit (s := S3072x1024) ![1024, 0] S1024x1024.size inb_S3072x1024_S1024x1024_1024_0).toLoadRect X_arg8))
        (k0_pay16 (View.readAt (Elt F) arg8.view (Rect.unit (s := S3072x1024) ![2048, 0] S1024x1024.size inb_S3072x1024_S1024x1024_2048_0).toLoadRect X_arg8))
        (k0_pay17 (View.readAt (Elt F) arg9.view (Rect.unit (s := S1x3072) ![0, 0] S1x1024.size inb_S1x3072_S1x1024_0_0).toLoadRect X_arg9))
        (k0_pay18 (View.readAt (Elt F) arg9.view (Rect.unit (s := S1x3072) ![0, 1024] S1x1024.size inb_S1x3072_S1x1024_0_1024).toLoadRect X_arg9))
        (k0_pay19 (View.readAt (Elt F) arg9.view (Rect.unit (s := S1x3072) ![0, 2048] S1x1024.size inb_S1x3072_S1x1024_0_2048).toLoadRect X_arg9))
        (View.readAt (Elt F) arg10.view (Rect.unit (s := S1x3072) ![0, 0] S1x1024.size inb_S1x3072_S1x1024_0_0).toLoadRect X_arg10)
        (View.readAt (Elt F) arg10.view (Rect.unit (s := S1x3072) ![0, 1024] S1x1024.size inb_S1x3072_S1x1024_0_1024).toLoadRect X_arg10)
        (View.readAt (Elt F) arg10.view (Rect.unit (s := S1x3072) ![0, 2048] S1x1024.size inb_S1x3072_S1x1024_0_2048).toLoadRect X_arg10)⟩ : View.Piece (Elt F) S1x1024x1024 .f32)] := by
  unfold tripL_k0_t3 trip_k0_t3
  rfl

/-- Trip `k` of the second round's message loop stores, into rows `128 k … 128 k + 127` of the message buffer, the messages of
    those regions, and into the running sum the sum found there plus the tile's column sums. -/
theorem trip4_eq (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (k : Fin k0_t4_loop.trips) (f_arg12 : BufTy.Contents (Elt F) arg12.view.ty) (f_arg13 : BufTy.Contents (Elt F) arg13.view.ty) :
    tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 k f_arg12 f_arg13
      = ([(⟨Rect.unit (s := S1024x1024) (k0_off9 k) S128x1024.size (k0_off9_inb k), k0_pay22
        (View.readAt (Elt F) arg11.view (Rect.unit (s := S1x1024x1024) (k0_off7 k) S1x128x1024.size (k0_off7_inb k)).toLoadRect X_arg11)
        (View.readAt (Elt F) arg2.view (Rect.unit (s := S1x1024x4) (k0_off8 k) S1x128x4.size (k0_off8_inb k)).toLoadRect X_arg2)
        (View.readAt (Elt F) arg3.view (Rect.unit (s := S1024x4) ![0, 0] S1024x4.size inb_S1024x4_S1024x4_0_0).toLoadRect X_arg3)
        (View.readAt (Elt F) arg4.view (Rect.unit (s := S1x1024) ![0, 0] S1x1024.size inb_S1x1024_S1x1024_0_0).toLoadRect X_arg4)
        (View.readAt (Elt F) arg5.view (Rect.unit (s := S1024x1024) ![0, 0] S1024x1024.size inb_S1024x1024_S1024x1024_0_0).toLoadRect X_arg5)
        (View.readAt (Elt F) arg6.view (Rect.unit (s := S1x1024) ![0, 0] S1x1024.size inb_S1x1024_S1x1024_0_0).toLoadRect X_arg6)⟩ : View.Piece (Elt F) S1024x1024 .bf16)],
         [(⟨Rect.unit (s := S1x1024) ![0, 0] S1x1024.size inb_S1x1024_S1x1024_0_0, k0_pay5 (k0_pay23
        (View.readAt (Elt F) arg11.view (Rect.unit (s := S1x1024x1024) (k0_off7 k) S1x128x1024.size (k0_off7_inb k)).toLoadRect X_arg11)
        (View.readAt (Elt F) arg2.view (Rect.unit (s := S1x1024x4) (k0_off8 k) S1x128x4.size (k0_off8_inb k)).toLoadRect X_arg2)
        (View.readAt (Elt F) arg3.view (Rect.unit (s := S1024x4) ![0, 0] S1024x4.size inb_S1024x4_S1024x4_0_0).toLoadRect X_arg3)
        (View.readAt (Elt F) arg4.view (Rect.unit (s := S1x1024) ![0, 0] S1x1024.size inb_S1x1024_S1x1024_0_0).toLoadRect X_arg4)
        (View.readAt (Elt F) arg5.view (Rect.unit (s := S1024x1024) ![0, 0] S1024x1024.size inb_S1024x1024_S1024x1024_0_0).toLoadRect X_arg5)
        (View.readAt (Elt F) arg6.view (Rect.unit (s := S1x1024) ![0, 0] S1x1024.size inb_S1x1024_S1x1024_0_0).toLoadRect X_arg6)
        (View.readAt (Elt F) arg13.view (Rect.unit (s := S1x1024) ![0, 0] S1x1024.size inb_S1x1024_S1x1024_0_0).toLoadRect f_arg13))⟩ : View.Piece (Elt F) S1x1024 .f32)]) := by
  unfold tripL_k0_t4 trip_k0_t4
  rfl

/-- Trip `k` of the second round's update loop stores, into rows `128 k … 128 k + 127` of the state, the cell's output computed
    from those rows of the state as the trip finds it, the same rows of the message buffer, and the running sum. -/
theorem trip5_eq (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (k : Fin k0_t5_loop.trips) (f_arg11 : BufTy.Contents (Elt F) arg11.view.ty) :
    tripL_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 X_arg12 X_arg13 k f_arg11
      = [(⟨Rect.unit (s := S1x1024x1024) (k0_off10 k) S1x128x1024.size (k0_off10_inb k), k0_pay35
        (k0_pay24 (View.readAt (Elt F) arg11.view (Rect.unit (s := S1x1024x1024) (k0_off10 k) S1x128x1024.size (k0_off10_inb k)).toLoadRect f_arg11))
        (k0_pay25 (View.readAt (Elt F) arg12.view (Rect.unit (s := S1024x1024) (k0_off11 k) S128x1024.size (k0_off11_inb k)).toLoadRect X_arg12) (View.readAt (Elt F) arg13.view (Rect.unit (s := S1x1024) ![0, 0] S1x1024.size inb_S1x1024_S1x1024_0_0).toLoadRect X_arg13))
        (k0_pay26 (View.readAt (Elt F) arg7.view (Rect.unit (s := S3072x1024) ![0, 0] S1024x1024.size inb_S3072x1024_S1024x1024_0_0).toLoadRect X_arg7))
        (k0_pay27 (View.readAt (Elt F) arg7.view (Rect.unit (s := S3072x1024) ![1024, 0] S1024x1024.size inb_S3072x1024_S1024x1024_1024_0).toLoadRect X_arg7))
        (k0_pay28 (View.readAt (Elt F) arg7.view (Rect.unit (s := S3072x1024) ![2048, 0] S1024x1024.size inb_S3072x1024_S1024x1024_2048_0).toLoadRect X_arg7))
        (k0_pay29 (View.readAt (Elt F) arg8.view (Rect.unit (s := S3072x1024) ![0, 0] S1024x1024.size inb_S3072x1024_S1024x1024_0_0).toLoadRect X_arg8))
        (k0_pay30 (View.readAt (Elt F) arg8.view (Rect.unit (s := S3072x1024) ![1024, 0] S1024x1024.size inb_S3072x1024_S1024x1024_1024_0).toLoadRect X_arg8))
        (k0_pay31 (View.readAt (Elt F) arg8.view (Rect.unit (s := S3072x1024) ![2048, 0] S1024x1024.size inb_S3072x1024_S1024x1024_2048_0).toLoadRect X_arg8))
        (k0_pay32 (View.readAt (Elt F) arg9.view (Rect.unit (s := S1x3072) ![0, 0] S1x1024.size inb_S1x3072_S1x1024_0_0).toLoadRect X_arg9))
        (k0_pay33 (View.readAt (Elt F) arg9.view (Rect.unit (s := S1x3072) ![0, 1024] S1x1024.size inb_S1x3072_S1x1024_0_1024).toLoadRect X_arg9))
        (k0_pay34 (View.readAt (Elt F) arg9.view (Rect.unit (s := S1x3072) ![0, 2048] S1x1024.size inb_S1x3072_S1x1024_0_2048).toLoadRect X_arg9))
        (View.readAt (Elt F) arg10.view (Rect.unit (s := S1x3072) ![0, 0] S1x1024.size inb_S1x3072_S1x1024_0_0).toLoadRect X_arg10)
        (View.readAt (Elt F) arg10.view (Rect.unit (s := S1x3072) ![0, 1024] S1x1024.size inb_S1x3072_S1x1024_0_1024).toLoadRect X_arg10)
        (View.readAt (Elt F) arg10.view (Rect.unit (s := S1x3072) ![0, 2048] S1x1024.size inb_S1x3072_S1x1024_0_2048).toLoadRect X_arg10)⟩ : View.Piece (Elt F) S1x1024x1024 .f32)] := by
  unfold tripL_k0_t5 trip_k0_t5
  rfl

end Cert.KernelIdeal.Trips
end
-- ==== Proof.LibRows.lean ====
/-
  Reading a buffer through unit-stride row blocks: a load of a block reads the buffer at the block's offsets plus the
  coordinate inside the block, and an index of a buffer of 1024 rows lies in the block of 128 rows that starts at row
  `o` exactly when its row does.
-/
import Idealize.ShloMosaic.Lib.WritesUnit
import Idealize.ShloMosaic.Lib.ValueIdx

namespace Cert.Lib.Rows

open Idealize.ShloMosaic Idealize.ShloMosaic.ValueIdx

variable {sig : RefSig} {κ : Kind} {sp : Space} {s : Shape} {e : EltTy} {Val : EltTy → Type}

/-- A load through a unit-stride rectangle reads, at position `x` of the rectangle, the buffer at the index whose
    coordinates are the offsets plus `x`'s. -/
theorem readAt_unit (v : View sig κ sp s e) (f : v.ty.Contents Val) (off size : Fin s.rank → ℕ)
    (inb : ∀ a, off a + size a ≤ s.size a) (x : (Rect.unit off size inb).shape.Idx) (y : s.Idx)
    (hy : ∀ a, (y a).val = off a + (x a).val) :
    v.readAt Val (Rect.unit off size inb).toLoadRect f x = v.read Val f y := by
  rw [View.readAt_apply]
  refine congrArg _ (funext fun a => Fin.ext ?_)
  rw [LoadRect.idx_apply, hy a]
  show off a + 1 * (x a).val = _
  rw [Nat.one_mul]

/-- The same with the offsets given by an equation. -/
theorem readAt_unit' (v : View sig κ sp s e) (f : v.ty.Contents Val) (off off' size : Fin s.rank → ℕ)
    (inb : ∀ a, off a + size a ≤ s.size a) (x : (Rect.unit off size inb).shape.Idx) (y : s.Idx) (heq : off = off')
    (hy : ∀ a, (y a).val = off' a + (x a).val) :
    v.readAt Val (Rect.unit off size inb).toLoadRect f x = v.read Val f y := by
  subst heq; exact readAt_unit v f off size inb x y hy

end Cert.Lib.Rows
-- ==== Proof.KLoop1.lean ====
/-
  The copying loop: after its eight trips the state block holds the features block.
-/
import proofs.«127752_j39092792328632_2_alg».proof.Proof.KTrips
import proofs.«127752_j39092792328632_2_alg».proof.Proof.LibRows
import Idealize.ShloMosaic.Lib.ValueLayout
set_option maxRecDepth 16384
noncomputable section
namespace Cert.KernelIdeal.Loop1
open Idealize.ShloMosaic Idealize.ShloMosaic.TcCoe Idealize.ShloMosaic.ValueIdx Cert.KernelIdeal Cert.KernelIdeal.Gen Cert.Lib.Rows
open scoped BigOperators
variable (𝒱 : Variants) (c : Dev nD) (bd : Option 𝒱.V) (i : grid0.Coords) (arg1 : Memref sig .tc .vmem S1x1024x1024 .f32) (harg1 : arg1.IsWhole) (arg2 : Memref sig .tc .vmem S1x1024x4 .f32) (harg2 : arg2.IsWhole) (arg3 : Memref sig .tc .vmem S1024x4 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S3072x1024 .bf16) (harg7 : arg7.IsWhole) (arg8 : Memref sig .tc .vmem S3072x1024 .bf16) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1x1024 .f32) (harg13 : arg13.IsWhole)

theorem trips1 : k0_t1_loop.trips = 8 := rfl

/-- The copying trip's payload is the block it loaded. -/
theorem pay1_at (v16 : Vec Ideal S1x128x1024 .f32) (p : Fin 128) (q : Fin 1024) :
    k0_pay1 (F := Ideal) v16 (ix3 (0 : Fin 1) p q) = v16 (ix3 (0 : Fin 1) p q) := by
  unfold k0_pay1
  exact (shapeCast_ab_1ab_apply _ _ _ _ _).trans (shapeCast_1ab_ab_apply _ _ _ _)

/-- After `k` trips of the copying loop the state's rows below `128 k` are the features', the rest as the loop found them. -/
theorem loop1_read (X_arg1 : BufTy.Contents (Elt Ideal) arg1.view.ty) (G : BufTy.Contents (Elt Ideal) arg11.view.ty)
    (k : ℕ) (hk : k ≤ 8) (r f : Fin 1024) :
    arg11.view.read (Elt Ideal) (arg11.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 k)) (ix3 (0 : Fin 1) r f)
      = if r.val < 128 * k then arg1.view.read (Elt Ideal) X_arg1 (ix3 (0 : Fin 1) r f)
        else arg11.view.read (Elt Ideal) G (ix3 (0 : Fin 1) r f) := by
  induction k with
  | zero => rw [if_neg (by omega)]; rfl
  | succ k ih =>
    have hk' : k < k0_t1_loop.trips := by rw [trips1]; omega
    have ih := ih (by omega)
    have hs : pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 (k + 1)
        = tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 ⟨k, hk'⟩ ++ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 k :=
      pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg1 ⟨k, hk'⟩
    rw [hs, Trips.trip1_eq, List.singleton_append]
    by_cases h1 : 128 * k ≤ r.val ∧ r.val < 128 * k + 128
    · rw [if_pos (by omega)]
      refine (View.read_writes_cons_unit_of_mem arg11.view G (k0_off1_inb _) _ _ (ix3 (0 : Fin 1) r f)
        (ix3 (0 : Fin 1) (⟨r.val - 128 * k, by omega⟩ : Fin 128) f) (k0_off1_eq _) ?_).trans ?_
      · intro a
        match a with
        | ⟨0, _⟩ => rfl
        | ⟨1, _⟩ => show r.val = 128 * k + (r.val - 128 * k); omega
        | ⟨2, _⟩ => show f.val = 0 + f.val; omega
      · refine (pay1_at _ _ _).trans ?_
        refine readAt_unit' arg1.view X_arg1 _ _ _ (k0_off1_inb _) _ _ (k0_off1_eq _) ?_
        intro a
        match a with
        | ⟨0, _⟩ => rfl
        | ⟨1, _⟩ => show r.val = 128 * k + (r.val - 128 * k); omega
        | ⟨2, _⟩ => show f.val = 0 + f.val; omega
    · rw [View.read_writes_cons_unit_of_not_mem arg11.view G (k0_off1_inb _) _ _ (ix3 (0 : Fin 1) r f) (k0_off1_eq _) 1
        (by show r.val < 128 * k ∨ 128 * k + 128 ≤ r.val; omega), ih]
      by_cases h2 : r.val < 128 * k
      · rw [if_pos h2, if_pos (by omega)]
      · rw [if_neg h2, if_neg (by omega)]

end Cert.KernelIdeal.Loop1
end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.GruSpec.lean ====
/-
  The mathematics both programs compute, for ONE image, over plain coordinates.

  An image has 1024 regions. A region `r` has a state row `h r` (1024 features) and a box `bx r` (4 numbers).
  One round of message passing:
    * the box features `boxFeat r f = (∑ k, bx r k · Wb f k) + bb f`;
    * the message of a region, `msg h r i = (∑ f, max (h r f · boxFeat r f) 0 · Wi i f) + bi i`;
    * the aggregate over the image, `agg h i = ∑ r, msg h r i`, and the input of region `r`: the mean of the OTHER
      regions' messages, `inp h r i = (agg h i − msg h r i) · (1/1023)`;
    * a gated-recurrent-unit cell on `(inp, h)`: with `gi = inp · Wihᵀ + bih` and `gh = h · Whhᵀ + bhh` (3072 = three gates of
      1024), `ρ = σ (gi₀ + gh₀)`, `ζ = σ (gi₁ + gh₁)`, `ν = tanh (gi₂ + ρ · gh₂)`, and the new state `(1 − ζ) · ν + ζ · h`.
  Both programs run two rounds from the given features. Everything is on the extended reals, with the operations'
  conventions at the infinities; no law of arithmetic beyond the ones stated here is used, so nothing depends on
  finiteness.
-/
import Idealize.ShloMosaic.PureOps.Ideal
import Idealize.ShloMosaic.Lib.ValueIdx

noncomputable section

namespace GruSpec

open Idealize.ShloMosaic
open scoped BigOperators

/-- The three gates' rows of a 3072-row weight matrix or bias. -/
abbrev gate0 (f : Fin 1024) : Fin 3072 := ⟨f.val, by have := f.isLt; omega⟩
abbrev gate1 (f : Fin 1024) : Fin 3072 := ⟨1024 + f.val, by have := f.isLt; omega⟩
abbrev gate2 (f : Fin 1024) : Fin 3072 := ⟨2048 + f.val, by have := f.isLt; omega⟩

section
variable (bx : Fin 1024 → Fin 4 → EReal) (Wb : Fin 1024 → Fin 4 → EReal) (bb : Fin 1024 → EReal)
  (Wi : Fin 1024 → Fin 1024 → EReal) (bi : Fin 1024 → EReal)
  (Wih Whh : Fin 3072 → Fin 1024 → EReal) (bih bhh : Fin 3072 → EReal)

/-- The box features of region `r`. -/
def boxFeat (r f : Fin 1024) : EReal := (∑ k : Fin 4, bx r k * Wb f k) + bb f

/-- The message of region `r`. -/
def msg (h : Fin 1024 → Fin 1024 → EReal) (r i : Fin 1024) : EReal :=
  (∑ f : Fin 1024, max (h r f * boxFeat bx Wb bb r f) 0 * Wi i f) + bi i

/-- The sum of all regions' messages. -/
def agg (h : Fin 1024 → Fin 1024 → EReal) (i : Fin 1024) : EReal :=
  ∑ r : Fin 1024, msg bx Wb bb Wi bi h r i

/-- The mean of the other regions' messages. -/
def inp (h : Fin 1024 → Fin 1024 → EReal) (r i : Fin 1024) : EReal :=
  (agg bx Wb bb Wi bi h i - msg bx Wb bb Wi bi h r i) * ((1 / 1023 : ℝ) : EReal)

/-- The input-side pre-activation of gate row `g`. -/
def gi (h : Fin 1024 → Fin 1024 → EReal) (r : Fin 1024) (g : Fin 3072) : EReal :=
  (∑ i : Fin 1024, inp bx Wb bb Wi bi h r i * Wih g i) + bih g

/-- The state-side pre-activation of gate row `g`. -/
def gh (h : Fin 1024 → Fin 1024 → EReal) (r : Fin 1024) (g : Fin 3072) : EReal :=
  (∑ f : Fin 1024, h r f * Whh g f) + bhh g

/-- The cell's output from the two pre-activations and the old state entry. -/
def cell (gi gh : Fin 3072 → EReal) (hold : EReal) (f : Fin 1024) : EReal :=
  (1 - Ideal.logistic (gi (gate1 f) + gh (gate1 f)))
      * Ideal.tanh (gi (gate2 f) + Ideal.logistic (gi (gate0 f) + gh (gate0 f)) * gh (gate2 f))
    + Ideal.logistic (gi (gate1 f) + gh (gate1 f)) * hold

/-- The same cell over the six pre-activation entries it reads. -/
def cellv (a0 b0 a1 b1 a2 b2 hold : EReal) : EReal :=
  (1 - Ideal.logistic (a1 + b1)) * Ideal.tanh (a2 + Ideal.logistic (a0 + b0) * b2) + Ideal.logistic (a1 + b1) * hold

theorem cell_eq_cellv (gi gh : Fin 3072 → EReal) (hold : EReal) (f : Fin 1024) :
    cell gi gh hold f
      = cellv (gi (gate0 f)) (gh (gate0 f)) (gi (gate1 f)) (gh (gate1 f)) (gi (gate2 f)) (gh (gate2 f)) hold := rfl

/-- One round. -/
def step (h : Fin 1024 → Fin 1024 → EReal) (r f : Fin 1024) : EReal :=
  cell (gi bx Wb bb Wi bi Wih bih h r) (gh Whh bhh h r) (h r f) f

/-- Two rounds. -/
def two (h : Fin 1024 → Fin 1024 → EReal) : Fin 1024 → Fin 1024 → EReal :=
  step bx Wb bb Wi bi Wih Whh bih bhh (step bx Wb bb Wi bi Wih Whh bih bhh h)

end

end GruSpec

end
-- ==== Proof.KPay.lean ====
/-
  The kernel's payloads read at an index, on the extended reals.

  Every value the kernel stores or carries around a loop is a pure function of the vectors read before it. Here each
  is read at explicit coordinates: a block row `p : Fin 128`, a feature or message column in `Fin 1024`, the unit
  coordinate `0 : Fin 1`. Shape casts that only add or drop a unit axis, and broadcasts of one row over a block, read
  the operand at the evident index; a product with the transpose of a weight matrix into a zero accumulator is the sum
  over the contracted column; the roundings to and from the narrow format are the identity on the extended reals.
  The second round's payloads are the first round's texts again.
-/
import proofs.«127752_j39092792328632_2_alg».proof.Proof.Gen.KernelIdeal.Skeleton
import proofs.«127752_j39092792328632_2_alg».proof.Proof.LibBlockReads
import proofs.«127752_j39092792328632_2_alg».proof.Proof.GruSpec
import Idealize.ShloMosaic.Lib.ValueLayout
import Idealize.ShloMosaic.Lib.Pipeline.Value
import Idealize.ShloMosaic.Lib.ValueIdx
import Idealize.ShloMosaic.Lib.IdealHost
import Idealize.ShloMosaic.PureOps.Ideal.Laws
import Idealize.ShloMosaic.PureOps.IdealRules

noncomputable section

namespace Cert.KernelIdeal.Pay

open Cert.KernelIdeal Cert.KernelIdeal.Gen Cert.Lib.BlockReads Idealize.ShloMosaic Idealize.ShloMosaic.ValueIdx
open scoped BigOperators

/-! ## Scalars, pointwise functions, and a block's column sums -/

/-- The zero word as a scalar is `0`. -/
theorem scalar_zero : Scalar.ofBits (F := Ideal) .f32 0x00000000#32 = 0 := Ideal.ofBits_zero_f32

/-- The word `0x3F800000` as a scalar is `1`. -/
theorem scalar_one : Scalar.ofBits (F := Ideal) .f32 0x3F800000#32 = 1 := Ideal.ofBits_one_f32

/-- The named constant is the rational `1/1023` the table gives it. -/
theorem inv_1023 :
    Named.named (F := Ideal) Cert.KernelIdeal.κ "inv_1023" (φ := .f32) 0x3A802008#32 = ((1 / 1023 : ℝ) : EReal) :=
  IdealRules.named_const.ideal_named_scalar _ _ _ _ rfl

section Pointwise
variable {s : Shape} {φ : FTy}

/-- The logistic function of a vector, at an index. -/
theorem logistic_apply (a : FVec Ideal s φ) (i : s.Idx) : logistic a i = Ideal.logistic (a i) := rfl

/-- The hyperbolic tangent of a vector, at an index. -/
theorem tanh_apply (a : FVec Ideal s φ) (i : s.Idx) : tanh a i = Ideal.tanh (a i) := rfl

end Pointwise

/-- The sum along the first axis of an a×b block is at column q the sum over p of the block at (p, q). -/
theorem sum_rows_apply {a b : Nat} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ p : Fin a, src (ix2 p q) := by
  rw [Ideal.multiReduction_add_single]
  refine Finset.sum_congr rfl fun p _ => congrArg src ?_
  funext ax; apply Fin.ext
  match ax with
  | ⟨0, _⟩ => rfl
  | ⟨1, _⟩ => rfl

/-! ## The stores outside the rounds -/

/-- Dropping the unit axis and putting it back reads the block itself. -/
theorem pay1_apply (v16 : Vec Ideal S1x128x1024 .f32) (p : Fin 128) (q : Fin 1024) :
    k0_pay1 (F := Ideal) v16 (ix3 0 p q) = v16 (ix3 0 p q) := by
  unfold k0_pay1
  exact (shapeCast_ab_1ab_apply _ _ 0 p q).trans (shapeCast_1ab_ab_apply v16 _ p q)

/-- The row of zeros the sum of the messages starts from. -/
theorem pay2_apply (i : Fin 1024) : k0_pay2 (F := Ideal) (ix2 0 i) = 0 := by
  unfold k0_pay2
  simp only [shapeCast_self, broadcast_apply, scalar_zero]

theorem pay3_eq (v48 : FVec Ideal S1x1024 .f32) : k0_pay3 (F := Ideal) v48 = v48 := by
  unfold k0_pay3; exact shapeCast_self _ _

/-- The row of zeros the second round's sum starts from. -/
theorem pay4_apply (i : Fin 1024) : k0_pay4 (F := Ideal) (ix2 0 i) = 0 := by
  unfold k0_pay4
  simp only [shapeCast_self, broadcast_apply, scalar_zero]

theorem pay5_eq (v48 : FVec Ideal S1x1024 .f32) : k0_pay5 (F := Ideal) v48 = v48 := by
  unfold k0_pay5; exact shapeCast_self _ _

/-! ## The first round -/

/-- The message block: the state block times the box features (a contraction over the four box numbers plus the
    bias), its positive part, contracted with the input weights, plus the bias. Both products contract the second
    operand along its columns; the roundings to the narrow format are the identity on the extended reals. -/
theorem pay6_apply (v16 : Vec Ideal S1x128x1024 .f32) (v19 : Vec Ideal S1x128x4 .f32) (v21 : Vec Ideal S1024x4 .bf16)
    (v23 : Vec Ideal S1x1024 .f32) (v25 : Vec Ideal S1024x1024 .bf16) (v27 : Vec Ideal S1x1024 .f32) (p : Fin 128) (i : Fin 1024) :
    k0_pay6 (F := Ideal) v16 v19 v21 v23 v25 v27 (ix2 p i)
      = (∑ f : Fin 1024, max (v16 (ix3 0 p f) * ((∑ k : Fin 4, v19 (ix3 0 p k) * v21 (ix2 f k)) + v23 (ix2 0 f))) 0 * v25 (ix2 i f))
        + v27 (ix2 0 i) := by
  unfold k0_pay6
  simp only [addf_apply, mulf_apply, maximumf_apply, truncf_apply, broadcast_apply,
    matmul_zero_cols_apply dot_S128x1024_S1024x1024_S128x1024_1_1_0_0_n_n rfl rfl rfl rfl rfl rfl,
    matmul_zero_cols_apply dot_S128x4_S1024x4_S128x1024_1_1_0_0_n_n rfl rfl rfl rfl rfl rfl,
    shapeCast_self, shapeCast_1ab_ab_apply, broadcastTo_1b_ab_apply, scalar_zero]

/-- The stored copy of the message block is the message block. -/
theorem pay7_apply (v16 : Vec Ideal S1x128x1024 .f32) (v19 : Vec Ideal S1x128x4 .f32) (v21 : Vec Ideal S1024x4 .bf16)
    (v23 : Vec Ideal S1x1024 .f32) (v25 : Vec Ideal S1024x1024 .bf16) (v27 : Vec Ideal S1x1024 .f32) (p : Fin 128) (i : Fin 1024) :
    k0_pay7 (F := Ideal) v16 v19 v21 v23 v25 v27 (ix2 p i) = k0_pay6 (F := Ideal) v16 v19 v21 v23 v25 v27 (ix2 p i) := by
  unfold k0_pay7
  simp only [shapeCast_self, truncf_apply]

/-- The running sum of the messages: the accumulator plus the block's column sums. -/
theorem pay8_apply (v16 : Vec Ideal S1x128x1024 .f32) (v19 : Vec Ideal S1x128x4 .f32) (v21 : Vec Ideal S1024x4 .bf16)
    (v23 : Vec Ideal S1x1024 .f32) (v25 : Vec Ideal S1024x1024 .bf16) (v27 : Vec Ideal S1x1024 .f32) (v45 : Vec Ideal S1x1024 .f32) (i : Fin 1024) :
    k0_pay8 (F := Ideal) v16 v19 v21 v23 v25 v27 v45 (ix2 0 i)
      = v45 (ix2 0 i) + ∑ p : Fin 128, k0_pay6 (F := Ideal) v16 v19 v21 v23 v25 v27 (ix2 p i) := by
  unfold k0_pay8
  simp only [addf_apply]
  refine congrArg (v45 (ix2 0 i) + ·) ?_
  exact (shapeCast_a_1a_apply _ _ 0 i).trans (sum_rows_apply _ _ _ _ _ i)

/-- The state block without its unit axis. -/
theorem pay9_apply (v16 : Vec Ideal S1x128x1024 .f32) (p : Fin 128) (q : Fin 1024) :
    k0_pay9 (F := Ideal) v16 (ix2 p q) = v16 (ix3 0 p q) := by
  unfold k0_pay9; exact shapeCast_1ab_ab_apply v16 _ p q

/-- The mean of the other regions' messages: the sum row minus the region's own message, times the named constant
    `1/1023`. -/
theorem pay10_apply (v19 : Vec Ideal S128x1024 .bf16) (v21 : Vec Ideal S1x1024 .f32) (p : Fin 128) (i : Fin 1024) :
    k0_pay10 (F := Ideal) v19 v21 (ix2 p i) = (v21 (ix2 0 i) - v19 (ix2 p i)) * ((1 / 1023 : ℝ) : EReal) := by
  unfold k0_pay10
  simp only [mulf_apply, subf_apply, extf_apply, broadcast_apply, broadcastTo_1b_ab_apply, inv_1023]

theorem pay11_eq (v26 : Vec Ideal S1024x1024 .bf16) : k0_pay11 (F := Ideal) v26 = v26 := by
  unfold k0_pay11; exact shapeCast_self _ _
theorem pay12_eq (v28 : Vec Ideal S1024x1024 .bf16) : k0_pay12 (F := Ideal) v28 = v28 := by
  unfold k0_pay12; exact shapeCast_self _ _
theorem pay13_eq (v30 : Vec Ideal S1024x1024 .bf16) : k0_pay13 (F := Ideal) v30 = v30 := by
  unfold k0_pay13; exact shapeCast_self _ _
theorem pay14_eq (v32 : Vec Ideal S1024x1024 .bf16) : k0_pay14 (F := Ideal) v32 = v32 := by
  unfold k0_pay14; exact shapeCast_self _ _
theorem pay15_eq (v34 : Vec Ideal S1024x1024 .bf16) : k0_pay15 (F := Ideal) v34 = v34 := by
  unfold k0_pay15; exact shapeCast_self _ _
theorem pay16_eq (v36 : Vec Ideal S1024x1024 .bf16) : k0_pay16 (F := Ideal) v36 = v36 := by
  unfold k0_pay16; exact shapeCast_self _ _
theorem pay17_eq (v38 : Vec Ideal S1x1024 .f32) : k0_pay17 (F := Ideal) v38 = v38 := by
  unfold k0_pay17; exact shapeCast_self _ _
theorem pay18_eq (v40 : Vec Ideal S1x1024 .f32) : k0_pay18 (F := Ideal) v40 = v40 := by
  unfold k0_pay18; exact shapeCast_self _ _
theorem pay19_eq (v42 : Vec Ideal S1x1024 .f32) : k0_pay19 (F := Ideal) v42 = v42 := by
  unfold k0_pay19; exact shapeCast_self _ _

/-- The gated cell on a block: six products with the transposed gate weights plus their biases, the two logistic
    gates, the hyperbolic tangent of the candidate, and the convex combination with the old state. -/
theorem pay20_apply (v17 : FVec Ideal S128x1024 .f32) (v25 : FVec Ideal S128x1024 .f32) (v27 : FVec Ideal S1024x1024 .bf16)
    (v29 : FVec Ideal S1024x1024 .bf16) (v31 : FVec Ideal S1024x1024 .bf16) (v33 : FVec Ideal S1024x1024 .bf16)
    (v35 : FVec Ideal S1024x1024 .bf16) (v37 : FVec Ideal S1024x1024 .bf16) (v39 : FVec Ideal S1x1024 .f32)
    (v41 : FVec Ideal S1x1024 .f32) (v43 : FVec Ideal S1x1024 .f32) (v44 : Vec Ideal S1x1024 .f32)
    (v46 : Vec Ideal S1x1024 .f32) (v48 : Vec Ideal S1x1024 .f32) (p : Fin 128) (f : Fin 1024) :
    k0_pay20 (F := Ideal) v17 v25 v27 v29 v31 v33 v35 v37 v39 v41 v43 v44 v46 v48 (ix3 0 p f)
      = GruSpec.cellv ((∑ i : Fin 1024, v25 (ix2 p i) * v27 (ix2 f i)) + v39 (ix2 0 f))
          ((∑ i : Fin 1024, v17 (ix2 p i) * v33 (ix2 f i)) + v44 (ix2 0 f))
          ((∑ i : Fin 1024, v25 (ix2 p i) * v29 (ix2 f i)) + v41 (ix2 0 f))
          ((∑ i : Fin 1024, v17 (ix2 p i) * v35 (ix2 f i)) + v46 (ix2 0 f))
          ((∑ i : Fin 1024, v25 (ix2 p i) * v31 (ix2 f i)) + v43 (ix2 0 f))
          ((∑ i : Fin 1024, v17 (ix2 p i) * v37 (ix2 f i)) + v48 (ix2 0 f))
          (v17 (ix2 p f)) := by
  unfold k0_pay20
  simp only [shapeCast_ab_1ab_apply, addf_apply, mulf_apply, subf_apply, truncf_apply, broadcast_apply, logistic_apply,
    tanh_apply, matmul_zero_cols_apply dot_S128x1024_S1024x1024_S128x1024_1_1_0_0_n_n rfl rfl rfl rfl rfl rfl,
    shapeCast_self, broadcastTo_1b_ab_apply, scalar_one]
  rfl

/-! ## The second round -/

/-- The message block: the state block times the box features (a contraction over the four box numbers plus the
    bias), its positive part, contracted with the input weights, plus the bias. Both products contract the second
    operand along its columns; the roundings to the narrow format are the identity on the extended reals. -/
theorem pay21_apply (v16 : Vec Ideal S1x128x1024 .f32) (v19 : Vec Ideal S1x128x4 .f32) (v21 : Vec Ideal S1024x4 .bf16)
    (v23 : Vec Ideal S1x1024 .f32) (v25 : Vec Ideal S1024x1024 .bf16) (v27 : Vec Ideal S1x1024 .f32) (p : Fin 128) (i : Fin 1024) :
    k0_pay21 (F := Ideal) v16 v19 v21 v23 v25 v27 (ix2 p i)
      = (∑ f : Fin 1024, max (v16 (ix3 0 p f) * ((∑ k : Fin 4, v19 (ix3 0 p k) * v21 (ix2 f k)) + v23 (ix2 0 f))) 0 * v25 (ix2 i f))
        + v27 (ix2 0 i) := by
  unfold k0_pay21
  simp only [addf_apply, mulf_apply, maximumf_apply, truncf_apply, broadcast_apply,
    matmul_zero_cols_apply dot_S128x1024_S1024x1024_S128x1024_1_1_0_0_n_n rfl rfl rfl rfl rfl rfl,
    matmul_zero_cols_apply dot_S128x4_S1024x4_S128x1024_1_1_0_0_n_n rfl rfl rfl rfl rfl rfl,
    shapeCast_self, shapeCast_1ab_ab_apply, broadcastTo_1b_ab_apply, scalar_zero]

/-- The stored copy of the message block is the message block. -/
theorem pay22_apply (v16 : Vec Ideal S1x128x1024 .f32) (v19 : Vec Ideal S1x128x4 .f32) (v21 : Vec Ideal S1024x4 .bf16)
    (v23 : Vec Ideal S1x1024 .f32) (v25 : Vec Ideal S1024x1024 .bf16) (v27 : Vec Ideal S1x1024 .f32) (p : Fin 128) (i : Fin 1024) :
    k0_pay22 (F := Ideal) v16 v19 v21 v23 v25 v27 (ix2 p i) = k0_pay21 (F := Ideal) v16 v19 v21 v23 v25 v27 (ix2 p i) := by
  unfold k0_pay22
  simp only [shapeCast_self, truncf_apply]

/-- The running sum of the messages: the accumulator plus the block's column sums. -/
theorem pay23_apply (v16 : Vec Ideal S1x128x1024 .f32) (v19 : Vec Ideal S1x128x4 .f32) (v21 : Vec Ideal S1024x4 .bf16)
    (v23 : Vec Ideal S1x1024 .f32) (v25 : Vec Ideal S1024x1024 .bf16) (v27 : Vec Ideal S1x1024 .f32) (v45 : Vec Ideal S1x1024 .f32) (i : Fin 1024) :
    k0_pay23 (F := Ideal) v16 v19 v21 v23 v25 v27 v45 (ix2 0 i)
      = v45 (ix2 0 i) + ∑ p : Fin 128, k0_pay21 (F := Ideal) v16 v19 v21 v23 v25 v27 (ix2 p i) := by
  unfold k0_pay23
  simp only [addf_apply]
  refine congrArg (v45 (ix2 0 i) + ·) ?_
  exact (shapeCast_a_1a_apply _ _ 0 i).trans (sum_rows_apply _ _ _ _ _ i)

/-- The state block without its unit axis. -/
theorem pay24_apply (v16 : Vec Ideal S1x128x1024 .f32) (p : Fin 128) (q : Fin 1024) :
    k0_pay24 (F := Ideal) v16 (ix2 p q) = v16 (ix3 0 p q) := by
  unfold k0_pay24; exact shapeCast_1ab_ab_apply v16 _ p q

/-- The mean of the other regions' messages: the sum row minus the region's own message, times the named constant
    `1/1023`. -/
theorem pay25_apply (v19 : Vec Ideal S128x1024 .bf16) (v21 : Vec Ideal S1x1024 .f32) (p : Fin 128) (i : Fin 1024) :
    k0_pay25 (F := Ideal) v19 v21 (ix2 p i) = (v21 (ix2 0 i) - v19 (ix2 p i)) * ((1 / 1023 : ℝ) : EReal) := by
  unfold k0_pay25
  simp only [mulf_apply, subf_apply, extf_apply, broadcast_apply, broadcastTo_1b_ab_apply, inv_1023]

theorem pay26_eq (v26 : Vec Ideal S1024x1024 .bf16) : k0_pay26 (F := Ideal) v26 = v26 := by
  unfold k0_pay26; exact shapeCast_self _ _
theorem pay27_eq (v28 : Vec Ideal S1024x1024 .bf16) : k0_pay27 (F := Ideal) v28 = v28 := by
  unfold k0_pay27; exact shapeCast_self _ _
theorem pay28_eq (v30 : Vec Ideal S1024x1024 .bf16) : k0_pay28 (F := Ideal) v30 = v30 := by
  unfold k0_pay28; exact shapeCast_self _ _
theorem pay29_eq (v32 : Vec Ideal S1024x1024 .bf16) : k0_pay29 (F := Ideal) v32 = v32 := by
  unfold k0_pay29; exact shapeCast_self _ _
theorem pay30_eq (v34 : Vec Ideal S1024x1024 .bf16) : k0_pay30 (F := Ideal) v34 = v34 := by
  unfold k0_pay30; exact shapeCast_self _ _
theorem pay31_eq (v36 : Vec Ideal S1024x1024 .bf16) : k0_pay31 (F := Ideal) v36 = v36 := by
  unfold k0_pay31; exact shapeCast_self _ _
theorem pay32_eq (v38 : Vec Ideal S1x1024 .f32) : k0_pay32 (F := Ideal) v38 = v38 := by
  unfold k0_pay32; exact shapeCast_self _ _
theorem pay33_eq (v40 : Vec Ideal S1x1024 .f32) : k0_pay33 (F := Ideal) v40 = v40 := by
  unfold k0_pay33; exact shapeCast_self _ _
theorem pay34_eq (v42 : Vec Ideal S1x1024 .f32) : k0_pay34 (F := Ideal) v42 = v42 := by
  unfold k0_pay34; exact shapeCast_self _ _

/-- The gated cell on a block: six products with the transposed gate weights plus their biases, the two logistic
    gates, the hyperbolic tangent of the candidate, and the convex combination with the old state. -/
theorem pay35_apply (v17 : FVec Ideal S128x1024 .f32) (v25 : FVec Ideal S128x1024 .f32) (v27 : FVec Ideal S1024x1024 .bf16)
    (v29 : FVec Ideal S1024x1024 .bf16) (v31 : FVec Ideal S1024x1024 .bf16) (v33 : FVec Ideal S1024x1024 .bf16)
    (v35 : FVec Ideal S1024x1024 .bf16) (v37 : FVec Ideal S1024x1024 .bf16) (v39 : FVec Ideal S1x1024 .f32)
    (v41 : FVec Ideal S1x1024 .f32) (v43 : FVec Ideal S1x1024 .f32) (v44 : Vec Ideal S1x1024 .f32)
    (v46 : Vec Ideal S1x1024 .f32) (v48 : Vec Ideal S1x1024 .f32) (p : Fin 128) (f : Fin 1024) :
    k0_pay35 (F := Ideal) v17 v25 v27 v29 v31 v33 v35 v37 v39 v41 v43 v44 v46 v48 (ix3 0 p f)
      = GruSpec.cellv ((∑ i : Fin 1024, v25 (ix2 p i) * v27 (ix2 f i)) + v39 (ix2 0 f))
          ((∑ i : Fin 1024, v17 (ix2 p i) * v33 (ix2 f i)) + v44 (ix2 0 f))
          ((∑ i : Fin 1024, v25 (ix2 p i) * v29 (ix2 f i)) + v41 (ix2 0 f))
          ((∑ i : Fin 1024, v17 (ix2 p i) * v35 (ix2 f i)) + v46 (ix2 0 f))
          ((∑ i : Fin 1024, v25 (ix2 p i) * v31 (ix2 f i)) + v43 (ix2 0 f))
          ((∑ i : Fin 1024, v17 (ix2 p i) * v37 (ix2 f i)) + v48 (ix2 0 f))
          (v17 (ix2 p f)) := by
  unfold k0_pay35
  simp only [shapeCast_ab_1ab_apply, addf_apply, mulf_apply, subf_apply, truncf_apply, broadcast_apply, logistic_apply,
    tanh_apply, matmul_zero_cols_apply dot_S128x1024_S1024x1024_S128x1024_1_1_0_0_n_n rfl rfl rfl rfl rfl rfl,
    shapeCast_self, broadcastTo_1b_ab_apply, scalar_one]
  rfl

end Cert.KernelIdeal.Pay

end
-- ==== Proof.KLoop2.lean ====
/-
  The first round's message loop: after its eight trips the message buffer holds every region's message and the
  running sum holds what it held before plus the sum of all regions' messages.
-/
import proofs.«127752_j39092792328632_2_alg».proof.Proof.KTrips
import proofs.«127752_j39092792328632_2_alg».proof.Proof.LibRows
import proofs.«127752_j39092792328632_2_alg».proof.Proof.KPay
import proofs.«127752_j39092792328632_2_alg».proof.Proof.GruSpec
set_option maxRecDepth 16384
noncomputable section
namespace Cert.KernelIdeal.Loop2
open Idealize.ShloMosaic Idealize.ShloMosaic.TcCoe Idealize.ShloMosaic.ValueIdx Cert.KernelIdeal Cert.KernelIdeal.Gen Cert.Lib.Rows
open scoped BigOperators
variable (𝒱 : Variants) (c : Dev nD) (bd : Option 𝒱.V) (i : grid0.Coords) (arg1 : Memref sig .tc .vmem S1x1024x1024 .f32) (harg1 : arg1.IsWhole) (arg2 : Memref sig .tc .vmem S1x1024x4 .f32) (harg2 : arg2.IsWhole) (arg3 : Memref sig .tc .vmem S1024x4 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S3072x1024 .bf16) (harg7 : arg7.IsWhole) (arg8 : Memref sig .tc .vmem S3072x1024 .bf16) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1x1024 .f32) (harg13 : arg13.IsWhole)

theorem trips2 : k0_t2_loop.trips = 8 := rfl

section
variable (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty)
  (G12 : BufTy.Contents (Elt Ideal) arg12.view.ty) (G13 : BufTy.Contents (Elt Ideal) arg13.view.ty)
  (hh : Fin 1024 → Fin 1024 → EReal) (bx : Fin 1024 → Fin 4 → EReal) (Wb : Fin 1024 → Fin 4 → EReal) (bb : Fin 1024 → EReal)
  (Wi : Fin 1024 → Fin 1024 → EReal) (bi : Fin 1024 → EReal)

/-- The message of the region in row `r` (zero past the last row), so that sums over rows can be taken over ranges. -/
def msgN (r : ℕ) (i : Fin 1024) : EReal := if h : r < 1024 then GruSpec.msg bx Wb bb Wi bi hh ⟨r, h⟩ i else 0

include 𝒱 c bd i arg1 harg1 arg2 harg2 arg3 harg3 arg4 harg4 arg5 harg5 arg6 harg6 arg7 harg7 arg8 harg8 arg9 harg9 arg10 harg10 arg11 harg11 arg12 harg12 arg13 harg13

/-- Row `p` of trip `k`'s tile of messages is the message of region `128 k + p`. -/
theorem tile_msg2
    (h11 : ∀ r f : Fin 1024, arg11.view.read (Elt Ideal) X_arg11 (ix3 (0 : Fin 1) r f) = hh r f)
    (h2 : ∀ (r : Fin 1024) (q : Fin 4), arg2.view.read (Elt Ideal) X_arg2 (ix3 (0 : Fin 1) r q) = bx r q)
    (h3 : ∀ (f : Fin 1024) (q : Fin 4), arg3.view.read (Elt Ideal) X_arg3 (ix2 f q) = Wb f q)
    (h4 : ∀ f : Fin 1024, arg4.view.read (Elt Ideal) X_arg4 (ix2 (0 : Fin 1) f) = bb f)
    (h5 : ∀ i f : Fin 1024, arg5.view.read (Elt Ideal) X_arg5 (ix2 i f) = Wi i f)
    (h6 : ∀ i : Fin 1024, arg6.view.read (Elt Ideal) X_arg6 (ix2 (0 : Fin 1) i) = bi i)
    (k : Fin k0_t2_loop.trips) (p : Fin 128) (i : Fin 1024) (hR : 128 * k.val + p.val < 1024) :
    k0_pay6 (F := Ideal)
        (View.readAt (Elt Ideal) arg11.view (Rect.unit (s := S1x1024x1024) (k0_off2 k) S1x128x1024.size (k0_off2_inb k)).toLoadRect X_arg11)
        (View.readAt (Elt Ideal) arg2.view (Rect.unit (s := S1x1024x4) (k0_off3 k) S1x128x4.size (k0_off3_inb k)).toLoadRect X_arg2)
        (View.readAt (Elt Ideal) arg3.view (Rect.unit (s := S1024x4) ![0, 0] S1024x4.size inb_S1024x4_S1024x4_0_0).toLoadRect X_arg3)
        (View.readAt (Elt Ideal) arg4.view (Rect.unit (s := S1x1024) ![0, 0] S1x1024.size inb_S1x1024_S1x1024_0_0).toLoadRect X_arg4)
        (View.readAt (Elt Ideal) arg5.view (Rect.unit (s := S1024x1024) ![0, 0] S1024x1024.size inb_S1024x1024_S1024x1024_0_0).toLoadRect X_arg5)
        (View.readAt (Elt Ideal) arg6.view (Rect.unit (s := S1x1024) ![0, 0] S1x1024.size inb_S1x1024_S1x1024_0_0).toLoadRect X_arg6) (ix2 p i)
      = GruSpec.msg bx Wb bb Wi bi hh ⟨128 * k.val + p.val, hR⟩ i := by
  have e16 : ∀ f : Fin 1024, (View.readAt (Elt Ideal) arg11.view (Rect.unit (s := S1x1024x1024) (k0_off2 k) S1x128x1024.size (k0_off2_inb k)).toLoadRect X_arg11) (ix3 (0 : Fin 1) p f)
      = hh ⟨128 * k.val + p.val, hR⟩ f := fun f =>
    (readAt_unit' arg11.view X_arg11 _ _ _ (k0_off2_inb k) _ (ix3 (0 : Fin 1) (⟨128 * k.val + p.val, hR⟩ : Fin 1024) f) (k0_off2_eq k)
      (fun a => by
        match a with
        | ⟨0, _⟩ => rfl
        | ⟨1, _⟩ => rfl
        | ⟨2, _⟩ => show f.val = 0 + f.val; omega)).trans (h11 _ _)
  have e19 : ∀ q : Fin 4, (View.readAt (Elt Ideal) arg2.view (Rect.unit (s := S1x1024x4) (k0_off3 k) S1x128x4.size (k0_off3_inb k)).toLoadRect X_arg2) (ix3 (0 : Fin 1) p q)
      = bx ⟨128 * k.val + p.val, hR⟩ q := fun q =>
    (readAt_unit' arg2.view X_arg2 _ _ _ (k0_off3_inb k) _ (ix3 (0 : Fin 1) (⟨128 * k.val + p.val, hR⟩ : Fin 1024) q) (k0_off3_eq k)
      (fun a => by
        match a with
        | ⟨0, _⟩ => rfl
        | ⟨1, _⟩ => rfl
        | ⟨2, _⟩ => show q.val = 0 + q.val; omega)).trans (h2 _ _)
  have e21 : ∀ (f : Fin 1024) (q : Fin 4), (View.readAt (Elt Ideal) arg3.view (Rect.unit (s := S1024x4) ![0, 0] S1024x4.size inb_S1024x4_S1024x4_0_0).toLoadRect X_arg3) (ix2 f q) = Wb f q := fun f q =>
    (readAt_unit arg3.view X_arg3 _ _ inb_S1024x4_S1024x4_0_0 _ (ix2 f q)
      (fun a => by
        match a with
        | ⟨0, _⟩ => show f.val = 0 + f.val; omega
        | ⟨1, _⟩ => show q.val = 0 + q.val; omega)).trans (h3 _ _)
  have e23 : ∀ f : Fin 1024, (View.readAt (Elt Ideal) arg4.view (Rect.unit (s := S1x1024) ![0, 0] S1x1024.size inb_S1x1024_S1x1024_0_0).toLoadRect X_arg4) (ix2 (0 : Fin 1) f) = bb f := fun f =>
    (readAt_unit arg4.view X_arg4 _ _ inb_S1x1024_S1x1024_0_0 _ (ix2 (0 : Fin 1) f)
      (fun a => by
        match a with
        | ⟨0, _⟩ => rfl
        | ⟨1, _⟩ => show f.val = 0 + f.val; omega)).trans (h4 _)
  have e25 : ∀ i f : Fin 1024, (View.readAt (Elt Ideal) arg5.view (Rect.unit (s := S1024x1024) ![0, 0] S1024x1024.size inb_S1024x1024_S1024x1024_0_0).toLoadRect X_arg5) (ix2 i f) = Wi i f := fun i f =>
    (readAt_unit arg5.view X_arg5 _ _ inb_S1024x1024_S1024x1024_0_0 _ (ix2 i f)
      (fun a => by
        match a with
        | ⟨0, _⟩ => show i.val = 0 + i.val; omega
        | ⟨1, _⟩ => show f.val = 0 + f.val; omega)).trans (h5 _ _)
  have e27 : ∀ i : Fin 1024, (View.readAt (Elt Ideal) arg6.view (Rect.unit (s := S1x1024) ![0, 0] S1x1024.size inb_S1x1024_S1x1024_0_0).toLoadRect X_arg6) (ix2 (0 : Fin 1) i) = bi i := fun i =>
    (readAt_unit arg6.view X_arg6 _ _ inb_S1x1024_S1x1024_0_0 _ (ix2 (0 : Fin 1) i)
      (fun a => by
        match a with
        | ⟨0, _⟩ => rfl
        | ⟨1, _⟩ => show i.val = 0 + i.val; omega)).trans (h6 _)
  rw [Pay.pay6_apply]
  unfold GruSpec.msg GruSpec.boxFeat
  simp only [e16, e19, e21, e23, e25, e27]

/-- After `k` trips of the message loop: the message buffer's rows below `128 k` hold those regions' messages (the rest as
    found), and the running sum holds what it held plus the messages of the regions below `128 k`. -/
theorem loop2_read
    (h11 : ∀ r f : Fin 1024, arg11.view.read (Elt Ideal) X_arg11 (ix3 (0 : Fin 1) r f) = hh r f)
    (h2 : ∀ (r : Fin 1024) (q : Fin 4), arg2.view.read (Elt Ideal) X_arg2 (ix3 (0 : Fin 1) r q) = bx r q)
    (h3 : ∀ (f : Fin 1024) (q : Fin 4), arg3.view.read (Elt Ideal) X_arg3 (ix2 f q) = Wb f q)
    (h4 : ∀ f : Fin 1024, arg4.view.read (Elt Ideal) X_arg4 (ix2 (0 : Fin 1) f) = bb f)
    (h5 : ∀ j f : Fin 1024, arg5.view.read (Elt Ideal) X_arg5 (ix2 j f) = Wi j f)
    (h6 : ∀ j : Fin 1024, arg6.view.read (Elt Ideal) X_arg6 (ix2 (0 : Fin 1) j) = bi j)
    (k : ℕ) (hk : k ≤ 8) :
    (∀ r j : Fin 1024, arg12.view.read (Elt Ideal) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).1) (ix2 r j)
        = if r.val < 128 * k then GruSpec.msg bx Wb bb Wi bi hh r j else arg12.view.read (Elt Ideal) G12 (ix2 r j))
    ∧ (∀ j : Fin 1024, arg13.view.read (Elt Ideal) (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2) (ix2 (0 : Fin 1) j)
        = arg13.view.read (Elt Ideal) G13 (ix2 (0 : Fin 1) j) + ∑ r ∈ Finset.range (128 * k), msgN hh bx Wb bb Wi bi r j) := by
  induction k with
  | zero =>
    refine ⟨fun r j => ?_, fun j => ?_⟩
    · rw [if_neg (by omega)]; rfl
    · rw [Nat.mul_zero, Finset.range_zero, Finset.sum_empty, add_zero]; rfl
  | succ k ih =>
    have hk' : k < k0_t2_loop.trips := by rw [trips2]; omega
    obtain ⟨ih12, ih13⟩ := ih (by omega)
    have hs : (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 (k + 1))
        = ((tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 ⟨k, hk'⟩ (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).1) (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2)).1 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).1,
           (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 ⟨k, hk'⟩ (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).1) (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2)).2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2) :=
      pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 ⟨k, hk'⟩
    rw [Trips.trip2_eq] at hs
    refine ⟨fun r j => ?_, fun j => ?_⟩
    · rw [hs]
      dsimp only
      rw [List.singleton_append]
      by_cases h1 : 128 * k ≤ r.val ∧ r.val < 128 * k + 128
      · rw [if_pos (by omega)]
        refine (View.read_writes_cons_unit_of_mem arg12.view G12 (k0_off4_inb _) _ _ (ix2 r j)
          (ix2 (⟨r.val - 128 * k, by omega⟩ : Fin 128) j) (k0_off4_eq _) ?_).trans ?_
        · intro a
          match a with
          | ⟨0, _⟩ => show r.val = 128 * k + (r.val - 128 * k); omega
          | ⟨1, _⟩ => show j.val = 0 + j.val; omega
        · refine (Pay.pay7_apply _ _ _ _ _ _ _ _).trans ?_
          refine (tile_msg2 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 hh bx Wb bb Wi bi h11 h2 h3 h4 h5 h6 ⟨k, hk'⟩
            ⟨r.val - 128 * k, by omega⟩ j (by show 128 * k + (r.val - 128 * k) < 1024; omega)).trans ?_
          refine congrArg (fun q => GruSpec.msg bx Wb bb Wi bi hh q j) (Fin.ext ?_)
          show 128 * k + (r.val - 128 * k) = r.val; omega
      · rw [View.read_writes_cons_unit_of_not_mem arg12.view G12 (k0_off4_inb _) _ _ (ix2 r j) (k0_off4_eq _) 0
          (by show r.val < 128 * k ∨ 128 * k + 128 ≤ r.val; omega), ih12]
        by_cases h2' : r.val < 128 * k
        · rw [if_pos h2', if_pos (by omega)]
        · rw [if_neg h2', if_neg (by omega)]
    · rw [hs]
      dsimp only
      rw [List.singleton_append]
      refine (View.read_writes_cons_unit_of_mem arg13.view G13 inb_S1x1024_S1x1024_0_0 _ _ (ix2 (0 : Fin 1) j)
        (ix2 (0 : Fin 1) j) rfl ?_).trans ?_
      · intro a
        match a with
        | ⟨0, _⟩ => rfl
        | ⟨1, _⟩ => show j.val = 0 + j.val; omega
      · rw [Pay.pay3_eq, Pay.pay8_apply]
        have eacc : (View.readAt (Elt Ideal) arg13.view (Rect.unit (s := S1x1024) ![0, 0] S1x1024.size inb_S1x1024_S1x1024_0_0).toLoadRect (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2)) (ix2 (0 : Fin 1) j)
            = arg13.view.read (Elt Ideal) G13 (ix2 (0 : Fin 1) j) + ∑ r ∈ Finset.range (128 * k), msgN hh bx Wb bb Wi bi r j :=
          (readAt_unit arg13.view _ _ _ inb_S1x1024_S1x1024_0_0 _ (ix2 (0 : Fin 1) j)
            (fun a => by
              match a with
              | ⟨0, _⟩ => rfl
              | ⟨1, _⟩ => show j.val = 0 + j.val; omega)).trans (ih13 j)
        rw [eacc, add_assoc]
        refine congrArg (_ + ·) ?_
        rw [show 128 * (k + 1) = 128 * k + 128 by ring, Finset.sum_range_add, ← Fin.sum_univ_eq_sum_range (fun q => msgN hh bx Wb bb Wi bi (128 * k + q) j) 128]
        refine congrArg (_ + ·) (Finset.sum_congr rfl fun p _ => ?_)
        have hR : 128 * k + p.val < 1024 := by have := p.isLt; omega
        rw [msgN, dif_pos hR]
        exact tile_msg2 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 hh bx Wb bb Wi bi h11 h2 h3 h4 h5 h6 ⟨k, hk'⟩ p j hR

end

end Cert.KernelIdeal.Loop2
end
-- ==== Proof.KLoop3.lean ====
/-
  The first round's update loop: after its trips the state's rows below `128 k` hold the gated cell's output for
  those regions, computed from the state the loop found, the message buffer and the messages' sum; the rows from
  `128 k` on are as the loop found them. A trip reads only its own 128 rows of the state, which no earlier trip has
  written, so every trip computes from the state the loop started with.
-/
import proofs.«127752_j39092792328632_2_alg».proof.Proof.KTrips
import proofs.«127752_j39092792328632_2_alg».proof.Proof.LibRows
import proofs.«127752_j39092792328632_2_alg».proof.Proof.KPay
import proofs.«127752_j39092792328632_2_alg».proof.Proof.GruSpec
set_option maxRecDepth 16384
noncomputable section
namespace Cert.KernelIdeal.Loop3
open Idealize.ShloMosaic Idealize.ShloMosaic.TcCoe Idealize.ShloMosaic.ValueIdx Cert.KernelIdeal Cert.KernelIdeal.Gen Cert.Lib.Rows
open scoped BigOperators
variable (𝒱 : Variants) (c : Dev nD) (bd : Option 𝒱.V) (i : grid0.Coords) (arg1 : Memref sig .tc .vmem S1x1024x1024 .f32) (harg1 : arg1.IsWhole) (arg2 : Memref sig .tc .vmem S1x1024x4 .f32) (harg2 : arg2.IsWhole) (arg3 : Memref sig .tc .vmem S1024x4 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S3072x1024 .bf16) (harg7 : arg7.IsWhole) (arg8 : Memref sig .tc .vmem S3072x1024 .bf16) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1x1024 .f32) (harg13 : arg13.IsWhole)

theorem trips3 : k0_t3_loop.trips = 8 := rfl

section
variable (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty)
  (G11 : BufTy.Contents (Elt Ideal) arg11.view.ty)
  (hh xm : Fin 1024 → Fin 1024 → EReal) (sm : Fin 1024 → EReal) (Wih Whh : Fin 3072 → Fin 1024 → EReal) (bih bhh : Fin 3072 → EReal)

include 𝒱 c bd i arg1 harg1 arg2 harg2 arg3 harg3 arg4 harg4 arg5 harg5 arg6 harg6 arg7 harg7 arg8 harg8 arg9 harg9 arg10 harg10 arg11 harg11 arg12 harg12 arg13 harg13

/-- Row `p` of trip `k`'s tile is the cell's output for region `128 k + p`, when the state the trip finds holds `hh` in
    that row: the input side reads the mean of the other regions' messages (the sum row minus the region's message,
    times `1/1023`) against the three row blocks of the input weights, the state side the region's state against
    the three row blocks of the state weights, each plus its bias. -/
theorem tile_cell3 (F11 : BufTy.Contents (Elt Ideal) arg11.view.ty)
    (h12 : ∀ r i : Fin 1024, arg12.view.read (Elt Ideal) X_arg12 (ix2 r i) = xm r i)
    (h13 : ∀ i : Fin 1024, arg13.view.read (Elt Ideal) X_arg13 (ix2 (0 : Fin 1) i) = sm i)
    (h7 : ∀ (g : Fin 3072) (i : Fin 1024), arg7.view.read (Elt Ideal) X_arg7 (ix2 g i) = Wih g i)
    (h8 : ∀ (g : Fin 3072) (f : Fin 1024), arg8.view.read (Elt Ideal) X_arg8 (ix2 g f) = Whh g f)
    (h9 : ∀ g : Fin 3072, arg9.view.read (Elt Ideal) X_arg9 (ix2 (0 : Fin 1) g) = bih g)
    (h10 : ∀ g : Fin 3072, arg10.view.read (Elt Ideal) X_arg10 (ix2 (0 : Fin 1) g) = bhh g)
    (k : Fin k0_t3_loop.trips) (p : Fin 128) (f : Fin 1024) (R : Fin 1024) (hRv : R.val = 128 * k.val + p.val)
    (h11 : ∀ f' : Fin 1024, arg11.view.read (Elt Ideal) F11 (ix3 (0 : Fin 1) R f') = hh R f') :
    k0_pay20 (F := Ideal)
        (k0_pay9 (View.readAt (Elt Ideal) arg11.view (Rect.unit (s := S1x1024x1024) (k0_off5 k) S1x128x1024.size (k0_off5_inb k)).toLoadRect F11))
        (k0_pay10 (View.readAt (Elt Ideal) arg12.view (Rect.unit (s := S1024x1024) (k0_off6 k) S128x1024.size (k0_off6_inb k)).toLoadRect X_arg12) (View.readAt (Elt Ideal) arg13.view (Rect.unit (s := S1x1024) ![0, 0] S1x1024.size inb_S1x1024_S1x1024_0_0).toLoadRect X_arg13))
        (k0_pay11 (View.readAt (Elt Ideal) arg7.view (Rect.unit (s := S3072x1024) ![0, 0] S1024x1024.size inb_S3072x1024_S1024x1024_0_0).toLoadRect X_arg7))
        (k0_pay12 (View.readAt (Elt Ideal) arg7.view (Rect.unit (s := S3072x1024) ![1024, 0] S1024x1024.size inb_S3072x1024_S1024x1024_1024_0).toLoadRect X_arg7))
        (k0_pay13 (View.readAt (Elt Ideal) arg7.view (Rect.unit (s := S3072x1024) ![2048, 0] S1024x1024.size inb_S3072x1024_S1024x1024_2048_0).toLoadRect X_arg7))
        (k0_pay14 (View.readAt (Elt Ideal) arg8.view (Rect.unit (s := S3072x1024) ![0, 0] S1024x1024.size inb_S3072x1024_S1024x1024_0_0).toLoadRect X_arg8))
        (k0_pay15 (View.readAt (Elt Ideal) arg8.view (Rect.unit (s := S3072x1024) ![1024, 0] S1024x1024.size inb_S3072x1024_S1024x1024_1024_0).toLoadRect X_arg8))
        (k0_pay16 (View.readAt (Elt Ideal) arg8.view (Rect.unit (s := S3072x1024) ![2048, 0] S1024x1024.size inb_S3072x1024_S1024x1024_2048_0).toLoadRect X_arg8))
        (k0_pay17 (View.readAt (Elt Ideal) arg9.view (Rect.unit (s := S1x3072) ![0, 0] S1x1024.size inb_S1x3072_S1x1024_0_0).toLoadRect X_arg9))
        (k0_pay18 (View.readAt (Elt Ideal) arg9.view (Rect.unit (s := S1x3072) ![0, 1024] S1x1024.size inb_S1x3072_S1x1024_0_1024).toLoadRect X_arg9))
        (k0_pay19 (View.readAt (Elt Ideal) arg9.view (Rect.unit (s := S1x3072) ![0, 2048] S1x1024.size inb_S1x3072_S1x1024_0_2048).toLoadRect X_arg9))
        (View.readAt (Elt Ideal) arg10.view (Rect.unit (s := S1x3072) ![0, 0] S1x1024.size inb_S1x3072_S1x1024_0_0).toLoadRect X_arg10)
        (View.readAt (Elt Ideal) arg10.view (Rect.unit (s := S1x3072) ![0, 1024] S1x1024.size inb_S1x3072_S1x1024_0_1024).toLoadRect X_arg10)
        (View.readAt (Elt Ideal) arg10.view (Rect.unit (s := S1x3072) ![0, 2048] S1x1024.size inb_S1x3072_S1x1024_0_2048).toLoadRect X_arg10) (ix3 (0 : Fin 1) p f)
      = GruSpec.cell (fun g => (∑ i : Fin 1024, ((sm i - xm R i) * ((1 / 1023 : ℝ) : EReal)) * Wih g i) + bih g)
          (GruSpec.gh Whh bhh hh R) (hh R f) f := by
  have e17 : ∀ i : Fin 1024, k0_pay9 (F := Ideal) (View.readAt (Elt Ideal) arg11.view (Rect.unit (s := S1x1024x1024) (k0_off5 k) S1x128x1024.size (k0_off5_inb k)).toLoadRect F11) (ix2 p i) = hh R i := fun i =>
    (Pay.pay9_apply _ p i).trans ((readAt_unit' arg11.view F11 _ _ _ (k0_off5_inb k) _ (ix3 (0 : Fin 1) R i) (k0_off5_eq k)
      (fun a => by
        match a with
        | ⟨0, _⟩ => rfl
        | ⟨1, _⟩ => exact hRv
        | ⟨2, _⟩ => show i.val = 0 + i.val; omega)).trans (h11 i))
  have e19 : ∀ i : Fin 1024, (View.readAt (Elt Ideal) arg12.view (Rect.unit (s := S1024x1024) (k0_off6 k) S128x1024.size (k0_off6_inb k)).toLoadRect X_arg12) (ix2 p i) = xm R i := fun i =>
    (readAt_unit' arg12.view X_arg12 _ _ _ (k0_off6_inb k) _ (ix2 R i) (k0_off6_eq k)
      (fun a => by
        match a with
        | ⟨0, _⟩ => exact hRv
        | ⟨1, _⟩ => show i.val = 0 + i.val; omega)).trans (h12 _ _)
  have e21 : ∀ i : Fin 1024, (View.readAt (Elt Ideal) arg13.view (Rect.unit (s := S1x1024) ![0, 0] S1x1024.size inb_S1x1024_S1x1024_0_0).toLoadRect X_arg13) (ix2 (0 : Fin 1) i) = sm i := fun i =>
    (readAt_unit arg13.view X_arg13 _ _ inb_S1x1024_S1x1024_0_0 _ (ix2 (0 : Fin 1) i)
      (fun a => by
        match a with
        | ⟨0, _⟩ => rfl
        | ⟨1, _⟩ => show i.val = 0 + i.val; omega)).trans (h13 _)
  have e25 : ∀ i : Fin 1024, k0_pay10 (F := Ideal) (View.readAt (Elt Ideal) arg12.view (Rect.unit (s := S1024x1024) (k0_off6 k) S128x1024.size (k0_off6_inb k)).toLoadRect X_arg12) (View.readAt (Elt Ideal) arg13.view (Rect.unit (s := S1x1024) ![0, 0] S1x1024.size inb_S1x1024_S1x1024_0_0).toLoadRect X_arg13) (ix2 p i)
      = (sm i - xm R i) * ((1 / 1023 : ℝ) : EReal) := fun i => by
    rw [Pay.pay10_apply, e19, e21]
  have e27 : ∀ f i : Fin 1024, k0_pay11 (F := Ideal) (View.readAt (Elt Ideal) arg7.view (Rect.unit (s := S3072x1024) ![0, 0] S1024x1024.size inb_S3072x1024_S1024x1024_0_0).toLoadRect X_arg7) (ix2 f i) = Wih (GruSpec.gate0 f) i := fun f i =>
    (congrFun (Pay.pay11_eq _) _).trans ((readAt_unit arg7.view X_arg7 _ _ inb_S3072x1024_S1024x1024_0_0 _ (ix2 (GruSpec.gate0 f) i)
      (fun a => by
        match a with
        | ⟨0, _⟩ => show f.val = 0 + f.val; omega
        | ⟨1, _⟩ => show i.val = 0 + i.val; omega)).trans (h7 _ _))
  have e29 : ∀ f i : Fin 1024, k0_pay12 (F := Ideal) (View.readAt (Elt Ideal) arg7.view (Rect.unit (s := S3072x1024) ![1024, 0] S1024x1024.size inb_S3072x1024_S1024x1024_1024_0).toLoadRect X_arg7) (ix2 f i) = Wih (GruSpec.gate1 f) i := fun f i =>
    (congrFun (Pay.pay12_eq _) _).trans ((readAt_unit arg7.view X_arg7 _ _ inb_S3072x1024_S1024x1024_1024_0 _ (ix2 (GruSpec.gate1 f) i)
      (fun a => by
        match a with
        | ⟨0, _⟩ => rfl
        | ⟨1, _⟩ => show i.val = 0 + i.val; omega)).trans (h7 _ _))
  have e31 : ∀ f i : Fin 1024, k0_pay13 (F := Ideal) (View.readAt (Elt Ideal) arg7.view (Rect.unit (s := S3072x1024) ![2048, 0] S1024x1024.size inb_S3072x1024_S1024x1024_2048_0).toLoadRect X_arg7) (ix2 f i) = Wih (GruSpec.gate2 f) i := fun f i =>
    (congrFun (Pay.pay13_eq _) _).trans ((readAt_unit arg7.view X_arg7 _ _ inb_S3072x1024_S1024x1024_2048_0 _ (ix2 (GruSpec.gate2 f) i)
      (fun a => by
        match a with
        | ⟨0, _⟩ => rfl
        | ⟨1, _⟩ => show i.val = 0 + i.val; omega)).trans (h7 _ _))
  have e33 : ∀ f i : Fin 1024, k0_pay14 (F := Ideal) (View.readAt (Elt Ideal) arg8.view (Rect.unit (s := S3072x1024) ![0, 0] S1024x1024.size inb_S3072x1024_S1024x1024_0_0).toLoadRect X_arg8) (ix2 f i) = Whh (GruSpec.gate0 f) i := fun f i =>
    (congrFun (Pay.pay14_eq _) _).trans ((readAt_unit arg8.view X_arg8 _ _ inb_S3072x1024_S1024x1024_0_0 _ (ix2 (GruSpec.gate0 f) i)
      (fun a => by
        match a with
        | ⟨0, _⟩ => show f.val = 0 + f.val; omega
        | ⟨1, _⟩ => show i.val = 0 + i.val; omega)).trans (h8 _ _))
  have e35 : ∀ f i : Fin 1024, k0_pay15 (F := Ideal) (View.readAt (Elt Ideal) arg8.view (Rect.unit (s := S3072x1024) ![1024, 0] S1024x1024.size inb_S3072x1024_S1024x1024_1024_0).toLoadRect X_arg8) (ix2 f i) = Whh (GruSpec.gate1 f) i := fun f i =>
    (congrFun (Pay.pay15_eq _) _).trans ((readAt_unit arg8.view X_arg8 _ _ inb_S3072x1024_S1024x1024_1024_0 _ (ix2 (GruSpec.gate1 f) i)
      (fun a => by
        match a with
        | ⟨0, _⟩ => rfl
        | ⟨1, _⟩ => show i.val = 0 + i.val; omega)).trans (h8 _ _))
  have e37 : ∀ f i : Fin 1024, k0_pay16 (F := Ideal) (View.readAt (Elt Ideal) arg8.view (Rect.unit (s := S3072x1024) ![2048, 0] S1024x1024.size inb_S3072x1024_S1024x1024_2048_0).toLoadRect X_arg8) (ix2 f i) = Whh (GruSpec.gate2 f) i := fun f i =>
    (congrFun (Pay.pay16_eq _) _).trans ((readAt_unit arg8.view X_arg8 _ _ inb_S3072x1024_S1024x1024_2048_0 _ (ix2 (GruSpec.gate2 f) i)
      (fun a => by
        match a with
        | ⟨0, _⟩ => rfl
        | ⟨1, _⟩ => show i.val = 0 + i.val; omega)).trans (h8 _ _))
  have e39 : ∀ f : Fin 1024, k0_pay17 (F := Ideal) (View.readAt (Elt Ideal) arg9.view (Rect.unit (s := S1x3072) ![0, 0] S1x1024.size inb_S1x3072_S1x1024_0_0).toLoadRect X_arg9) (ix2 (0 : Fin 1) f) = bih (GruSpec.gate0 f) := fun f =>
    (congrFun (Pay.pay17_eq _) _).trans ((readAt_unit arg9.view X_arg9 _ _ inb_S1x3072_S1x1024_0_0 _ (ix2 (0 : Fin 1) (GruSpec.gate0 f))
      (fun a => by
        match a with
        | ⟨0, _⟩ => rfl
        | ⟨1, _⟩ => show f.val = 0 + f.val; omega)).trans (h9 _))
  have e41 : ∀ f : Fin 1024, k0_pay18 (F := Ideal) (View.readAt (Elt Ideal) arg9.view (Rect.unit (s := S1x3072) ![0, 1024] S1x1024.size inb_S1x3072_S1x1024_0_1024).toLoadRect X_arg9) (ix2 (0 : Fin 1) f) = bih (GruSpec.gate1 f) := fun f =>
    (congrFun (Pay.pay18_eq _) _).trans ((readAt_unit arg9.view X_arg9 _ _ inb_S1x3072_S1x1024_0_1024 _ (ix2 (0 : Fin 1) (GruSpec.gate1 f))
      (fun a => by
        match a with
        | ⟨0, _⟩ => rfl
        | ⟨1, _⟩ => rfl)).trans (h9 _))
  have e43 : ∀ f : Fin 1024, k0_pay19 (F := Ideal) (View.readAt (Elt Ideal) arg9.view (Rect.unit (s := S1x3072) ![0, 2048] S1x1024.size inb_S1x3072_S1x1024_0_2048).toLoadRect X_arg9) (ix2 (0 : Fin 1) f) = bih (GruSpec.gate2 f) := fun f =>
    (congrFun (Pay.pay19_eq _) _).trans ((readAt_unit arg9.view X_arg9 _ _ inb_S1x3072_S1x1024_0_2048 _ (ix2 (0 : Fin 1) (GruSpec.gate2 f))
      (fun a => by
        match a with
        | ⟨0, _⟩ => rfl
        | ⟨1, _⟩ => rfl)).trans (h9 _))
  have e44 : ∀ f : Fin 1024, (View.readAt (Elt Ideal) arg10.view (Rect.unit (s := S1x3072) ![0, 0] S1x1024.size inb_S1x3072_S1x1024_0_0).toLoadRect X_arg10) (ix2 (0 : Fin 1) f) = bhh (GruSpec.gate0 f) := fun f =>
    (readAt_unit arg10.view X_arg10 _ _ inb_S1x3072_S1x1024_0_0 _ (ix2 (0 : Fin 1) (GruSpec.gate0 f))
      (fun a => by
        match a with
        | ⟨0, _⟩ => rfl
        | ⟨1, _⟩ => show f.val = 0 + f.val; omega)).trans (h10 _)
  have e46 : ∀ f : Fin 1024, (View.readAt (Elt Ideal) arg10.view (Rect.unit (s := S1x3072) ![0, 1024] S1x1024.size inb_S1x3072_S1x1024_0_1024).toLoadRect X_arg10) (ix2 (0 : Fin 1) f) = bhh (GruSpec.gate1 f) := fun f =>
    (readAt_unit arg10.view X_arg10 _ _ inb_S1x3072_S1x1024_0_1024 _ (ix2 (0 : Fin 1) (GruSpec.gate1 f))
      (fun a => by
        match a with
        | ⟨0, _⟩ => rfl
        | ⟨1, _⟩ => rfl)).trans (h10 _)
  have e48 : ∀ f : Fin 1024, (View.readAt (Elt Ideal) arg10.view (Rect.unit (s := S1x3072) ![0, 2048] S1x1024.size inb_S1x3072_S1x1024_0_2048).toLoadRect X_arg10) (ix2 (0 : Fin 1) f) = bhh (GruSpec.gate2 f) := fun f =>
    (readAt_unit arg10.view X_arg10 _ _ inb_S1x3072_S1x1024_0_2048 _ (ix2 (0 : Fin 1) (GruSpec.gate2 f))
      (fun a => by
        match a with
        | ⟨0, _⟩ => rfl
        | ⟨1, _⟩ => rfl)).trans (h10 _)
  rw [Pay.pay20_apply, GruSpec.cell_eq_cellv]
  unfold GruSpec.gh
  simp only [e17, e25, e27, e29, e31, e33, e35, e37, e39, e41, e43, e44, e46, e48]

/-- After `k` trips of the update loop the state's rows below `128 k` hold the cell's output for those regions and the rest
    hold what the loop found. -/
theorem loop3_read
    (hG : ∀ r f : Fin 1024, arg11.view.read (Elt Ideal) G11 (ix3 (0 : Fin 1) r f) = hh r f)
    (h12 : ∀ r i : Fin 1024, arg12.view.read (Elt Ideal) X_arg12 (ix2 r i) = xm r i)
    (h13 : ∀ i : Fin 1024, arg13.view.read (Elt Ideal) X_arg13 (ix2 (0 : Fin 1) i) = sm i)
    (h7 : ∀ (g : Fin 3072) (i : Fin 1024), arg7.view.read (Elt Ideal) X_arg7 (ix2 g i) = Wih g i)
    (h8 : ∀ (g : Fin 3072) (f : Fin 1024), arg8.view.read (Elt Ideal) X_arg8 (ix2 g f) = Whh g f)
    (h9 : ∀ g : Fin 3072, arg9.view.read (Elt Ideal) X_arg9 (ix2 (0 : Fin 1) g) = bih g)
    (h10 : ∀ g : Fin 3072, arg10.view.read (Elt Ideal) X_arg10 (ix2 (0 : Fin 1) g) = bhh g)
    (k : ℕ) (hk : k ≤ 8) (r f : Fin 1024) :
    arg11.view.read (Elt Ideal) (arg11.view.writes (Elt Ideal) G11 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 X_arg12 X_arg13 G11 k)) (ix3 (0 : Fin 1) r f)
      = if r.val < 128 * k then
          GruSpec.cell (fun g => (∑ i : Fin 1024, ((sm i - xm r i) * ((1 / 1023 : ℝ) : EReal)) * Wih g i) + bih g)
          (GruSpec.gh Whh bhh hh r) (hh r f) f
        else hh r f := by
  induction k generalizing r f with
  | zero => rw [if_neg (by omega)]; exact hG r f
  | succ k ih =>
    have hk' : k < k0_t3_loop.trips := by rw [trips3]; omega
    have ih := fun r f => ih (by omega) r f
    have hkv : (⟨k, hk'⟩ : Fin k0_t3_loop.trips).val = k := rfl
    rw [show k + 1 = (⟨k, hk'⟩ : Fin k0_t3_loop.trips).val + 1 from rfl, pb_k0_t3_succ, Trips.trip3_eq, List.singleton_append]
    by_cases h1 : 128 * k ≤ r.val ∧ r.val < 128 * k + 128
    · rw [if_pos (by omega)]
      refine (View.read_writes_cons_unit_of_mem arg11.view G11 (k0_off5_inb _) _ _ (ix3 (0 : Fin 1) r f)
        (ix3 (0 : Fin 1) (⟨r.val - 128 * k, by omega⟩ : Fin 128) f) (k0_off5_eq _) ?_).trans ?_
      · intro a
        match a with
        | ⟨0, _⟩ => rfl
        | ⟨1, _⟩ => show r.val = 128 * k + (r.val - 128 * k); omega
        | ⟨2, _⟩ => show f.val = 0 + f.val; omega
      · exact tile_cell3 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 X_arg12 X_arg13 hh xm sm Wih Whh bih bhh _ h12 h13 h7 h8 h9 h10 ⟨k, hk'⟩
          ⟨r.val - 128 * k, by omega⟩ f r (by show r.val = 128 * k + (r.val - 128 * k); omega)
          (fun f' => (ih r f').trans (if_neg (by omega)))
    · rw [View.read_writes_cons_unit_of_not_mem arg11.view G11 (k0_off5_inb _) _ _ (ix3 (0 : Fin 1) r f) (k0_off5_eq _) 1
        (by show r.val < 128 * k ∨ 128 * k + 128 ≤ r.val; omega), ih]
      by_cases h2 : r.val < 128 * k
      · rw [if_pos h2, if_pos (by omega)]
      · rw [if_neg h2, if_neg (by omega)]

end

end Cert.KernelIdeal.Loop3
end
-- ==== Proof.KLoop4.lean ====
/-
  The second round's message loop: after its eight trips the message buffer holds every region's message and the
  running sum holds what it held before plus the sum of all regions' messages.
-/
import proofs.«127752_j39092792328632_2_alg».proof.Proof.KTrips
import proofs.«127752_j39092792328632_2_alg».proof.Proof.LibRows
import proofs.«127752_j39092792328632_2_alg».proof.Proof.KPay
import proofs.«127752_j39092792328632_2_alg».proof.Proof.GruSpec
set_option maxRecDepth 16384
noncomputable section
namespace Cert.KernelIdeal.Loop4
open Idealize.ShloMosaic Idealize.ShloMosaic.TcCoe Idealize.ShloMosaic.ValueIdx Cert.KernelIdeal Cert.KernelIdeal.Gen Cert.Lib.Rows
open scoped BigOperators
variable (𝒱 : Variants) (c : Dev nD) (bd : Option 𝒱.V) (i : grid0.Coords) (arg1 : Memref sig .tc .vmem S1x1024x1024 .f32) (harg1 : arg1.IsWhole) (arg2 : Memref sig .tc .vmem S1x1024x4 .f32) (harg2 : arg2.IsWhole) (arg3 : Memref sig .tc .vmem S1024x4 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S3072x1024 .bf16) (harg7 : arg7.IsWhole) (arg8 : Memref sig .tc .vmem S3072x1024 .bf16) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1x1024 .f32) (harg13 : arg13.IsWhole)

theorem trips4 : k0_t4_loop.trips = 8 := rfl

section
variable (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty)
  (G12 : BufTy.Contents (Elt Ideal) arg12.view.ty) (G13 : BufTy.Contents (Elt Ideal) arg13.view.ty)
  (hh : Fin 1024 → Fin 1024 → EReal) (bx : Fin 1024 → Fin 4 → EReal) (Wb : Fin 1024 → Fin 4 → EReal) (bb : Fin 1024 → EReal)
  (Wi : Fin 1024 → Fin 1024 → EReal) (bi : Fin 1024 → EReal)

/-- The message of the region in row `r` (zero past the last row), so that sums over rows can be taken over ranges. -/
def msgN (r : ℕ) (i : Fin 1024) : EReal := if h : r < 1024 then GruSpec.msg bx Wb bb Wi bi hh ⟨r, h⟩ i else 0

include 𝒱 c bd i arg1 harg1 arg2 harg2 arg3 harg3 arg4 harg4 arg5 harg5 arg6 harg6 arg7 harg7 arg8 harg8 arg9 harg9 arg10 harg10 arg11 harg11 arg12 harg12 arg13 harg13

/-- Row `p` of trip `k`'s tile of messages is the message of region `128 k + p`. -/
theorem tile_msg4
    (h11 : ∀ r f : Fin 1024, arg11.view.read (Elt Ideal) X_arg11 (ix3 (0 : Fin 1) r f) = hh r f)
    (h2 : ∀ (r : Fin 1024) (q : Fin 4), arg2.view.read (Elt Ideal) X_arg2 (ix3 (0 : Fin 1) r q) = bx r q)
    (h3 : ∀ (f : Fin 1024) (q : Fin 4), arg3.view.read (Elt Ideal) X_arg3 (ix2 f q) = Wb f q)
    (h4 : ∀ f : Fin 1024, arg4.view.read (Elt Ideal) X_arg4 (ix2 (0 : Fin 1) f) = bb f)
    (h5 : ∀ i f : Fin 1024, arg5.view.read (Elt Ideal) X_arg5 (ix2 i f) = Wi i f)
    (h6 : ∀ i : Fin 1024, arg6.view.read (Elt Ideal) X_arg6 (ix2 (0 : Fin 1) i) = bi i)
    (k : Fin k0_t4_loop.trips) (p : Fin 128) (i : Fin 1024) (hR : 128 * k.val + p.val < 1024) :
    k0_pay21 (F := Ideal)
        (View.readAt (Elt Ideal) arg11.view (Rect.unit (s := S1x1024x1024) (k0_off7 k) S1x128x1024.size (k0_off7_inb k)).toLoadRect X_arg11)
        (View.readAt (Elt Ideal) arg2.view (Rect.unit (s := S1x1024x4) (k0_off8 k) S1x128x4.size (k0_off8_inb k)).toLoadRect X_arg2)
        (View.readAt (Elt Ideal) arg3.view (Rect.unit (s := S1024x4) ![0, 0] S1024x4.size inb_S1024x4_S1024x4_0_0).toLoadRect X_arg3)
        (View.readAt (Elt Ideal) arg4.view (Rect.unit (s := S1x1024) ![0, 0] S1x1024.size inb_S1x1024_S1x1024_0_0).toLoadRect X_arg4)
        (View.readAt (Elt Ideal) arg5.view (Rect.unit (s := S1024x1024) ![0, 0] S1024x1024.size inb_S1024x1024_S1024x1024_0_0).toLoadRect X_arg5)
        (View.readAt (Elt Ideal) arg6.view (Rect.unit (s := S1x1024) ![0, 0] S1x1024.size inb_S1x1024_S1x1024_0_0).toLoadRect X_arg6) (ix2 p i)
      = GruSpec.msg bx Wb bb Wi bi hh ⟨128 * k.val + p.val, hR⟩ i := by
  have e16 : ∀ f : Fin 1024, (View.readAt (Elt Ideal) arg11.view (Rect.unit (s := S1x1024x1024) (k0_off7 k) S1x128x1024.size (k0_off7_inb k)).toLoadRect X_arg11) (ix3 (0 : Fin 1) p f)
      = hh ⟨128 * k.val + p.val, hR⟩ f := fun f =>
    (readAt_unit' arg11.view X_arg11 _ _ _ (k0_off7_inb k) _ (ix3 (0 : Fin 1) (⟨128 * k.val + p.val, hR⟩ : Fin 1024) f) (k0_off7_eq k)
      (fun a => by
        match a with
        | ⟨0, _⟩ => rfl
        | ⟨1, _⟩ => rfl
        | ⟨2, _⟩ => show f.val = 0 + f.val; omega)).trans (h11 _ _)
  have e19 : ∀ q : Fin 4, (View.readAt (Elt Ideal) arg2.view (Rect.unit (s := S1x1024x4) (k0_off8 k) S1x128x4.size (k0_off8_inb k)).toLoadRect X_arg2) (ix3 (0 : Fin 1) p q)
      = bx ⟨128 * k.val + p.val, hR⟩ q := fun q =>
    (readAt_unit' arg2.view X_arg2 _ _ _ (k0_off8_inb k) _ (ix3 (0 : Fin 1) (⟨128 * k.val + p.val, hR⟩ : Fin 1024) q) (k0_off8_eq k)
      (fun a => by
        match a with
        | ⟨0, _⟩ => rfl
        | ⟨1, _⟩ => rfl
        | ⟨2, _⟩ => show q.val = 0 + q.val; omega)).trans (h2 _ _)
  have e21 : ∀ (f : Fin 1024) (q : Fin 4), (View.readAt (Elt Ideal) arg3.view (Rect.unit (s := S1024x4) ![0, 0] S1024x4.size inb_S1024x4_S1024x4_0_0).toLoadRect X_arg3) (ix2 f q) = Wb f q := fun f q =>
    (readAt_unit arg3.view X_arg3 _ _ inb_S1024x4_S1024x4_0_0 _ (ix2 f q)
      (fun a => by
        match a with
        | ⟨0, _⟩ => show f.val = 0 + f.val; omega
        | ⟨1, _⟩ => show q.val = 0 + q.val; omega)).trans (h3 _ _)
  have e23 : ∀ f : Fin 1024, (View.readAt (Elt Ideal) arg4.view (Rect.unit (s := S1x1024) ![0, 0] S1x1024.size inb_S1x1024_S1x1024_0_0).toLoadRect X_arg4) (ix2 (0 : Fin 1) f) = bb f := fun f =>
    (readAt_unit arg4.view X_arg4 _ _ inb_S1x1024_S1x1024_0_0 _ (ix2 (0 : Fin 1) f)
      (fun a => by
        match a with
        | ⟨0, _⟩ => rfl
        | ⟨1, _⟩ => show f.val = 0 + f.val; omega)).trans (h4 _)
  have e25 : ∀ i f : Fin 1024, (View.readAt (Elt Ideal) arg5.view (Rect.unit (s := S1024x1024) ![0, 0] S1024x1024.size inb_S1024x1024_S1024x1024_0_0).toLoadRect X_arg5) (ix2 i f) = Wi i f := fun i f =>
    (readAt_unit arg5.view X_arg5 _ _ inb_S1024x1024_S1024x1024_0_0 _ (ix2 i f)
      (fun a => by
        match a with
        | ⟨0, _⟩ => show i.val = 0 + i.val; omega
        | ⟨1, _⟩ => show f.val = 0 + f.val; omega)).trans (h5 _ _)
  have e27 : ∀ i : Fin 1024, (View.readAt (Elt Ideal) arg6.view (Rect.unit (s := S1x1024) ![0, 0] S1x1024.size inb_S1x1024_S1x1024_0_0).toLoadRect X_arg6) (ix2 (0 : Fin 1) i) = bi i := fun i =>
    (readAt_unit arg6.view X_arg6 _ _ inb_S1x1024_S1x1024_0_0 _ (ix2 (0 : Fin 1) i)
      (fun a => by
        match a with
        | ⟨0, _⟩ => rfl
        | ⟨1, _⟩ => show i.val = 0 + i.val; omega)).trans (h6 _)
  rw [Pay.pay21_apply]
  unfold GruSpec.msg GruSpec.boxFeat
  simp only [e16, e19, e21, e23, e25, e27]

/-- After `k` trips of the message loop: the message buffer's rows below `128 k` hold those regions' messages (the rest as
    found), and the running sum holds what it held plus the messages of the regions below `128 k`. -/
theorem loop4_read
    (h11 : ∀ r f : Fin 1024, arg11.view.read (Elt Ideal) X_arg11 (ix3 (0 : Fin 1) r f) = hh r f)
    (h2 : ∀ (r : Fin 1024) (q : Fin 4), arg2.view.read (Elt Ideal) X_arg2 (ix3 (0 : Fin 1) r q) = bx r q)
    (h3 : ∀ (f : Fin 1024) (q : Fin 4), arg3.view.read (Elt Ideal) X_arg3 (ix2 f q) = Wb f q)
    (h4 : ∀ f : Fin 1024, arg4.view.read (Elt Ideal) X_arg4 (ix2 (0 : Fin 1) f) = bb f)
    (h5 : ∀ j f : Fin 1024, arg5.view.read (Elt Ideal) X_arg5 (ix2 j f) = Wi j f)
    (h6 : ∀ j : Fin 1024, arg6.view.read (Elt Ideal) X_arg6 (ix2 (0 : Fin 1) j) = bi j)
    (k : ℕ) (hk : k ≤ 8) :
    (∀ r j : Fin 1024, arg12.view.read (Elt Ideal) (arg12.view.writes (Elt Ideal) G12 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).1) (ix2 r j)
        = if r.val < 128 * k then GruSpec.msg bx Wb bb Wi bi hh r j else arg12.view.read (Elt Ideal) G12 (ix2 r j))
    ∧ (∀ j : Fin 1024, arg13.view.read (Elt Ideal) (arg13.view.writes (Elt Ideal) G13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2) (ix2 (0 : Fin 1) j)
        = arg13.view.read (Elt Ideal) G13 (ix2 (0 : Fin 1) j) + ∑ r ∈ Finset.range (128 * k), msgN hh bx Wb bb Wi bi r j) := by
  induction k with
  | zero =>
    refine ⟨fun r j => ?_, fun j => ?_⟩
    · rw [if_neg (by omega)]; rfl
    · rw [Nat.mul_zero, Finset.range_zero, Finset.sum_empty, add_zero]; rfl
  | succ k ih =>
    have hk' : k < k0_t4_loop.trips := by rw [trips4]; omega
    obtain ⟨ih12, ih13⟩ := ih (by omega)
    have hs : (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 (k + 1))
        = ((tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 ⟨k, hk'⟩ (arg12.view.writes (Elt Ideal) G12 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).1) (arg13.view.writes (Elt Ideal) G13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2)).1 ++ (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).1,
           (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 ⟨k, hk'⟩ (arg12.view.writes (Elt Ideal) G12 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).1) (arg13.view.writes (Elt Ideal) G13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2)).2 ++ (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2) :=
      pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 ⟨k, hk'⟩
    rw [Trips.trip4_eq] at hs
    refine ⟨fun r j => ?_, fun j => ?_⟩
    · rw [hs]
      dsimp only
      rw [List.singleton_append]
      by_cases h1 : 128 * k ≤ r.val ∧ r.val < 128 * k + 128
      · rw [if_pos (by omega)]
        refine (View.read_writes_cons_unit_of_mem arg12.view G12 (k0_off9_inb _) _ _ (ix2 r j)
          (ix2 (⟨r.val - 128 * k, by omega⟩ : Fin 128) j) (k0_off9_eq _) ?_).trans ?_
        · intro a
          match a with
          | ⟨0, _⟩ => show r.val = 128 * k + (r.val - 128 * k); omega
          | ⟨1, _⟩ => show j.val = 0 + j.val; omega
        · refine (Pay.pay22_apply _ _ _ _ _ _ _ _).trans ?_
          refine (tile_msg4 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 hh bx Wb bb Wi bi h11 h2 h3 h4 h5 h6 ⟨k, hk'⟩
            ⟨r.val - 128 * k, by omega⟩ j (by show 128 * k + (r.val - 128 * k) < 1024; omega)).trans ?_
          refine congrArg (fun q => GruSpec.msg bx Wb bb Wi bi hh q j) (Fin.ext ?_)
          show 128 * k + (r.val - 128 * k) = r.val; omega
      · rw [View.read_writes_cons_unit_of_not_mem arg12.view G12 (k0_off9_inb _) _ _ (ix2 r j) (k0_off9_eq _) 0
          (by show r.val < 128 * k ∨ 128 * k + 128 ≤ r.val; omega), ih12]
        by_cases h2' : r.val < 128 * k
        · rw [if_pos h2', if_pos (by omega)]
        · rw [if_neg h2', if_neg (by omega)]
    · rw [hs]
      dsimp only
      rw [List.singleton_append]
      refine (View.read_writes_cons_unit_of_mem arg13.view G13 inb_S1x1024_S1x1024_0_0 _ _ (ix2 (0 : Fin 1) j)
        (ix2 (0 : Fin 1) j) rfl ?_).trans ?_
      · intro a
        match a with
        | ⟨0, _⟩ => rfl
        | ⟨1, _⟩ => show j.val = 0 + j.val; omega
      · rw [Pay.pay5_eq, Pay.pay23_apply]
        have eacc : (View.readAt (Elt Ideal) arg13.view (Rect.unit (s := S1x1024) ![0, 0] S1x1024.size inb_S1x1024_S1x1024_0_0).toLoadRect (arg13.view.writes (Elt Ideal) G13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 G12 G13 k).2)) (ix2 (0 : Fin 1) j)
            = arg13.view.read (Elt Ideal) G13 (ix2 (0 : Fin 1) j) + ∑ r ∈ Finset.range (128 * k), msgN hh bx Wb bb Wi bi r j :=
          (readAt_unit arg13.view _ _ _ inb_S1x1024_S1x1024_0_0 _ (ix2 (0 : Fin 1) j)
            (fun a => by
              match a with
              | ⟨0, _⟩ => rfl
              | ⟨1, _⟩ => show j.val = 0 + j.val; omega)).trans (ih13 j)
        rw [eacc, add_assoc]
        refine congrArg (_ + ·) ?_
        rw [show 128 * (k + 1) = 128 * k + 128 by ring, Finset.sum_range_add, ← Fin.sum_univ_eq_sum_range (fun q => msgN hh bx Wb bb Wi bi (128 * k + q) j) 128]
        refine congrArg (_ + ·) (Finset.sum_congr rfl fun p _ => ?_)
        have hR : 128 * k + p.val < 1024 := by have := p.isLt; omega
        rw [msgN, dif_pos hR]
        exact tile_msg4 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 X_arg11 hh bx Wb bb Wi bi h11 h2 h3 h4 h5 h6 ⟨k, hk'⟩ p j hR

end

end Cert.KernelIdeal.Loop4
end
-- ==== Proof.KLoop5.lean ====
/-
  The second round's update loop: after its trips the state's rows below `128 k` hold the gated cell's output for
  those regions, computed from the state the loop found, the message buffer and the messages' sum; the rows from
  `128 k` on are as the loop found them. A trip reads only its own 128 rows of the state, which no earlier trip has
  written, so every trip computes from the state the loop started with.
-/
import proofs.«127752_j39092792328632_2_alg».proof.Proof.KTrips
import proofs.«127752_j39092792328632_2_alg».proof.Proof.LibRows
import proofs.«127752_j39092792328632_2_alg».proof.Proof.KPay
import proofs.«127752_j39092792328632_2_alg».proof.Proof.GruSpec
set_option maxRecDepth 16384
noncomputable section
namespace Cert.KernelIdeal.Loop5
open Idealize.ShloMosaic Idealize.ShloMosaic.TcCoe Idealize.ShloMosaic.ValueIdx Cert.KernelIdeal Cert.KernelIdeal.Gen Cert.Lib.Rows
open scoped BigOperators
variable (𝒱 : Variants) (c : Dev nD) (bd : Option 𝒱.V) (i : grid0.Coords) (arg1 : Memref sig .tc .vmem S1x1024x1024 .f32) (harg1 : arg1.IsWhole) (arg2 : Memref sig .tc .vmem S1x1024x4 .f32) (harg2 : arg2.IsWhole) (arg3 : Memref sig .tc .vmem S1024x4 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S3072x1024 .bf16) (harg7 : arg7.IsWhole) (arg8 : Memref sig .tc .vmem S3072x1024 .bf16) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1x1024 .f32) (harg13 : arg13.IsWhole)

theorem trips5 : k0_t5_loop.trips = 8 := rfl

section
variable (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty)
  (G11 : BufTy.Contents (Elt Ideal) arg11.view.ty)
  (hh xm : Fin 1024 → Fin 1024 → EReal) (sm : Fin 1024 → EReal) (Wih Whh : Fin 3072 → Fin 1024 → EReal) (bih bhh : Fin 3072 → EReal)

include 𝒱 c bd i arg1 harg1 arg2 harg2 arg3 harg3 arg4 harg4 arg5 harg5 arg6 harg6 arg7 harg7 arg8 harg8 arg9 harg9 arg10 harg10 arg11 harg11 arg12 harg12 arg13 harg13

/-- Row `p` of trip `k`'s tile is the cell's output for region `128 k + p`, when the state the trip finds holds `hh` in
    that row: the input side reads the mean of the other regions' messages (the sum row minus the region's message,
    times `1/1023`) against the three row blocks of the input weights, the state side the region's state against
    the three row blocks of the state weights, each plus its bias. -/
theorem tile_cell5 (F11 : BufTy.Contents (Elt Ideal) arg11.view.ty)
    (h12 : ∀ r i : Fin 1024, arg12.view.read (Elt Ideal) X_arg12 (ix2 r i) = xm r i)
    (h13 : ∀ i : Fin 1024, arg13.view.read (Elt Ideal) X_arg13 (ix2 (0 : Fin 1) i) = sm i)
    (h7 : ∀ (g : Fin 3072) (i : Fin 1024), arg7.view.read (Elt Ideal) X_arg7 (ix2 g i) = Wih g i)
    (h8 : ∀ (g : Fin 3072) (f : Fin 1024), arg8.view.read (Elt Ideal) X_arg8 (ix2 g f) = Whh g f)
    (h9 : ∀ g : Fin 3072, arg9.view.read (Elt Ideal) X_arg9 (ix2 (0 : Fin 1) g) = bih g)
    (h10 : ∀ g : Fin 3072, arg10.view.read (Elt Ideal) X_arg10 (ix2 (0 : Fin 1) g) = bhh g)
    (k : Fin k0_t5_loop.trips) (p : Fin 128) (f : Fin 1024) (R : Fin 1024) (hRv : R.val = 128 * k.val + p.val)
    (h11 : ∀ f' : Fin 1024, arg11.view.read (Elt Ideal) F11 (ix3 (0 : Fin 1) R f') = hh R f') :
    k0_pay35 (F := Ideal)
        (k0_pay24 (View.readAt (Elt Ideal) arg11.view (Rect.unit (s := S1x1024x1024) (k0_off10 k) S1x128x1024.size (k0_off10_inb k)).toLoadRect F11))
        (k0_pay25 (View.readAt (Elt Ideal) arg12.view (Rect.unit (s := S1024x1024) (k0_off11 k) S128x1024.size (k0_off11_inb k)).toLoadRect X_arg12) (View.readAt (Elt Ideal) arg13.view (Rect.unit (s := S1x1024) ![0, 0] S1x1024.size inb_S1x1024_S1x1024_0_0).toLoadRect X_arg13))
        (k0_pay26 (View.readAt (Elt Ideal) arg7.view (Rect.unit (s := S3072x1024) ![0, 0] S1024x1024.size inb_S3072x1024_S1024x1024_0_0).toLoadRect X_arg7))
        (k0_pay27 (View.readAt (Elt Ideal) arg7.view (Rect.unit (s := S3072x1024) ![1024, 0] S1024x1024.size inb_S3072x1024_S1024x1024_1024_0).toLoadRect X_arg7))
        (k0_pay28 (View.readAt (Elt Ideal) arg7.view (Rect.unit (s := S3072x1024) ![2048, 0] S1024x1024.size inb_S3072x1024_S1024x1024_2048_0).toLoadRect X_arg7))
        (k0_pay29 (View.readAt (Elt Ideal) arg8.view (Rect.unit (s := S3072x1024) ![0, 0] S1024x1024.size inb_S3072x1024_S1024x1024_0_0).toLoadRect X_arg8))
        (k0_pay30 (View.readAt (Elt Ideal) arg8.view (Rect.unit (s := S3072x1024) ![1024, 0] S1024x1024.size inb_S3072x1024_S1024x1024_1024_0).toLoadRect X_arg8))
        (k0_pay31 (View.readAt (Elt Ideal) arg8.view (Rect.unit (s := S3072x1024) ![2048, 0] S1024x1024.size inb_S3072x1024_S1024x1024_2048_0).toLoadRect X_arg8))
        (k0_pay32 (View.readAt (Elt Ideal) arg9.view (Rect.unit (s := S1x3072) ![0, 0] S1x1024.size inb_S1x3072_S1x1024_0_0).toLoadRect X_arg9))
        (k0_pay33 (View.readAt (Elt Ideal) arg9.view (Rect.unit (s := S1x3072) ![0, 1024] S1x1024.size inb_S1x3072_S1x1024_0_1024).toLoadRect X_arg9))
        (k0_pay34 (View.readAt (Elt Ideal) arg9.view (Rect.unit (s := S1x3072) ![0, 2048] S1x1024.size inb_S1x3072_S1x1024_0_2048).toLoadRect X_arg9))
        (View.readAt (Elt Ideal) arg10.view (Rect.unit (s := S1x3072) ![0, 0] S1x1024.size inb_S1x3072_S1x1024_0_0).toLoadRect X_arg10)
        (View.readAt (Elt Ideal) arg10.view (Rect.unit (s := S1x3072) ![0, 1024] S1x1024.size inb_S1x3072_S1x1024_0_1024).toLoadRect X_arg10)
        (View.readAt (Elt Ideal) arg10.view (Rect.unit (s := S1x3072) ![0, 2048] S1x1024.size inb_S1x3072_S1x1024_0_2048).toLoadRect X_arg10) (ix3 (0 : Fin 1) p f)
      = GruSpec.cell (fun g => (∑ i : Fin 1024, ((sm i - xm R i) * ((1 / 1023 : ℝ) : EReal)) * Wih g i) + bih g)
          (GruSpec.gh Whh bhh hh R) (hh R f) f := by
  have e17 : ∀ i : Fin 1024, k0_pay24 (F := Ideal) (View.readAt (Elt Ideal) arg11.view (Rect.unit (s := S1x1024x1024) (k0_off10 k) S1x128x1024.size (k0_off10_inb k)).toLoadRect F11) (ix2 p i) = hh R i := fun i =>
    (Pay.pay24_apply _ p i).trans ((readAt_unit' arg11.view F11 _ _ _ (k0_off10_inb k) _ (ix3 (0 : Fin 1) R i) (k0_off10_eq k)
      (fun a => by
        match a with
        | ⟨0, _⟩ => rfl
        | ⟨1, _⟩ => exact hRv
        | ⟨2, _⟩ => show i.val = 0 + i.val; omega)).trans (h11 i))
  have e19 : ∀ i : Fin 1024, (View.readAt (Elt Ideal) arg12.view (Rect.unit (s := S1024x1024) (k0_off11 k) S128x1024.size (k0_off11_inb k)).toLoadRect X_arg12) (ix2 p i) = xm R i := fun i =>
    (readAt_unit' arg12.view X_arg12 _ _ _ (k0_off11_inb k) _ (ix2 R i) (k0_off11_eq k)
      (fun a => by
        match a with
        | ⟨0, _⟩ => exact hRv
        | ⟨1, _⟩ => show i.val = 0 + i.val; omega)).trans (h12 _ _)
  have e21 : ∀ i : Fin 1024, (View.readAt (Elt Ideal) arg13.view (Rect.unit (s := S1x1024) ![0, 0] S1x1024.size inb_S1x1024_S1x1024_0_0).toLoadRect X_arg13) (ix2 (0 : Fin 1) i) = sm i := fun i =>
    (readAt_unit arg13.view X_arg13 _ _ inb_S1x1024_S1x1024_0_0 _ (ix2 (0 : Fin 1) i)
      (fun a => by
        match a with
        | ⟨0, _⟩ => rfl
        | ⟨1, _⟩ => show i.val = 0 + i.val; omega)).trans (h13 _)
  have e25 : ∀ i : Fin 1024, k0_pay25 (F := Ideal) (View.readAt (Elt Ideal) arg12.view (Rect.unit (s := S1024x1024) (k0_off11 k) S128x1024.size (k0_off11_inb k)).toLoadRect X_arg12) (View.readAt (Elt Ideal) arg13.view (Rect.unit (s := S1x1024) ![0, 0] S1x1024.size inb_S1x1024_S1x1024_0_0).toLoadRect X_arg13) (ix2 p i)
      = (sm i - xm R i) * ((1 / 1023 : ℝ) : EReal) := fun i => by
    rw [Pay.pay25_apply, e19, e21]
  have e27 : ∀ f i : Fin 1024, k0_pay26 (F := Ideal) (View.readAt (Elt Ideal) arg7.view (Rect.unit (s := S3072x1024) ![0, 0] S1024x1024.size inb_S3072x1024_S1024x1024_0_0).toLoadRect X_arg7) (ix2 f i) = Wih (GruSpec.gate0 f) i := fun f i =>
    (congrFun (Pay.pay26_eq _) _).trans ((readAt_unit arg7.view X_arg7 _ _ inb_S3072x1024_S1024x1024_0_0 _ (ix2 (GruSpec.gate0 f) i)
      (fun a => by
        match a with
        | ⟨0, _⟩ => show f.val = 0 + f.val; omega
        | ⟨1, _⟩ => show i.val = 0 + i.val; omega)).trans (h7 _ _))
  have e29 : ∀ f i : Fin 1024, k0_pay27 (F := Ideal) (View.readAt (Elt Ideal) arg7.view (Rect.unit (s := S3072x1024) ![1024, 0] S1024x1024.size inb_S3072x1024_S1024x1024_1024_0).toLoadRect X_arg7) (ix2 f i) = Wih (GruSpec.gate1 f) i := fun f i =>
    (congrFun (Pay.pay27_eq _) _).trans ((readAt_unit arg7.view X_arg7 _ _ inb_S3072x1024_S1024x1024_1024_0 _ (ix2 (GruSpec.gate1 f) i)
      (fun a => by
        match a with
        | ⟨0, _⟩ => rfl
        | ⟨1, _⟩ => show i.val = 0 + i.val; omega)).trans (h7 _ _))
  have e31 : ∀ f i : Fin 1024, k0_pay28 (F := Ideal) (View.readAt (Elt Ideal) arg7.view (Rect.unit (s := S3072x1024) ![2048, 0] S1024x1024.size inb_S3072x1024_S1024x1024_2048_0).toLoadRect X_arg7) (ix2 f i) = Wih (GruSpec.gate2 f) i := fun f i =>
    (congrFun (Pay.pay28_eq _) _).trans ((readAt_unit arg7.view X_arg7 _ _ inb_S3072x1024_S1024x1024_2048_0 _ (ix2 (GruSpec.gate2 f) i)
      (fun a => by
        match a with
        | ⟨0, _⟩ => rfl
        | ⟨1, _⟩ => show i.val = 0 + i.val; omega)).trans (h7 _ _))
  have e33 : ∀ f i : Fin 1024, k0_pay29 (F := Ideal) (View.readAt (Elt Ideal) arg8.view (Rect.unit (s := S3072x1024) ![0, 0] S1024x1024.size inb_S3072x1024_S1024x1024_0_0).toLoadRect X_arg8) (ix2 f i) = Whh (GruSpec.gate0 f) i := fun f i =>
    (congrFun (Pay.pay29_eq _) _).trans ((readAt_unit arg8.view X_arg8 _ _ inb_S3072x1024_S1024x1024_0_0 _ (ix2 (GruSpec.gate0 f) i)
      (fun a => by
        match a with
        | ⟨0, _⟩ => show f.val = 0 + f.val; omega
        | ⟨1, _⟩ => show i.val = 0 + i.val; omega)).trans (h8 _ _))
  have e35 : ∀ f i : Fin 1024, k0_pay30 (F := Ideal) (View.readAt (Elt Ideal) arg8.view (Rect.unit (s := S3072x1024) ![1024, 0] S1024x1024.size inb_S3072x1024_S1024x1024_1024_0).toLoadRect X_arg8) (ix2 f i) = Whh (GruSpec.gate1 f) i := fun f i =>
    (congrFun (Pay.pay30_eq _) _).trans ((readAt_unit arg8.view X_arg8 _ _ inb_S3072x1024_S1024x1024_1024_0 _ (ix2 (GruSpec.gate1 f) i)
      (fun a => by
        match a with
        | ⟨0, _⟩ => rfl
        | ⟨1, _⟩ => show i.val = 0 + i.val; omega)).trans (h8 _ _))
  have e37 : ∀ f i : Fin 1024, k0_pay31 (F := Ideal) (View.readAt (Elt Ideal) arg8.view (Rect.unit (s := S3072x1024) ![2048, 0] S1024x1024.size inb_S3072x1024_S1024x1024_2048_0).toLoadRect X_arg8) (ix2 f i) = Whh (GruSpec.gate2 f) i := fun f i =>
    (congrFun (Pay.pay31_eq _) _).trans ((readAt_unit arg8.view X_arg8 _ _ inb_S3072x1024_S1024x1024_2048_0 _ (ix2 (GruSpec.gate2 f) i)
      (fun a => by
        match a with
        | ⟨0, _⟩ => rfl
        | ⟨1, _⟩ => show i.val = 0 + i.val; omega)).trans (h8 _ _))
  have e39 : ∀ f : Fin 1024, k0_pay32 (F := Ideal) (View.readAt (Elt Ideal) arg9.view (Rect.unit (s := S1x3072) ![0, 0] S1x1024.size inb_S1x3072_S1x1024_0_0).toLoadRect X_arg9) (ix2 (0 : Fin 1) f) = bih (GruSpec.gate0 f) := fun f =>
    (congrFun (Pay.pay32_eq _) _).trans ((readAt_unit arg9.view X_arg9 _ _ inb_S1x3072_S1x1024_0_0 _ (ix2 (0 : Fin 1) (GruSpec.gate0 f))
      (fun a => by
        match a with
        | ⟨0, _⟩ => rfl
        | ⟨1, _⟩ => show f.val = 0 + f.val; omega)).trans (h9 _))
  have e41 : ∀ f : Fin 1024, k0_pay33 (F := Ideal) (View.readAt (Elt Ideal) arg9.view (Rect.unit (s := S1x3072) ![0, 1024] S1x1024.size inb_S1x3072_S1x1024_0_1024).toLoadRect X_arg9) (ix2 (0 : Fin 1) f) = bih (GruSpec.gate1 f) := fun f =>
    (congrFun (Pay.pay33_eq _) _).trans ((readAt_unit arg9.view X_arg9 _ _ inb_S1x3072_S1x1024_0_1024 _ (ix2 (0 : Fin 1) (GruSpec.gate1 f))
      (fun a => by
        match a with
        | ⟨0, _⟩ => rfl
        | ⟨1, _⟩ => rfl)).trans (h9 _))
  have e43 : ∀ f : Fin 1024, k0_pay34 (F := Ideal) (View.readAt (Elt Ideal) arg9.view (Rect.unit (s := S1x3072) ![0, 2048] S1x1024.size inb_S1x3072_S1x1024_0_2048).toLoadRect X_arg9) (ix2 (0 : Fin 1) f) = bih (GruSpec.gate2 f) := fun f =>
    (congrFun (Pay.pay34_eq _) _).trans ((readAt_unit arg9.view X_arg9 _ _ inb_S1x3072_S1x1024_0_2048 _ (ix2 (0 : Fin 1) (GruSpec.gate2 f))
      (fun a => by
        match a with
        | ⟨0, _⟩ => rfl
        | ⟨1, _⟩ => rfl)).trans (h9 _))
  have e44 : ∀ f : Fin 1024, (View.readAt (Elt Ideal) arg10.view (Rect.unit (s := S1x3072) ![0, 0] S1x1024.size inb_S1x3072_S1x1024_0_0).toLoadRect X_arg10) (ix2 (0 : Fin 1) f) = bhh (GruSpec.gate0 f) := fun f =>
    (readAt_unit arg10.view X_arg10 _ _ inb_S1x3072_S1x1024_0_0 _ (ix2 (0 : Fin 1) (GruSpec.gate0 f))
      (fun a => by
        match a with
        | ⟨0, _⟩ => rfl
        | ⟨1, _⟩ => show f.val = 0 + f.val; omega)).trans (h10 _)
  have e46 : ∀ f : Fin 1024, (View.readAt (Elt Ideal) arg10.view (Rect.unit (s := S1x3072) ![0, 1024] S1x1024.size inb_S1x3072_S1x1024_0_1024).toLoadRect X_arg10) (ix2 (0 : Fin 1) f) = bhh (GruSpec.gate1 f) := fun f =>
    (readAt_unit arg10.view X_arg10 _ _ inb_S1x3072_S1x1024_0_1024 _ (ix2 (0 : Fin 1) (GruSpec.gate1 f))
      (fun a => by
        match a with
        | ⟨0, _⟩ => rfl
        | ⟨1, _⟩ => rfl)).trans (h10 _)
  have e48 : ∀ f : Fin 1024, (View.readAt (Elt Ideal) arg10.view (Rect.unit (s := S1x3072) ![0, 2048] S1x1024.size inb_S1x3072_S1x1024_0_2048).toLoadRect X_arg10) (ix2 (0 : Fin 1) f) = bhh (GruSpec.gate2 f) := fun f =>
    (readAt_unit arg10.view X_arg10 _ _ inb_S1x3072_S1x1024_0_2048 _ (ix2 (0 : Fin 1) (GruSpec.gate2 f))
      (fun a => by
        match a with
        | ⟨0, _⟩ => rfl
        | ⟨1, _⟩ => rfl)).trans (h10 _)
  rw [Pay.pay35_apply, GruSpec.cell_eq_cellv]
  unfold GruSpec.gh
  simp only [e17, e25, e27, e29, e31, e33, e35, e37, e39, e41, e43, e44, e46, e48]

/-- After `k` trips of the update loop the state's rows below `128 k` hold the cell's output for those regions and the rest
    hold what the loop found. -/
theorem loop5_read
    (hG : ∀ r f : Fin 1024, arg11.view.read (Elt Ideal) G11 (ix3 (0 : Fin 1) r f) = hh r f)
    (h12 : ∀ r i : Fin 1024, arg12.view.read (Elt Ideal) X_arg12 (ix2 r i) = xm r i)
    (h13 : ∀ i : Fin 1024, arg13.view.read (Elt Ideal) X_arg13 (ix2 (0 : Fin 1) i) = sm i)
    (h7 : ∀ (g : Fin 3072) (i : Fin 1024), arg7.view.read (Elt Ideal) X_arg7 (ix2 g i) = Wih g i)
    (h8 : ∀ (g : Fin 3072) (f : Fin 1024), arg8.view.read (Elt Ideal) X_arg8 (ix2 g f) = Whh g f)
    (h9 : ∀ g : Fin 3072, arg9.view.read (Elt Ideal) X_arg9 (ix2 (0 : Fin 1) g) = bih g)
    (h10 : ∀ g : Fin 3072, arg10.view.read (Elt Ideal) X_arg10 (ix2 (0 : Fin 1) g) = bhh g)
    (k : ℕ) (hk : k ≤ 8) (r f : Fin 1024) :
    arg11.view.read (Elt Ideal) (arg11.view.writes (Elt Ideal) G11 (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 X_arg12 X_arg13 G11 k)) (ix3 (0 : Fin 1) r f)
      = if r.val < 128 * k then
          GruSpec.cell (fun g => (∑ i : Fin 1024, ((sm i - xm r i) * ((1 / 1023 : ℝ) : EReal)) * Wih g i) + bih g)
          (GruSpec.gh Whh bhh hh r) (hh r f) f
        else hh r f := by
  induction k generalizing r f with
  | zero => rw [if_neg (by omega)]; exact hG r f
  | succ k ih =>
    have hk' : k < k0_t5_loop.trips := by rw [trips5]; omega
    have ih := fun r f => ih (by omega) r f
    have hkv : (⟨k, hk'⟩ : Fin k0_t5_loop.trips).val = k := rfl
    rw [show k + 1 = (⟨k, hk'⟩ : Fin k0_t5_loop.trips).val + 1 from rfl, pb_k0_t5_succ, Trips.trip5_eq, List.singleton_append]
    by_cases h1 : 128 * k ≤ r.val ∧ r.val < 128 * k + 128
    · rw [if_pos (by omega)]
      refine (View.read_writes_cons_unit_of_mem arg11.view G11 (k0_off10_inb _) _ _ (ix3 (0 : Fin 1) r f)
        (ix3 (0 : Fin 1) (⟨r.val - 128 * k, by omega⟩ : Fin 128) f) (k0_off10_eq _) ?_).trans ?_
      · intro a
        match a with
        | ⟨0, _⟩ => rfl
        | ⟨1, _⟩ => show r.val = 128 * k + (r.val - 128 * k); omega
        | ⟨2, _⟩ => show f.val = 0 + f.val; omega
      · exact tile_cell5 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 X_arg12 X_arg13 hh xm sm Wih Whh bih bhh _ h12 h13 h7 h8 h9 h10 ⟨k, hk'⟩
          ⟨r.val - 128 * k, by omega⟩ f r (by show r.val = 128 * k + (r.val - 128 * k); omega)
          (fun f' => (ih r f').trans (if_neg (by omega)))
    · rw [View.read_writes_cons_unit_of_not_mem arg11.view G11 (k0_off10_inb _) _ _ (ix3 (0 : Fin 1) r f) (k0_off10_eq _) 1
        (by show r.val < 128 * k ∨ 128 * k + 128 ≤ r.val; omega), ih]
      by_cases h2 : r.val < 128 * k
      · rw [if_pos h2, if_pos (by omega)]
      · rw [if_neg h2, if_neg (by omega)]

end

end Cert.KernelIdeal.Loop5
end
-- ==== Proof.KRound.lean ====
/-
  One round of the kernel body read off its buffers: the message loop then the update loop, from a state that holds
  `h`, leave one round of message passing and the gated cell applied to `h`.
-/
import proofs.«127752_j39092792328632_2_alg».proof.Proof.KLoop2
import proofs.«127752_j39092792328632_2_alg».proof.Proof.KLoop3
import proofs.«127752_j39092792328632_2_alg».proof.Proof.KLoop4
import proofs.«127752_j39092792328632_2_alg».proof.Proof.KLoop5
set_option maxRecDepth 16384
noncomputable section
namespace Cert.KernelIdeal.Round
open Idealize.ShloMosaic Idealize.ShloMosaic.TcCoe Idealize.ShloMosaic.ValueIdx Cert.KernelIdeal Cert.KernelIdeal.Gen Cert.Lib.Rows
open scoped BigOperators
variable (𝒱 : Variants) (c : Dev nD) (bd : Option 𝒱.V) (i : grid0.Coords) (arg1 : Memref sig .tc .vmem S1x1024x1024 .f32) (harg1 : arg1.IsWhole) (arg2 : Memref sig .tc .vmem S1x1024x4 .f32) (harg2 : arg2.IsWhole) (arg3 : Memref sig .tc .vmem S1024x4 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S3072x1024 .bf16) (harg7 : arg7.IsWhole) (arg8 : Memref sig .tc .vmem S3072x1024 .bf16) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1x1024 .f32) (harg13 : arg13.IsWhole)

/-- Round one of the body, from the buffers to the mathematics: if the state holds `h` and the running sum was cleared, then
    after the message loop and the update loop the state holds one round `GruSpec.step` of `h`. The messages' sum over ranges of rows is
    the sum over all regions; the update loop reads exactly the message buffer and the sum the message loop left. -/
theorem round1
    (X_arg2 : BufTy.Contents (Elt Ideal) arg2.view.ty) (X_arg3 : BufTy.Contents (Elt Ideal) arg3.view.ty) (X_arg4 : BufTy.Contents (Elt Ideal) arg4.view.ty)
    (X_arg5 : BufTy.Contents (Elt Ideal) arg5.view.ty) (X_arg6 : BufTy.Contents (Elt Ideal) arg6.view.ty)
    (X_arg7 : BufTy.Contents (Elt Ideal) arg7.view.ty) (X_arg8 : BufTy.Contents (Elt Ideal) arg8.view.ty) (X_arg9 : BufTy.Contents (Elt Ideal) arg9.view.ty)
    (X_arg10 : BufTy.Contents (Elt Ideal) arg10.view.ty)
    (C11 : BufTy.Contents (Elt Ideal) arg11.view.ty) (G12 : BufTy.Contents (Elt Ideal) arg12.view.ty) (G13 : BufTy.Contents (Elt Ideal) arg13.view.ty)
    (h : Fin 1024 → Fin 1024 → EReal) (bx : Fin 1024 → Fin 4 → EReal) (Wb : Fin 1024 → Fin 4 → EReal) (bb : Fin 1024 → EReal)
    (Wi : Fin 1024 → Fin 1024 → EReal) (bi : Fin 1024 → EReal) (Wih Whh : Fin 3072 → Fin 1024 → EReal) (bih bhh : Fin 3072 → EReal)
    (hC : ∀ r f : Fin 1024, arg11.view.read (Elt Ideal) C11 (ix3 (0 : Fin 1) r f) = h r f)
    (h2 : ∀ (r : Fin 1024) (q : Fin 4), arg2.view.read (Elt Ideal) X_arg2 (ix3 (0 : Fin 1) r q) = bx r q)
    (h3 : ∀ (f : Fin 1024) (q : Fin 4), arg3.view.read (Elt Ideal) X_arg3 (ix2 f q) = Wb f q)
    (h4 : ∀ f : Fin 1024, arg4.view.read (Elt Ideal) X_arg4 (ix2 (0 : Fin 1) f) = bb f)
    (h5 : ∀ j f : Fin 1024, arg5.view.read (Elt Ideal) X_arg5 (ix2 j f) = Wi j f)
    (h6 : ∀ j : Fin 1024, arg6.view.read (Elt Ideal) X_arg6 (ix2 (0 : Fin 1) j) = bi j)
    (h7 : ∀ (g : Fin 3072) (j : Fin 1024), arg7.view.read (Elt Ideal) X_arg7 (ix2 g j) = Wih g j)
    (h8 : ∀ (g : Fin 3072) (f : Fin 1024), arg8.view.read (Elt Ideal) X_arg8 (ix2 g f) = Whh g f)
    (h9 : ∀ g : Fin 3072, arg9.view.read (Elt Ideal) X_arg9 (ix2 (0 : Fin 1) g) = bih g)
    (h10 : ∀ g : Fin 3072, arg10.view.read (Elt Ideal) X_arg10 (ix2 (0 : Fin 1) g) = bhh g)
    (hZ : ∀ j : Fin 1024, arg13.view.read (Elt Ideal) G13 (ix2 (0 : Fin 1) j) = 0)
    (r f : Fin 1024) :
    arg11.view.read (Elt Ideal) (arg11.view.writes (Elt Ideal) C11 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).1) (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).2) C11 8)) (ix3 (0 : Fin 1) r f)
      = GruSpec.step bx Wb bb Wi bi Wih Whh bih bhh h r f := by
  obtain ⟨e12, e13⟩ := Loop2.loop2_read 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 h bx Wb bb Wi bi hC h2 h3 h4 h5 h6 8 (le_refl 8)
  have e12' : ∀ r j : Fin 1024, arg12.view.read (Elt Ideal) (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).1) (ix2 r j) = GruSpec.msg bx Wb bb Wi bi h r j :=
    fun r j => (e12 r j).trans (if_pos (by have := r.isLt; omega))
  have e13' : ∀ j : Fin 1024, arg13.view.read (Elt Ideal) (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).2) (ix2 (0 : Fin 1) j) = GruSpec.agg bx Wb bb Wi bi h j := fun j => by
    rw [e13 j, hZ j, zero_add]
    unfold GruSpec.agg
    rw [show 128 * 8 = 1024 from rfl, ← Fin.sum_univ_eq_sum_range (fun q => Loop2.msgN h bx Wb bb Wi bi q j) 1024]
    refine Finset.sum_congr rfl fun q _ => ?_
    rw [Loop2.msgN, dif_pos q.isLt]
  refine (Loop3.loop3_read 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 (arg12.view.writes (Elt Ideal) G12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).1) (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).2) C11 h
    (GruSpec.msg bx Wb bb Wi bi h) (GruSpec.agg bx Wb bb Wi bi h) Wih Whh bih bhh hC e12' e13' h7 h8 h9 h10 8 (le_refl 8) r f).trans ?_
  rw [if_pos (by have := r.isLt; omega)]
  rfl

/-- Round two of the body, from the buffers to the mathematics: if the state holds `h` and the running sum was cleared, then
    after the message loop and the update loop the state holds one round `GruSpec.step` of `h`. The messages' sum over ranges of rows is
    the sum over all regions; the update loop reads exactly the message buffer and the sum the message loop left. -/
theorem round2
    (X_arg2 : BufTy.Contents (Elt Ideal) arg2.view.ty) (X_arg3 : BufTy.Contents (Elt Ideal) arg3.view.ty) (X_arg4 : BufTy.Contents (Elt Ideal) arg4.view.ty)
    (X_arg5 : BufTy.Contents (Elt Ideal) arg5.view.ty) (X_arg6 : BufTy.Contents (Elt Ideal) arg6.view.ty)
    (X_arg7 : BufTy.Contents (Elt Ideal) arg7.view.ty) (X_arg8 : BufTy.Contents (Elt Ideal) arg8.view.ty) (X_arg9 : BufTy.Contents (Elt Ideal) arg9.view.ty)
    (X_arg10 : BufTy.Contents (Elt Ideal) arg10.view.ty)
    (C11 : BufTy.Contents (Elt Ideal) arg11.view.ty) (G12 : BufTy.Contents (Elt Ideal) arg12.view.ty) (G13 : BufTy.Contents (Elt Ideal) arg13.view.ty)
    (h : Fin 1024 → Fin 1024 → EReal) (bx : Fin 1024 → Fin 4 → EReal) (Wb : Fin 1024 → Fin 4 → EReal) (bb : Fin 1024 → EReal)
    (Wi : Fin 1024 → Fin 1024 → EReal) (bi : Fin 1024 → EReal) (Wih Whh : Fin 3072 → Fin 1024 → EReal) (bih bhh : Fin 3072 → EReal)
    (hC : ∀ r f : Fin 1024, arg11.view.read (Elt Ideal) C11 (ix3 (0 : Fin 1) r f) = h r f)
    (h2 : ∀ (r : Fin 1024) (q : Fin 4), arg2.view.read (Elt Ideal) X_arg2 (ix3 (0 : Fin 1) r q) = bx r q)
    (h3 : ∀ (f : Fin 1024) (q : Fin 4), arg3.view.read (Elt Ideal) X_arg3 (ix2 f q) = Wb f q)
    (h4 : ∀ f : Fin 1024, arg4.view.read (Elt Ideal) X_arg4 (ix2 (0 : Fin 1) f) = bb f)
    (h5 : ∀ j f : Fin 1024, arg5.view.read (Elt Ideal) X_arg5 (ix2 j f) = Wi j f)
    (h6 : ∀ j : Fin 1024, arg6.view.read (Elt Ideal) X_arg6 (ix2 (0 : Fin 1) j) = bi j)
    (h7 : ∀ (g : Fin 3072) (j : Fin 1024), arg7.view.read (Elt Ideal) X_arg7 (ix2 g j) = Wih g j)
    (h8 : ∀ (g : Fin 3072) (f : Fin 1024), arg8.view.read (Elt Ideal) X_arg8 (ix2 g f) = Whh g f)
    (h9 : ∀ g : Fin 3072, arg9.view.read (Elt Ideal) X_arg9 (ix2 (0 : Fin 1) g) = bih g)
    (h10 : ∀ g : Fin 3072, arg10.view.read (Elt Ideal) X_arg10 (ix2 (0 : Fin 1) g) = bhh g)
    (hZ : ∀ j : Fin 1024, arg13.view.read (Elt Ideal) G13 (ix2 (0 : Fin 1) j) = 0)
    (r f : Fin 1024) :
    arg11.view.read (Elt Ideal) (arg11.view.writes (Elt Ideal) C11 (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 (arg12.view.writes (Elt Ideal) G12 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).1) (arg13.view.writes (Elt Ideal) G13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).2) C11 8)) (ix3 (0 : Fin 1) r f)
      = GruSpec.step bx Wb bb Wi bi Wih Whh bih bhh h r f := by
  obtain ⟨e12, e13⟩ := Loop4.loop4_read 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 h bx Wb bb Wi bi hC h2 h3 h4 h5 h6 8 (le_refl 8)
  have e12' : ∀ r j : Fin 1024, arg12.view.read (Elt Ideal) (arg12.view.writes (Elt Ideal) G12 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).1) (ix2 r j) = GruSpec.msg bx Wb bb Wi bi h r j :=
    fun r j => (e12 r j).trans (if_pos (by have := r.isLt; omega))
  have e13' : ∀ j : Fin 1024, arg13.view.read (Elt Ideal) (arg13.view.writes (Elt Ideal) G13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).2) (ix2 (0 : Fin 1) j) = GruSpec.agg bx Wb bb Wi bi h j := fun j => by
    rw [e13 j, hZ j, zero_add]
    unfold GruSpec.agg
    rw [show 128 * 8 = 1024 from rfl, ← Fin.sum_univ_eq_sum_range (fun q => Loop4.msgN h bx Wb bb Wi bi q j) 1024]
    refine Finset.sum_congr rfl fun q _ => ?_
    rw [Loop4.msgN, dif_pos q.isLt]
  refine (Loop5.loop5_read 𝒱 c bd i arg1 harg1 arg2 harg2 arg3 harg3 arg4 harg4 arg5 harg5 arg6 harg6 arg7 harg7 arg8 harg8 arg9 harg9 arg10 harg10 arg11 harg11 arg12 harg12 arg13 harg13 X_arg7 X_arg8 X_arg9 X_arg10 (arg12.view.writes (Elt Ideal) G12 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).1) (arg13.view.writes (Elt Ideal) G13 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 C11 G12 G13 8).2) C11 h
    (GruSpec.msg bx Wb bb Wi bi h) (GruSpec.agg bx Wb bb Wi bi h) Wih Whh bih bhh hC e12' e13' h7 h8 h9 h10 8 (le_refl 8) r f).trans ?_
  rw [if_pos (by have := r.isLt; omega)]
  rfl

end Cert.KernelIdeal.Round
end
-- ==== Proof.KIdealRun.lean ====
/-
  The idealized kernel's body run with the value of its output block stated (on the extended reals): after the body, the
  output block holds two rounds of the specification applied to the ten input blocks. The run goes through the body's five
  loops by their trip invariants; what they leave in the output block is then read by the loops' value lemmas — the copy of
  the features, then, twice, the message loop and the update loop.
-/
import proofs.«127752_j39092792328632_2_alg».proof.Proof.Gen.KernelIdeal.Frame.Runs
import proofs.«127752_j39092792328632_2_alg».proof.Proof.KLoop1
import proofs.«127752_j39092792328632_2_alg».proof.Proof.KRound
import proofs.«127752_j39092792328632_2_alg».proof.Proof.GruSpec
import proofs.«127752_j39092792328632_2_alg».proof.Proof.KPay

-- membership in a rectangle of production extents (`View.cover_of_tiled`): the elaborator's structural look
-- recurses once per coordinate of the long axes
set_option maxRecDepth 16384

noncomputable section

namespace Cert.KernelIdeal.Val
open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body leaves in its output block, as a function of its ten input blocks: two rounds of message passing and the
    gated cell, region by region. -/
def outAt (x0 : Vec Ideal S1x1024x1024 .f32) (x1 : Vec Ideal S1x1024x4 .f32) (x2 : Vec Ideal S1024x4 .bf16) (x3 : Vec Ideal S1x1024 .f32)
    (x4 : Vec Ideal S1024x1024 .bf16) (x5 : Vec Ideal S1x1024 .f32) (x6 : Vec Ideal S3072x1024 .bf16) (x7 : Vec Ideal S3072x1024 .bf16)
    (x8 : Vec Ideal S1x3072 .f32) (x9 : Vec Ideal S1x3072 .f32) : Vec Ideal S1x1024x1024 .f32 := fun y =>
  GruSpec.two (fun r k => x1 (ix3 (0 : Fin 1) r k)) (fun f k => x2 (ix2 f k)) (fun f => x3 (ix2 (0 : Fin 1) f))
    (fun i f => x4 (ix2 i f)) (fun i => x5 (ix2 (0 : Fin 1) i)) (fun g i => x6 (ix2 g i)) (fun g f => x7 (ix2 g f))
    (fun g => x8 (ix2 (0 : Fin 1) g)) (fun g => x9 (ix2 (0 : Fin 1) g)) (fun r f => x0 (ix3 (0 : Fin 1) r f))
    ⟨(y 1).val, (y 1).isLt⟩ ⟨(y 2).val, (y 2).isLt⟩

set_option maxHeartbeats 4000000 in
/-- The body's run with the output's VALUE stated: on whole staging memrefs — the inputs' at their contents, the output's and the
    scratch buffers' at anything — the body runs to the continuation holding the inputs' as they were, the output at `outAt` of
    the input blocks, the scratch at some contents. The run goes through the five loops by their trip invariants; what it leaves in
    the output is then read by the loops' value lemmas: the copy, and two rounds. -/
theorem body_run (c : Dev nD) (i : grid0.Coords) (arg1 : Memref sig .tc .vmem S1x1024x1024 .f32) (harg1 : arg1.IsWhole) (arg2 : Memref sig .tc .vmem S1x1024x4 .f32) (harg2 : arg2.IsWhole) (arg3 : Memref sig .tc .vmem S1024x4 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S3072x1024 .bf16) (harg7 : arg7.IsWhole) (arg8 : Memref sig .tc .vmem S3072x1024 .bf16) (harg8 : arg8.IsWhole) (arg9 : Memref sig .tc .vmem S1x3072 .f32) (harg9 : arg9.IsWhole) (arg10 : Memref sig .tc .vmem S1x3072 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1x1024 .f32) (harg13 : arg13.IsWhole)
    (x0 : Vec Ideal S1x1024x1024 .f32) (x1 : Vec Ideal S1x1024x4 .f32) (x2 : Vec Ideal S1024x4 .bf16) (x3 : Vec Ideal S1x1024 .f32) (x4 : Vec Ideal S1024x1024 .bf16) (x5 : Vec Ideal S1x1024 .f32) (x6 : Vec Ideal S3072x1024 .bf16) (x7 : Vec Ideal S3072x1024 .bf16) (x8 : Vec Ideal S1x3072 .f32) (x9 : Vec Ideal S1x3072 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outAt x0 x1 x2 x3 x4 x5 x6 x7 x8 x9) ∗ (∃ d, owns (c : Thread nD τ) arg12 fullShare d) ∗ (∃ d, owns (c : Thread nD τ) arg13 fullShare d)) -∗ K ⟨⟩))
          ⊢ wp frame (wpE (defs₀ (F := Ideal)) Variants.none c none) E (cc0__grumessage_kernel i arg1 harg1 arg2 harg2 arg3 harg3 arg4 harg4 arg5 harg5 arg6 harg6 arg7 harg7 arg8 harg8 arg9 harg9 arg10 harg10 arg11 harg11 arg12 harg12 arg13 harg13) K := by
    intro E K
    simp only [cc0__grumessage_kernel_eq_skeleton]; unfold cc0__grumessage_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro
      funext y
      obtain ⟨r, f, rfl⟩ : ∃ (r f : Fin 1024), y = ix3 (0 : Fin 1) r f :=
        ⟨⟨(y 1).val, (y 1).isLt⟩, ⟨(y 2).val, (y 2).isLt⟩, funext fun a => Fin.ext (by
          match a with
          | ⟨0, _⟩ => have h0 : (y 0).val < 1 := (y 0).isLt; show (y 0).val = 0; omega
          | ⟨1, _⟩ => rfl
          | ⟨2, _⟩ => rfl)⟩
      show _ = GruSpec.two (fun r k => x1 (ix3 (0 : Fin 1) r k)) (fun f k => x2 (ix2 f k)) (fun f => x3 (ix2 (0 : Fin 1) f)) (fun i f => x4 (ix2 i f)) (fun i => x5 (ix2 (0 : Fin 1) i)) (fun g i => x6 (ix2 g i)) (fun g f => x7 (ix2 g f)) (fun g => x8 (ix2 (0 : Fin 1) g)) (fun g => x9 (ix2 (0 : Fin 1) g)) (fun r f => x0 (ix3 (0 : Fin 1) r f)) r f
      have ht1 : Scf.trips k0_t1_loop.lb k0_t1_loop.ub k0_t1_loop.st = 8 := rfl
      have ht2 : Scf.trips k0_t2_loop.lb k0_t2_loop.ub k0_t2_loop.st = 8 := rfl
      have ht3 : Scf.trips k0_t3_loop.lb k0_t3_loop.ub k0_t3_loop.st = 8 := rfl
      have ht4 : Scf.trips k0_t4_loop.lb k0_t4_loop.ub k0_t4_loop.st = 8 := rfl
      have ht5 : Scf.trips k0_t5_loop.lb k0_t5_loop.ub k0_t5_loop.st = 8 := rfl
      simp only [View.writes_append, ht1, ht2, ht3, ht4, ht5]
      sl_unfold_run_names
      have e1 : ∀ r f : Fin 1024, arg11.view.read (Elt Ideal) (arg11.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg1.unread x0) 8)) (ix3 (0 : Fin 1) r f)
          = x0 (ix3 (0 : Fin 1) r f) := fun r f => by
        rw [Loop1.loop1_read Variants.none c none i arg1 harg1 arg2 harg2 arg3 harg3 arg4 harg4 arg5 harg5 arg6 harg6 arg7 harg7 arg8 harg8 arg9 harg9 arg10 harg10 arg11 harg11 arg12 harg12 arg13 harg13 (harg1.unread x0) f10 8 (le_refl 8) r f,
          if_pos (by have := r.isLt; omega), harg1.read_unread]
      have r2 : ∀ (r : Fin 1024) (q : Fin 4), arg2.view.read (Elt Ideal) (harg2.unread x1) (ix3 (0 : Fin 1) r q) = x1 (ix3 (0 : Fin 1) r q) :=
        fun r q => congrFun (harg2.read_unread x1) _
      have r3 : ∀ (f : Fin 1024) (q : Fin 4), arg3.view.read (Elt Ideal) (harg3.unread x2) (ix2 f q) = x2 (ix2 f q) :=
        fun f q => congrFun (harg3.read_unread x2) _
      have r4 : ∀ f : Fin 1024, arg4.view.read (Elt Ideal) (harg4.unread x3) (ix2 (0 : Fin 1) f) = x3 (ix2 (0 : Fin 1) f) :=
        fun f => congrFun (harg4.read_unread x3) _
      have r5 : ∀ j f : Fin 1024, arg5.view.read (Elt Ideal) (harg5.unread x4) (ix2 j f) = x4 (ix2 j f) :=
        fun j f => congrFun (harg5.read_unread x4) _
      have r6 : ∀ j : Fin 1024, arg6.view.read (Elt Ideal) (harg6.unread x5) (ix2 (0 : Fin 1) j) = x5 (ix2 (0 : Fin 1) j) :=
        fun j => congrFun (harg6.read_unread x5) _
      have r7 : ∀ (g : Fin 3072) (j : Fin 1024), arg7.view.read (Elt Ideal) (harg7.unread x6) (ix2 g j) = x6 (ix2 g j) :=
        fun g j => congrFun (harg7.read_unread x6) _
      have r8 : ∀ (g : Fin 3072) (f : Fin 1024), arg8.view.read (Elt Ideal) (harg8.unread x7) (ix2 g f) = x7 (ix2 g f) :=
        fun g f => congrFun (harg8.read_unread x7) _
      have r9 : ∀ g : Fin 3072, arg9.view.read (Elt Ideal) (harg9.unread x8) (ix2 (0 : Fin 1) g) = x8 (ix2 (0 : Fin 1) g) :=
        fun g => congrFun (harg9.read_unread x8) _
      have r10 : ∀ g : Fin 3072, arg10.view.read (Elt Ideal) (harg10.unread x9) (ix2 (0 : Fin 1) g) = x9 (ix2 (0 : Fin 1) g) :=
        fun g => congrFun (harg10.read_unread x9) _
      have ez : ∀ j : Fin 1024, arg13.view.read (Elt Ideal) (arg13.view.writes (Elt Ideal) arg13.view.junk
          [(⟨Rect.unit (s := S1x1024) ![0, 0] S1x1024.size inb_S1x1024_S1x1024_0_0, k0_pay2 (F := Ideal)⟩ : View.Piece (Elt Ideal) S1x1024 .f32)]) (ix2 (0 : Fin 1) j) = 0 := fun j =>
        (View.read_writes_cons_unit_of_mem arg13.view arg13.view.junk inb_S1x1024_S1x1024_0_0 _ [] (ix2 (0 : Fin 1) j) (ix2 (0 : Fin 1) j) rfl
          (fun a => by
            match a with
            | ⟨0, _⟩ => rfl
            | ⟨1, _⟩ => show j.val = 0 + j.val; omega)).trans (Pay.pay2_apply j)
      have eR1 := fun r f => Round.round1 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2) (harg4.unread x3) (harg5.unread x4) (harg6.unread x5) (harg7.unread x6) (harg8.unread x7) (harg9.unread x8) (harg10.unread x9)
        (arg11.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg1.unread x0) 8)) fs0
        (arg13.view.writes (Elt Ideal) arg13.view.junk [(⟨Rect.unit (s := S1x1024) ![0, 0] S1x1024.size inb_S1x1024_S1x1024_0_0, k0_pay2 (F := Ideal)⟩ : View.Piece (Elt Ideal) S1x1024 .f32)])
        (fun r f => x0 (ix3 (0 : Fin 1) r f)) (fun r k => x1 (ix3 (0 : Fin 1) r k)) (fun f k => x2 (ix2 f k)) (fun f => x3 (ix2 (0 : Fin 1) f)) (fun i f => x4 (ix2 i f)) (fun i => x5 (ix2 (0 : Fin 1) i)) (fun g i => x6 (ix2 g i)) (fun g f => x7 (ix2 g f)) (fun g => x8 (ix2 (0 : Fin 1) g)) (fun g => x9 (ix2 (0 : Fin 1) g)) e1 r2 r3 r4 r5 r6 r7 r8 r9 r10 ez r f
      refine (Round.round2 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2) (harg4.unread x3) (harg5.unread x4) (harg6.unread x5) (harg7.unread x6) (harg8.unread x7) (harg9.unread x8) (harg10.unread x9) _ _ _
        (GruSpec.step (fun r k => x1 (ix3 (0 : Fin 1) r k)) (fun f k => x2 (ix2 f k)) (fun f => x3 (ix2 (0 : Fin 1) f)) (fun i f => x4 (ix2 i f)) (fun i => x5 (ix2 (0 : Fin 1) i)) (fun g i => x6 (ix2 g i)) (fun g f => x7 (ix2 g f)) (fun g => x8 (ix2 (0 : Fin 1) g)) (fun g => x9 (ix2 (0 : Fin 1) g)) (fun r f => x0 (ix3 (0 : Fin 1) r f))) (fun r k => x1 (ix3 (0 : Fin 1) r k)) (fun f k => x2 (ix2 f k)) (fun f => x3 (ix2 (0 : Fin 1) f)) (fun i f => x4 (ix2 i f)) (fun i => x5 (ix2 (0 : Fin 1) i)) (fun g i => x6 (ix2 g i)) (fun g f => x7 (ix2 g f)) (fun g => x8 (ix2 (0 : Fin 1) g)) (fun g => x9 (ix2 (0 : Fin 1) g)) ?hC r2 r3 r4 r5 r6 r7 r8 r9 r10 ?hZ r f).trans ?_
      case hC => exact eR1
      case hZ =>
        intro j
        exact (View.read_writes_cons_unit_of_mem arg13.view arg13.view.junk inb_S1x1024_S1x1024_0_0 _ _ (ix2 (0 : Fin 1) j) (ix2 (0 : Fin 1) j) rfl
          (fun a => by
            match a with
            | ⟨0, _⟩ => rfl
            | ⟨1, _⟩ => show j.val = 0 + j.val; omega)).trans (Pay.pay4_apply j)
      rfl
    isplitl [HS0]
    · iexists _, _; isplitr; swap; · iexact HS0
      ipureintro; rfl
    iexists _, _; isplitr; swap; · iexact HS1
    ipureintro; rfl

end Cert.KernelIdeal.Val

end
-- ==== Proof.KIdealFrame.lean ====
/-
  The frame of the idealized kernel program, with the output block's value named.

  The proof data of the one pipeline on a core: each window's array as the region finds it; after the body at a grid
  point, each input window's staging buffer holds the window's block of its array, and the output window's holds the
  body's function of the ten input blocks (two rounds of the specification on the blocks); the invariant is the scratch
  buffers at some contents and the generator register; nothing is owed and every share is full. The body obligation
  at every point is the body's run with that value stated; the run of the whole program and the frame claim follow from
  the library's frame run around the region.
-/
import proofs.«127752_j39092792328632_2_alg».proof.Proof.KIdealRun

-- membership in a rectangle of production extents (`View.cover_of_tiled`): the elaborator's structural look
-- recurses once per coordinate of the long axes
set_option maxRecDepth 16384

noncomputable section

namespace Cert.KernelIdeal.Val
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## What the outputs hold after each point -/

/-- What the output's staging buffer holds after the body at point `t`: the body's function of the point's input blocks. -/
def outsAt0 (c : Dev nD) (t : Fin cfg0.N) : Vec Ideal S1x1024x1024 .f32 :=
  outAt (iblk m c 0 t) (iblk m c 1 t) (iblk m c 2 t) (iblk m c 3 t) (iblk m c 4 t) (iblk m c 5 t) (iblk m c 6 t) (iblk m c 7 t) (iblk m c 8 t) (iblk m c 9 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats m 0 c) (defs₀ (F := Ideal)) Variants.none () Set.univ := fun t => by
  rw [bigSep_W0, bigSep_W0]
  exact sound_body m c t

/-! ## The run and the frame -/

-- `θ_run_frame_around`'s implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the frame claim's statement for the idealized kernel program (Defs.lean), on the extended reals: every
    argument array ends as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Val

end
-- ==== Proof.KHost.lean ====
/-
  What the kernel's windows find in the arrays the host wrote before the launch: each bias as one row, each weight
  matrix unchanged (a change of float format is the identity on the extended reals).
-/
import proofs.«127752_j39092792328632_2_alg».proof.Proof.Gen.KernelIdeal.Frame.Runs
import Idealize.ShloMosaic.Lib.StableHlo.Run
import Idealize.ShloMosaic.Lib.ValueLayout
set_option maxRecDepth 16384
noncomputable section
namespace Cert.KernelIdeal.Host
open Idealize.ShloMosaic Idealize.ShloMosaic.TcCoe Idealize.ShloMosaic.ValueIdx Idealize.ShloMosaic.StableHlo Idealize.SL.Sem Cert.KernelIdeal Cert.KernelIdeal.Gen

variable (m : (ℓ : Loc nD τ sig) → Buf (Elt Ideal) ℓ) (c : Dev nD)

theorem V_v0 : (V m c main_v0 : S1x1024.Idx → EReal)
    = shapeCast S1x1024 (m ((c : Thread nD τ).loc main_arg3) : S1024.Idx → EReal) shapeCasts_S1024_S1x1024 := by
  show StableHlo.after hostOps0 (fun b => m (c, b)) (Proc.devRef .tc main_v0) = _
  after_results
  rfl

theorem V_v1 : (V m c main_v1 : S1x1024.Idx → EReal)
    = shapeCast S1x1024 (m ((c : Thread nD τ).loc main_arg5) : S1024.Idx → EReal) shapeCasts_S1024_S1x1024 := by
  show StableHlo.after hostOps0 (fun b => m (c, b)) (Proc.devRef .tc main_v1) = _
  after_results
  rfl

theorem V_v2 : (V m c main_v2 : S1x3072.Idx → EReal)
    = shapeCast S1x3072 (m ((c : Thread nD τ).loc main_arg8) : S3072.Idx → EReal) shapeCasts_S3072_S1x3072 := by
  show StableHlo.after hostOps0 (fun b => m (c, b)) (Proc.devRef .tc main_v2) = _
  after_results
  rfl

theorem V_v3 : (V m c main_v3 : S1x3072.Idx → EReal)
    = shapeCast S1x3072 (m ((c : Thread nD τ).loc main_arg9) : S3072.Idx → EReal) shapeCasts_S3072_S1x3072 := by
  show StableHlo.after hostOps0 (fun b => m (c, b)) (Proc.devRef .tc main_v3) = _
  after_results
  rfl

theorem V_v4 : (V m c main_v4 : S1024x4.Idx → EReal)
    = (m ((c : Thread nD τ).loc main_arg2) : S1024x4.Idx → EReal) := by
  show StableHlo.after hostOps0 (fun b => m (c, b)) (Proc.devRef .tc main_v4) = _
  after_results
  rfl

theorem V_v5 : (V m c main_v5 : S1024x1024.Idx → EReal)
    = (m ((c : Thread nD τ).loc main_arg4) : S1024x1024.Idx → EReal) := by
  show StableHlo.after hostOps0 (fun b => m (c, b)) (Proc.devRef .tc main_v5) = _
  after_results
  rfl

theorem V_v6 : (V m c main_v6 : S3072x1024.Idx → EReal)
    = (m ((c : Thread nD τ).loc main_arg6) : S3072x1024.Idx → EReal) := by
  show StableHlo.after hostOps0 (fun b => m (c, b)) (Proc.devRef .tc main_v6) = _
  after_results
  rfl

theorem V_v7 : (V m c main_v7 : S3072x1024.Idx → EReal)
    = (m ((c : Thread nD τ).loc main_arg7) : S3072x1024.Idx → EReal) := by
  show StableHlo.after hostOps0 (fun b => m (c, b)) (Proc.devRef .tc main_v7) = _
  after_results
  rfl

end Cert.KernelIdeal.Host
end
-- ==== Proof.KFinal.lean ====
/-
  From the body's value at one grid point to the run of the whole program with its result array named.

  The grid has sixteen points, one per image. At point `t` every window of the launch shows the body a block of its
  array: the features and boxes windows show image `t`, the weight and bias windows show their whole arrays (each bias
  as one row, as the host wrote it before the launch), and the result window takes image `t` of the result back. So the
  block the body leaves at point `t` is two rounds of the specification from image `t`'s slices of the arguments; the
  sixteen blocks tile the result array; and the host's last operation flattens the images into rows.
-/
import proofs.«127752_j39092792328632_2_alg».proof.Proof.KIdealFrame
import proofs.«127752_j39092792328632_2_alg».proof.Proof.KHost
import proofs.«127752_j39092792328632_2_alg».proof.Proof.GruSpec
import Idealize.ShloMosaic.Lib.Pipeline.Value
import Idealize.ShloMosaic.Lib.ValueLayout
import Idealize.ShloMosaic.Lib.StableHlo.Run
set_option maxRecDepth 16384
noncomputable section
namespace Cert.KernelIdeal.Final
open Idealize.ShloMosaic Idealize.ShloMosaic.TcCoe Idealize.ShloMosaic.ValueIdx Idealize.ShloMosaic.StableHlo Idealize.SL.Sem Cert.KernelIdeal Cert.KernelIdeal.Gen
open Idealize.ShloMosaic.Pipeline (Dat)

variable (m : (ℓ : Loc nD τ sig) → Buf (Elt Ideal) ℓ) (ρ : Dev nD → PrngReg)

/-! ## The result array -/

/-- Two rounds of the specification from image `b`'s slices of the argument arrays, at region `r` and feature `f`. -/
def resultAt (c : Dev nD) (b : Fin 16) (r f : Fin 1024) : EReal :=
  GruSpec.two (fun r k => (m ((c : Thread nD τ).loc main_arg1) : S16x1024x4.Idx → EReal) (ix3 b r k))
    (fun f k => (m ((c : Thread nD τ).loc main_arg2) : S1024x4.Idx → EReal) (ix2 f k))
    (fun f => (m ((c : Thread nD τ).loc main_arg3) : S1024.Idx → EReal) (ix1 f))
    (fun i f => (m ((c : Thread nD τ).loc main_arg4) : S1024x1024.Idx → EReal) (ix2 i f))
    (fun i => (m ((c : Thread nD τ).loc main_arg5) : S1024.Idx → EReal) (ix1 i))
    (fun g i => (m ((c : Thread nD τ).loc main_arg6) : S3072x1024.Idx → EReal) (ix2 g i))
    (fun g f => (m ((c : Thread nD τ).loc main_arg7) : S3072x1024.Idx → EReal) (ix2 g f))
    (fun g => (m ((c : Thread nD τ).loc main_arg8) : S3072.Idx → EReal) (ix1 g))
    (fun g => (m ((c : Thread nD τ).loc main_arg9) : S3072.Idx → EReal) (ix1 g))
    (fun r f => (m ((c : Thread nD τ).loc main_arg0) : S16x1024x1024.Idx → EReal) (ix3 b r f)) r f

/-- The result array, before the host flattens it: image by image, `resultAt`. -/
def result (c : Dev nD) : Buf (Elt Ideal) ((c : Thread nD τ).loc main_v8) :=
  fun (j : S16x1024x1024.Idx) => resultAt m c ⟨(j 0).val, (j 0).isLt⟩ ⟨(j 1).val, (j 1).isLt⟩ ⟨(j 2).val, (j 2).isLt⟩

theorem result_apply (c : Dev nD) (b : Fin 16) (r f : Fin 1024) :
    (result m c : S16x1024x1024.Idx → EReal) (ix3 b r f) = resultAt m c b r f := rfl

/-- Two rounds of the specification respect pointwise equality of their ten arguments. -/
theorem two_congr (bx Wb : Fin 1024 → Fin 4 → EReal) (bb : Fin 1024 → EReal) (Wi : Fin 1024 → Fin 1024 → EReal) (bi : Fin 1024 → EReal)
    (Wih Whh : Fin 3072 → Fin 1024 → EReal) (bih bhh : Fin 3072 → EReal) (h : Fin 1024 → Fin 1024 → EReal)
    (bx' Wb' : Fin 1024 → Fin 4 → EReal) (bb' : Fin 1024 → EReal) (Wi' : Fin 1024 → Fin 1024 → EReal) (bi' : Fin 1024 → EReal)
    (Wih' Whh' : Fin 3072 → Fin 1024 → EReal) (bih' bhh' : Fin 3072 → EReal) (h' : Fin 1024 → Fin 1024 → EReal)
    (e1 : ∀ r k, bx r k = bx' r k) (e2 : ∀ f k, Wb f k = Wb' f k) (e3 : ∀ f, bb f = bb' f) (e4 : ∀ i f, Wi i f = Wi' i f)
    (e5 : ∀ i, bi i = bi' i) (e6 : ∀ g i, Wih g i = Wih' g i) (e7 : ∀ g f, Whh g f = Whh' g f) (e8 : ∀ g, bih g = bih' g)
    (e9 : ∀ g, bhh g = bhh' g) (e0 : ∀ r f, h r f = h' r f) (r f : Fin 1024) :
    GruSpec.two bx Wb bb Wi bi Wih Whh bih bhh h r f = GruSpec.two bx' Wb' bb' Wi' bi' Wih' Whh' bih' bhh' h' r f := by
  obtain rfl : bx = bx' := funext fun r => funext fun k => e1 r k
  obtain rfl : Wb = Wb' := funext fun f => funext fun k => e2 f k
  obtain rfl : bb = bb' := funext e3
  obtain rfl : Wi = Wi' := funext fun i => funext fun f => e4 i f
  obtain rfl : bi = bi' := funext e5
  obtain rfl : Wih = Wih' := funext fun g => funext fun i => e6 g i
  obtain rfl : Whh = Whh' := funext fun g => funext fun f => e7 g f
  obtain rfl : bih = bih' := funext e8
  obtain rfl : bhh = bhh' := funext e9
  obtain rfl : h = h' := funext fun r => funext fun f => e0 r f
  rfl

/-! ## The windows' index maps, decided over the grid -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

/-- The image a grid point works on. -/
def pt (t : Fin cfg0.N) : Fin 16 := ⟨t.val, Nat.lt_of_lt_of_eq t.isLt N_0⟩

/-! ## Each window's block at an index -/

theorem emb0 (t : Fin cfg0.N) (r : Fin 1024) (f : Fin 1024) :
    ((cfg0.win 0).blk t).view.emb (ix3 (0 : Fin 1) r f) = ix3 (pt t) r f := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 1024 + 1 * f.val = f.val; omega
theorem emb1 (t : Fin cfg0.N) (r : Fin 1024) (k : Fin 4) :
    ((cfg0.win 1).blk t).view.emb (ix3 (0 : Fin 1) r k) = ix3 (pt t) r k := by
  obtain ⟨e0, e1, e2⟩ := idx1 t
  funext a; apply Fin.ext
  match a with
  | ⟨0, _⟩ => show win0_1.index t (0 : Fin 3) * 1 + 1 * 0 = t.val; omega
  | ⟨1, _⟩ => show win0_1.index t (1 : Fin 3) * 1024 + 1 * r.val = r.val; omega
  | ⟨2, _⟩ => show win0_1.index t (2 : Fin 3) * 4 + 1 * k.val = k.val; omega
theorem emb2 (t : Fin cfg0.N) (f : Fin 1024) (k : Fin 4) :
    ((cfg0.win 2).blk t).view.emb (ix2 f k) = ix2 f k := by
  obtain ⟨e0, e1⟩ := idx2 t
  funext a; apply Fin.ext
  match a with
  | ⟨0, _⟩ => show win0_2.index t (0 : Fin 2) * 1024 + 1 * f.val = f.val; omega
  | ⟨1, _⟩ => show win0_2.index t (1 : Fin 2) * 4 + 1 * k.val = k.val; omega
theorem emb3 (t : Fin cfg0.N) (f : Fin 1024) :
    ((cfg0.win 3).blk t).view.emb (ix2 (0 : Fin 1) f) = ix2 (0 : Fin 1) f := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 1024 + 1 * f.val = f.val; omega
theorem emb4 (t : Fin cfg0.N) (i : Fin 1024) (f : Fin 1024) :
    ((cfg0.win 4).blk t).view.emb (ix2 i f) = ix2 i f := by
  obtain ⟨e0, e1⟩ := idx4 t
  funext a; apply Fin.ext
  match a with
  | ⟨0, _⟩ => show win0_4.index t (0 : Fin 2) * 1024 + 1 * i.val = i.val; omega
  | ⟨1, _⟩ => show win0_4.index t (1 : Fin 2) * 1024 + 1 * f.val = f.val; omega
theorem emb5 (t : Fin cfg0.N) (i : Fin 1024) :
    ((cfg0.win 5).blk t).view.emb (ix2 (0 : Fin 1) i) = ix2 (0 : Fin 1) i := by
  obtain ⟨e0, e1⟩ := idx5 t
  funext a; apply Fin.ext
  match a with
  | ⟨0, _⟩ => show win0_5.index t (0 : Fin 2) * 1 + 1 * 0 = 0; omega
  | ⟨1, _⟩ => show win0_5.index t (1 : Fin 2) * 1024 + 1 * i.val = i.val; omega
theorem emb6 (t : Fin cfg0.N) (g : Fin 3072) (i : Fin 1024) :
    ((cfg0.win 6).blk t).view.emb (ix2 g i) = ix2 g i := by
  obtain ⟨e0, e1⟩ := idx6 t
  funext a; apply Fin.ext
  match a with
  | ⟨0, _⟩ => show win0_6.index t (0 : Fin 2) * 3072 + 1 * g.val = g.val; omega
  | ⟨1, _⟩ => show win0_6.index t (1 : Fin 2) * 1024 + 1 * i.val = i.val; omega
theorem emb7 (t : Fin cfg0.N) (g : Fin 3072) (f : Fin 1024) :
    ((cfg0.win 7).blk t).view.emb (ix2 g f) = ix2 g f := by
  obtain ⟨e0, e1⟩ := idx7 t
  funext a; apply Fin.ext
  match a with
  | ⟨0, _⟩ => show win0_7.index t (0 : Fin 2) * 3072 + 1 * g.val = g.val; omega
  | ⟨1, _⟩ => show win0_7.index t (1 : Fin 2) * 1024 + 1 * f.val = f.val; omega
theorem emb8 (t : Fin cfg0.N) (g : Fin 3072) :
    ((cfg0.win 8).blk t).view.emb (ix2 (0 : Fin 1) g) = ix2 (0 : Fin 1) g := by
  obtain ⟨e0, e1⟩ := idx8 t
  funext a; apply Fin.ext
  match a with
  | ⟨0, _⟩ => show win0_8.index t (0 : Fin 2) * 1 + 1 * 0 = 0; omega
  | ⟨1, _⟩ => show win0_8.index t (1 : Fin 2) * 3072 + 1 * g.val = g.val; omega
theorem emb9 (t : Fin cfg0.N) (g : Fin 3072) :
    ((cfg0.win 9).blk t).view.emb (ix2 (0 : Fin 1) g) = ix2 (0 : Fin 1) g := by
  obtain ⟨e0, e1⟩ := idx9 t
  funext a; apply Fin.ext
  match a with
  | ⟨0, _⟩ => show win0_9.index t (0 : Fin 2) * 1 + 1 * 0 = 0; omega
  | ⟨1, _⟩ => show win0_9.index t (1 : Fin 2) * 3072 + 1 * g.val = g.val; omega
theorem emb10 (t : Fin cfg0.N) (r : Fin 1024) (f : Fin 1024) :
    ((cfg0.win 10).blk t).view.emb (ix3 (0 : Fin 1) r f) = ix3 (pt t) r f := by
  obtain ⟨e0, e1, e2⟩ := idx10 t
  funext a; apply Fin.ext
  match a with
  | ⟨0, _⟩ => show win0_10.index t (0 : Fin 3) * 1 + 1 * 0 = t.val; omega
  | ⟨1, _⟩ => show win0_10.index t (1 : Fin 3) * 1024 + 1 * r.val = r.val; omega
  | ⟨2, _⟩ => show win0_10.index t (2 : Fin 3) * 1024 + 1 * f.val = f.val; omega

/-- The features window shows image `t` of the features. -/
theorem blk0 (c : Dev nD) (t : Fin cfg0.N) (r f : Fin 1024) :
    iblk m c 0 t (ix3 (0 : Fin 1) r f) = (m ((c : Thread nD τ).loc main_arg0) : S16x1024x1024.Idx → EReal) (ix3 (pt t) r f) := by
  show V m c main_arg0 (((cfg0.win 0).blk t).view.emb (ix3 (0 : Fin 1) r f)) = _
  rw [emb0 t r f, V_main_arg0]

/-- The boxes window shows image `t` of the boxes. -/
theorem blk1 (c : Dev nD) (t : Fin cfg0.N) (r : Fin 1024) (k : Fin 4) :
    iblk m c 1 t (ix3 (0 : Fin 1) r k) = (m ((c : Thread nD τ).loc main_arg1) : S16x1024x4.Idx → EReal) (ix3 (pt t) r k) := by
  show V m c main_arg1 (((cfg0.win 1).blk t).view.emb (ix3 (0 : Fin 1) r k)) = _
  rw [emb1 t r k, V_main_arg1]

/-- The box weights' window shows the box weights. -/
theorem blk2 (c : Dev nD) (t : Fin cfg0.N) (f : Fin 1024) (k : Fin 4) :
    iblk m c 2 t (ix2 f k) = (m ((c : Thread nD τ).loc main_arg2) : S1024x4.Idx → EReal) (ix2 f k) := by
  show (V m c main_v4 : S1024x4.Idx → EReal) (((cfg0.win 2).blk t).view.emb (ix2 f k)) = _
  rw [emb2 t f k, Host.V_v4]

/-- The box bias's window shows the bias as one row. -/
theorem blk3 (c : Dev nD) (t : Fin cfg0.N) (f : Fin 1024) :
    iblk m c 3 t (ix2 (0 : Fin 1) f) = (m ((c : Thread nD τ).loc main_arg3) : S1024.Idx → EReal) (ix1 f) := by
  show (V m c main_v0 : S1x1024.Idx → EReal) (((cfg0.win 3).blk t).view.emb (ix2 (0 : Fin 1) f)) = _
  rw [emb3 t f, Host.V_v0]
  exact shapeCast_a_1a_apply _ _ 0 f

/-- The input weights' window shows the input weights. -/
theorem blk4 (c : Dev nD) (t : Fin cfg0.N) (i : Fin 1024) (f : Fin 1024) :
    iblk m c 4 t (ix2 i f) = (m ((c : Thread nD τ).loc main_arg4) : S1024x1024.Idx → EReal) (ix2 i f) := by
  show (V m c main_v5 : S1024x1024.Idx → EReal) (((cfg0.win 4).blk t).view.emb (ix2 i f)) = _
  rw [emb4 t i f, Host.V_v5]

/-- The input bias's window shows the bias as one row. -/
theorem blk5 (c : Dev nD) (t : Fin cfg0.N) (i : Fin 1024) :
    iblk m c 5 t (ix2 (0 : Fin 1) i) = (m ((c : Thread nD τ).loc main_arg5) : S1024.Idx → EReal) (ix1 i) := by
  show (V m c main_v1 : S1x1024.Idx → EReal) (((cfg0.win 5).blk t).view.emb (ix2 (0 : Fin 1) i)) = _
  rw [emb5 t i, Host.V_v1]
  exact shapeCast_a_1a_apply _ _ 0 i

/-- The input-side gate weights' window shows those weights. -/
theorem blk6 (c : Dev nD) (t : Fin cfg0.N) (g : Fin 3072) (i : Fin 1024) :
    iblk m c 6 t (ix2 g i) = (m ((c : Thread nD τ).loc main_arg6) : S3072x1024.Idx → EReal) (ix2 g i) := by
  show (V m c main_v6 : S3072x1024.Idx → EReal) (((cfg0.win 6).blk t).view.emb (ix2 g i)) = _
  rw [emb6 t g i, Host.V_v6]

/-- The state-side gate weights' window shows those weights. -/
theorem blk7 (c : Dev nD) (t : Fin cfg0.N) (g : Fin 3072) (f : Fin 1024) :
    iblk m c 7 t (ix2 g f) = (m ((c : Thread nD τ).loc main_arg7) : S3072x1024.Idx → EReal) (ix2 g f) := by
  show (V m c main_v7 : S3072x1024.Idx → EReal) (((cfg0.win 7).blk t).view.emb (ix2 g f)) = _
  rw [emb7 t g f, Host.V_v7]

/-- The input-side gate bias's window shows the bias as one row. -/
theorem blk8 (c : Dev nD) (t : Fin cfg0.N) (g : Fin 3072) :
    iblk m c 8 t (ix2 (0 : Fin 1) g) = (m ((c : Thread nD τ).loc main_arg8) : S3072.Idx → EReal) (ix1 g) := by
  show (V m c main_v2 : S1x3072.Idx → EReal) (((cfg0.win 8).blk t).view.emb (ix2 (0 : Fin 1) g)) = _
  rw [emb8 t g, Host.V_v2]
  exact shapeCast_a_1a_apply _ _ 0 g

/-- The state-side gate bias's window shows the bias as one row. -/
theorem blk9 (c : Dev nD) (t : Fin cfg0.N) (g : Fin 3072) :
    iblk m c 9 t (ix2 (0 : Fin 1) g) = (m ((c : Thread nD τ).loc main_arg9) : S3072.Idx → EReal) (ix1 g) := by
  show (V m c main_v3 : S1x3072.Idx → EReal) (((cfg0.win 9).blk t).view.emb (ix2 (0 : Fin 1) g)) = _
  rw [emb9 t g, Host.V_v3]
  exact shapeCast_a_1a_apply _ _ 0 g

/-! ## What each point writes back, and the whole array -/

/-- The block the body leaves at point `t` is image `t` of the result. -/
theorem outs_value (c : Dev nD) (t : Fin cfg0.N) (r f : Fin 1024) :
    Val.outsAt0 m c t (ix3 (0 : Fin 1) r f) = resultAt m c (pt t) r f := by
  show GruSpec.two (fun r k => iblk m c 1 t (ix3 (0 : Fin 1) r k)) (fun f k => iblk m c 2 t (ix2 f k)) (fun f => iblk m c 3 t (ix2 (0 : Fin 1) f))
      (fun i f => iblk m c 4 t (ix2 i f)) (fun i => iblk m c 5 t (ix2 (0 : Fin 1) i)) (fun g i => iblk m c 6 t (ix2 g i))
      (fun g f => iblk m c 7 t (ix2 g f)) (fun g => iblk m c 8 t (ix2 (0 : Fin 1) g)) (fun g => iblk m c 9 t (ix2 (0 : Fin 1) g))
      (fun r f => iblk m c 0 t (ix3 (0 : Fin 1) r f)) r f = _
  unfold resultAt
  exact two_congr (fun r k => iblk m c 1 t (ix3 (0 : Fin 1) r k)) (fun f k => iblk m c 2 t (ix2 f k)) (fun f => iblk m c 3 t (ix2 (0 : Fin 1) f))
      (fun i f => iblk m c 4 t (ix2 i f)) (fun i => iblk m c 5 t (ix2 (0 : Fin 1) i)) (fun g i => iblk m c 6 t (ix2 g i))
      (fun g f => iblk m c 7 t (ix2 g f)) (fun g => iblk m c 8 t (ix2 (0 : Fin 1) g)) (fun g => iblk m c 9 t (ix2 (0 : Fin 1) g))
      (fun r f => iblk m c 0 t (ix3 (0 : Fin 1) r f))
    _ _ _ _ _ _ _ _ _ _
    (blk1 m c t) (blk2 m c t) (blk3 m c t) (blk4 m c t) (blk5 m c t) (blk6 m c t) (blk7 m c t) (blk8 m c t) (blk9 m c t) (blk0 m c t) r f

/-- What point `t` writes back is block `t` of the result array. -/
theorem flushed_eq (c : Dev nD) (t : Fin cfg0.N) :
    (Val.dats m 0 c).flushed 10 t = ((cfg0.win 10).blk t).view.read (Elt Ideal) (result m c) := by
  show (cfg0.win 10).cut (grid0.coords t) ((Val.dats m 0 c).after 10 t) = _
  rw [Val.after0_10]
  funext j
  obtain ⟨u, r, f, rfl⟩ : ∃ (u : Fin 1) (r f : Fin 1024), j = ix3 u r f := ⟨j 0, j 1, j 2, eq_ix3 j⟩
  obtain rfl : u = 0 := Subsingleton.elim _ _
  show Val.outsAt0 m c t (ix3 (0 : Fin 1) r f) = (result m c : S16x1024x1024.Idx → EReal) (((cfg0.win 10).blk t).view.emb (ix3 (0 : Fin 1) r f))
  rw [emb10 t r f, result_apply]
  exact outs_value m c t r f

/-- An index of the result array is in point `t`'s block iff each coordinate is in the block's range on its axis. -/
theorem mem_blk10 (t : Fin cfg0.N) (i : S16x1024x1024.Idx) :
    i ∈ ((cfg0.win 10).blk t).view.set ↔ ∀ a : Fin 3, win0_10.index t a * S1x1024x1024.size a ≤ (i a).val ∧ (i a).val < win0_10.index t a * S1x1024x1024.size a + S1x1024x1024.size a := by
  show i ∈ ((View.whole main_v8).slice (win0_10.rect t)).set ↔ _
  rw [View.set_slice_whole, Rect.mem_set_unit]
  exact Iff.rfl

/-- Every index of the result array is in the block of the point that works on its image. -/
theorem cover10 (i : S16x1024x1024.Idx) :
    ∃ t : Fin cfg0.N, (cfg0.win 10).flush t = true ∧ i ∈ ((cfg0.win 10).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = (i 0).val := ⟨⟨(i 0).val, Nat.lt_of_lt_of_eq hi0 N_0.symm⟩, rfl⟩
  refine ⟨t, flush0_10 t, ?_⟩
  rw [mem_blk10]
  obtain ⟨e0, e1, e2⟩ := idx10 t
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1024 ≤ (i 1).val ∧ (i 1).val < win0_10.index t (1 : Fin 3) * 1024 + 1024; omega
  | ⟨2, _⟩ => show win0_10.index t (2 : Fin 3) * 1024 ≤ (i 2).val ∧ (i 2).val < win0_10.index t (2 : Fin 3) * 1024 + 1024; omega

/-- After the sixteen points the result window's array is the result array. -/
theorem final (c : Dev nD) : (Val.dats m 0 c).arrAt 10 cfg0.N = result m c :=
  (Val.dats m 0 c).arrAt_eq_of_cover 10 (result m c) (fun t _ => flushed_eq m c t) cover10

/-! ## The run -/

/-- The host's last operation flattens the result window's array, whatever the proof data. -/
theorem tail_v9 (dats : (p : Fin 1) → (c : Dev nD) → Dat τ (Elt Ideal) Unit ℕ (UR sig nD τ) ℕ (cfgs p) c) (c : Dev nD) :
    Pipeline.afterTail₀ cfgs dats 0 (V0 m) [hostOps1] c main_v9
      = shapeCast S16384x1024 ((dats 0 c).arrAt 10 cfg0.N) shapeCasts_S16x1024x1024_S16384x1024 := by
  unfold Pipeline.afterTail₀
  show StableHlo.after hostOps1 _ (Proc.devRef .tc main_v9) = _
  after_results
  have e : Pipeline.withArrays (cfgs 0).spec c (V0 m c) (fun w => (dats 0 c).arrAt w (cfgs 0).N) (Proc.devRef .tc main_v8)
      = (dats 0 c).arrAt 10 cfg0.N := Pipeline.withArrays_arr spec0 launch0.win.arr_inj c _ _ 10
  rw [e]
  rfl

/-- The run of the program on the TensorCores from any memory: it terminates with the flattened result array in the
    result buffer and every argument as launched. -/
theorem run : θ_run defs (onTc (τ := τ) (main (F := Ideal))) ⟨m, fun _ => 0, ρ⟩ (fun r => ∀ c : Dev nD,
      r.2.mem ((c.tc : Thread nD τ).loc main_v9) = shapeCast S16384x1024 (result m c) shapeCasts_S16x1024x1024_S16384x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_v9 (Pipeline.mem_restRefs_of main_v9 (by decide) (by decide))).trans (tail_v9 m (Val.dats m) c)).trans
        (congrArg (fun x => shapeCast S16384x1024 x shapeCasts_S16x1024x1024_S16384x1024) (final m c)),
      ((h c).1 0).trans (((Val.dats m 0 c).arrAt_in 0 rfl _).trans ((Val.A_eq m c 0).trans (V_main_arg0 m c))),
      ((h c).1 1).trans (((Val.dats m 0 c).arrAt_in 1 rfl _).trans ((Val.A_eq m c 1).trans (V_main_arg1 m c))),
      (((h c).2 main_arg2 (Pipeline.mem_restRefs_of main_arg2 (by decide) (by decide))).trans (W_main_arg2 m (Val.dats m) c)),
      (((h c).2 main_arg3 (Pipeline.mem_restRefs_of main_arg3 (by decide) (by decide))).trans (W_main_arg3 m (Val.dats m) c)),
      (((h c).2 main_arg4 (Pipeline.mem_restRefs_of main_arg4 (by decide) (by decide))).trans (W_main_arg4 m (Val.dats m) c)),
      (((h c).2 main_arg5 (Pipeline.mem_restRefs_of main_arg5 (by decide) (by decide))).trans (W_main_arg5 m (Val.dats m) c)),
      (((h c).2 main_arg6 (Pipeline.mem_restRefs_of main_arg6 (by decide) (by decide))).trans (W_main_arg6 m (Val.dats m) c)),
      (((h c).2 main_arg7 (Pipeline.mem_restRefs_of main_arg7 (by decide) (by decide))).trans (W_main_arg7 m (Val.dats m) c)),
      (((h c).2 main_arg8 (Pipeline.mem_restRefs_of main_arg8 (by decide) (by decide))).trans (W_main_arg8 m (Val.dats m) c)),
      (((h c).2 main_arg9 (Pipeline.mem_restRefs_of main_arg9 (by decide) (by decide))).trans (W_main_arg9 m (Val.dats m) c))⟩) (Val.run_main m ρ)

end Cert.KernelIdeal.Final
end
-- ==== Proof.RefSide.lean ====
/-
  The reference program, read at one image, one region and one feature, is the specification.

  The reference program computes the box features once, then runs two rounds; each round is a message, its sum over the
  regions of the image, the mean of the other regions' messages, two affine maps into the three gates, and the gated
  cell. Every stage is read here at explicit coordinates `(b, r, f)` — image, region, feature — and identified with the
  specification's function of image `b`'s slices of the arguments. Round two is round one applied to round one's
  result, so one set of lemmas, stated for an arbitrary state array, serves both rounds.
-/
import proofs.«127752_j39092792328632_2_alg».proof.Proof.Gen.ReferenceIdeal.Read
import proofs.«127752_j39092792328632_2_alg».proof.Proof.GruSpec
import Idealize.ShloMosaic.Lib.IdealHost

noncomputable section

namespace Cert.ReferenceIdeal.RefValue

open Cert.ReferenceIdeal Cert.ReferenceIdeal.Gen Cert.ReferenceIdeal.Read Idealize.ShloMosaic
open scoped BigOperators

/-! ## The constant 1023 -/

/-- The word `0x447FC000` denotes the real number 1023: sign 0, exponent 136, significand `0x7FC000`, that is
    `(2^23 + 8372224) · 2^(136 - 127 - 23) = 16760832 / 16384`. -/
theorem ofBits_1023 : Ideal.ofBits .f32 0x447FC000#32 = ((1023 : ℝ) : EReal) := by
  simp [Ideal.ofBits, Ideal.ieee, -EReal.coe_mul]; norm_num

/-! ## The index maps of the reference's operations at explicit coordinates -/

section Indices

variable (b : Fin 16) (r f i : Fin 1024) (g : Fin 3072)

theorem lidx0 (k : Fin 4) : lidx_main_v0 (ValueIdx.ix3 b r f) k = ValueIdx.ix3 b r k :=
  funext fun a => Fin.ext (by match a with | ⟨0, _⟩ => rfl | ⟨1, _⟩ => rfl | ⟨2, _⟩ => rfl)
theorem ridx0 (k : Fin 4) : ridx_main_v0 (ValueIdx.ix3 b r f) k = ValueIdx.ix2 f k :=
  funext fun a => Fin.ext (by match a with | ⟨0, _⟩ => rfl | ⟨1, _⟩ => rfl)
theorem idx12 : idx_main_v1 (idx_main_v2 (ValueIdx.ix3 b r f)) = ValueIdx.ix1 f :=
  funext fun a => Fin.ext (by match a with | ⟨0, _⟩ => rfl)
theorem lidx6 (k : Fin 1024) : lidx_main_v6 (ValueIdx.ix3 b r i) k = ValueIdx.ix3 b r k :=
  funext fun a => Fin.ext (by match a with | ⟨0, _⟩ => rfl | ⟨1, _⟩ => rfl | ⟨2, _⟩ => rfl)
theorem ridx6 (k : Fin 1024) : ridx_main_v6 (ValueIdx.ix3 b r i) k = ValueIdx.ix2 i k :=
  funext fun a => Fin.ext (by match a with | ⟨0, _⟩ => rfl | ⟨1, _⟩ => rfl)
theorem idx78 : idx_main_v7 (idx_main_v8 (ValueIdx.ix3 b r i)) = ValueIdx.ix1 i :=
  funext fun a => Fin.ext (by match a with | ⟨0, _⟩ => rfl)
theorem idx10 (k : Fin 1024) : idx_main_v10 (ValueIdx.ix2 b i) k = ValueIdx.ix3 b k i :=
  funext fun a => Fin.ext (by match a with | ⟨0, _⟩ => rfl | ⟨1, _⟩ => rfl | ⟨2, _⟩ => rfl)
theorem idx1112 : idx_main_v11 (idx_main_v12 (ValueIdx.ix3 b r i)) = ValueIdx.ix2 b i :=
  funext fun a => Fin.ext (by match a with | ⟨0, _⟩ => rfl | ⟨1, _⟩ => rfl)
theorem lidx16 (k : Fin 1024) : lidx_main_v16 (ValueIdx.ix3 b r g) k = ValueIdx.ix3 b r k :=
  funext fun a => Fin.ext (by match a with | ⟨0, _⟩ => rfl | ⟨1, _⟩ => rfl | ⟨2, _⟩ => rfl)
theorem ridx16 (k : Fin 1024) : ridx_main_v16 (ValueIdx.ix3 b r g) k = ValueIdx.ix2 g k :=
  funext fun a => Fin.ext (by match a with | ⟨0, _⟩ => rfl | ⟨1, _⟩ => rfl)
theorem idx1718 : idx_main_v17 (idx_main_v18 (ValueIdx.ix3 b r g)) = ValueIdx.ix1 g :=
  funext fun a => Fin.ext (by match a with | ⟨0, _⟩ => rfl)
theorem lidx20 (k : Fin 1024) : lidx_main_v20 (ValueIdx.ix3 b r g) k = ValueIdx.ix3 b r k :=
  funext fun a => Fin.ext (by match a with | ⟨0, _⟩ => rfl | ⟨1, _⟩ => rfl | ⟨2, _⟩ => rfl)
theorem ridx20 (k : Fin 1024) : ridx_main_v20 (ValueIdx.ix3 b r g) k = ValueIdx.ix2 g k :=
  funext fun a => Fin.ext (by match a with | ⟨0, _⟩ => rfl | ⟨1, _⟩ => rfl)
theorem idx2122 : idx_main_v21 (idx_main_v22 (ValueIdx.ix3 b r g)) = ValueIdx.ix1 g :=
  funext fun a => Fin.ext (by match a with | ⟨0, _⟩ => rfl)

/-- The three slices of the 3072 gate rows start at rows 0, 1024 and 2048. -/
theorem idx24 : idx_main_v24 (ValueIdx.ix3 b r f) = ValueIdx.ix3 b r (GruSpec.gate0 f) :=
  funext fun a => Fin.ext (by match a with | ⟨0, _⟩ => rfl | ⟨1, _⟩ => rfl | ⟨2, _⟩ => rfl)
theorem idx25 : idx_main_v25 (ValueIdx.ix3 b r f) = ValueIdx.ix3 b r (GruSpec.gate1 f) :=
  funext fun a => Fin.ext (by match a with | ⟨0, _⟩ => rfl | ⟨1, _⟩ => rfl | ⟨2, _⟩ => rfl)
theorem idx26 : idx_main_v26 (ValueIdx.ix3 b r f) = ValueIdx.ix3 b r (GruSpec.gate2 f) :=
  funext fun a => Fin.ext (by match a with | ⟨0, _⟩ => rfl | ⟨1, _⟩ => rfl | ⟨2, _⟩ => rfl)
theorem idx27 : idx_main_v27 (ValueIdx.ix3 b r f) = ValueIdx.ix3 b r (GruSpec.gate0 f) :=
  funext fun a => Fin.ext (by match a with | ⟨0, _⟩ => rfl | ⟨1, _⟩ => rfl | ⟨2, _⟩ => rfl)
theorem idx28 : idx_main_v28 (ValueIdx.ix3 b r f) = ValueIdx.ix3 b r (GruSpec.gate1 f) :=
  funext fun a => Fin.ext (by match a with | ⟨0, _⟩ => rfl | ⟨1, _⟩ => rfl | ⟨2, _⟩ => rfl)
theorem idx29 : idx_main_v29 (ValueIdx.ix3 b r f) = ValueIdx.ix3 b r (GruSpec.gate2 f) :=
  funext fun a => Fin.ext (by match a with | ⟨0, _⟩ => rfl | ⟨1, _⟩ => rfl | ⟨2, _⟩ => rfl)

end Indices

/-! ## One round, from an arbitrary state array -/

section Round

variable (x0 : (⟨S16x1024x1024, .f32⟩ : BufTy).Contents (Elt Ideal))
  (x1 : (⟨S16x1024x4, .f32⟩ : BufTy).Contents (Elt Ideal))
  (x2 : (⟨S1024x4, .f32⟩ : BufTy).Contents (Elt Ideal))
  (x3 : (⟨S1024, .f32⟩ : BufTy).Contents (Elt Ideal))
  (x4 : (⟨S1024x1024, .f32⟩ : BufTy).Contents (Elt Ideal))
  (x5 : (⟨S1024, .f32⟩ : BufTy).Contents (Elt Ideal))
  (x6 : (⟨S3072x1024, .f32⟩ : BufTy).Contents (Elt Ideal))
  (x7 : (⟨S3072x1024, .f32⟩ : BufTy).Contents (Elt Ideal))
  (x8 : (⟨S3072, .f32⟩ : BufTy).Contents (Elt Ideal))
  (x9 : (⟨S3072, .f32⟩ : BufTy).Contents (Elt Ideal))
  (b : Fin 16)

/- Image `b`'s slices of the arguments, as the specification takes them. -/
local notation "BX" => (fun (r : Fin 1024) (k : Fin 4) => x1 (ValueIdx.ix3 b r k))
local notation "WB" => (fun (f : Fin 1024) (k : Fin 4) => x2 (ValueIdx.ix2 f k))
local notation "BB" => (fun (f : Fin 1024) => x3 (ValueIdx.ix1 f))
local notation "WI" => (fun (i f : Fin 1024) => x4 (ValueIdx.ix2 i f))
local notation "BI" => (fun (i : Fin 1024) => x5 (ValueIdx.ix1 i))
local notation "WIH" => (fun (g : Fin 3072) (i : Fin 1024) => x6 (ValueIdx.ix2 g i))
local notation "WHH" => (fun (g : Fin 3072) (f : Fin 1024) => x7 (ValueIdx.ix2 g f))
local notation "BIH" => (fun (g : Fin 3072) => x8 (ValueIdx.ix1 g))
local notation "BHH" => (fun (g : Fin 3072) => x9 (ValueIdx.ix1 g))
local notation "H0" => (fun (r f : Fin 1024) => x0 (ValueIdx.ix3 b r f))

/-- The box features: a contraction over the four box numbers plus the bias. -/
theorem box1 (r f : Fin 1024) :
    val_main_v3 (F := Ideal) x1 x2 x3 (ValueIdx.ix3 b r f) = GruSpec.boxFeat BX WB BB r f := by
  rw [val_main_v3_apply, val_main_v0_apply, val_main_v2_apply, val_main_v1_apply]
  simp only [lidx0, ridx0, idx12, Ideal.addf_def]
  rfl

/-- The message of a region: the positive part of state times box features, contracted with the input weights, plus
    the bias. The zero the positive part compares with is the zero word. -/
theorem msg1 (r i : Fin 1024) :
    val_main_v9 (F := Ideal) x0 x1 x2 x3 x4 x5 (ValueIdx.ix3 b r i) = GruSpec.msg BX WB BB WI BI H0 r i := by
  rw [val_main_v9_apply, val_main_v6_apply, val_main_v8_apply, val_main_v7_apply]
  simp only [lidx6, ridx6, idx78, val_main_v5_apply, val_main_v4_apply, val_main_call0_v0_apply, val_main_call0_cst_apply,
    box1, Ideal.addf_def, Ideal.mulf_def, Ideal.maximumf_def, Ideal.ofBits_def, Ideal.ofBits_zero_f32]
  rfl

/-- The sum of the messages over the regions of the image; the sum starts from the zero word, which is `0`. -/
theorem agg1 (i : Fin 1024) :
    val_main_v10 (F := Ideal) x0 x1 x2 x3 x4 x5 (ValueIdx.ix2 b i) = GruSpec.agg BX WB BB WI BI H0 i := by
  rw [val_main_v10_apply, val_main_cst_apply]
  simp only [idx10, msg1, Ideal.ofBits_def, Ideal.ofBits_zero_f32, zero_add]
  rfl

/-- The mean of the other regions' messages: the reference divides by 1023, which is multiplication by `1/1023`
    because 1023 is a real number other than zero. -/
theorem inp1 (r i : Fin 1024) :
    val_main_v15 (F := Ideal) x0 x1 x2 x3 x4 x5 (ValueIdx.ix3 b r i) = GruSpec.inp BX WB BB WI BI H0 r i := by
  rw [val_main_v15_apply, val_main_v13_apply, val_main_v12_apply, val_main_v11_apply, val_main_v14_apply,
    val_main_cst_0_apply, idx1112, agg1, msg1]
  simp only [Ideal.hostDivf_def, Ideal.subf_def, Ideal.ofBits_def]
  rw [ofBits_1023, Ideal.div_coe (by norm_num : (1023 : ℝ) ≠ 0)]
  rfl

/-- The input-side pre-activation of a gate row. -/
theorem gi1 (r : Fin 1024) (g : Fin 3072) :
    val_main_v19 (F := Ideal) x0 x1 x2 x3 x4 x5 x6 x8 (ValueIdx.ix3 b r g)
      = GruSpec.gi BX WB BB WI BI WIH BIH H0 r g := by
  rw [val_main_v19_apply, val_main_v16_apply, val_main_v18_apply, val_main_v17_apply]
  simp only [lidx16, ridx16, idx1718, inp1, Ideal.addf_def]
  rfl

/-- The state-side pre-activation of a gate row. -/
theorem gh1 (r : Fin 1024) (g : Fin 3072) :
    val_main_v23 (F := Ideal) x0 x7 x9 (ValueIdx.ix3 b r g) = GruSpec.gh WHH BHH H0 r g := by
  rw [val_main_v23_apply, val_main_v20_apply, val_main_v22_apply, val_main_v21_apply]
  simp only [lidx20, ridx20, idx2122, Ideal.addf_def]
  rfl

/-- The first gate: the reference spells the logistic function as `1 / (1 + exp (-x))`, which is its definition. -/
theorem rho1 (r f : Fin 1024) :
    val_main_v36 (F := Ideal) x0 x1 x2 x3 x4 x5 x6 x7 x8 x9 (ValueIdx.ix3 b r f)
      = Ideal.logistic (GruSpec.gi BX WB BB WI BI WIH BIH H0 r (GruSpec.gate0 f)
          + GruSpec.gh WHH BHH H0 r (GruSpec.gate0 f)) := by
  rw [val_main_v36_apply, val_main_v35_apply, val_main_cst_2_apply, val_main_v34_apply, val_main_v33_apply,
    val_main_cst_1_apply, val_main_v32_apply, val_main_v31_apply, val_main_v30_apply, val_main_v24_apply,
    val_main_v27_apply, idx24, idx27, gi1, gh1]
  simp only [Ideal.hostDivf_def, Ideal.addf_def, Ideal.hostUnary_exp_def, Ideal.hostNegf_def, Ideal.negf_def,
    Ideal.ofBits_def, Ideal.ofBits_one_f32]
  rfl

/-- The second gate, likewise. -/
theorem zeta1 (r f : Fin 1024) :
    val_main_v43 (F := Ideal) x0 x1 x2 x3 x4 x5 x6 x7 x8 x9 (ValueIdx.ix3 b r f)
      = Ideal.logistic (GruSpec.gi BX WB BB WI BI WIH BIH H0 r (GruSpec.gate1 f)
          + GruSpec.gh WHH BHH H0 r (GruSpec.gate1 f)) := by
  rw [val_main_v43_apply, val_main_v42_apply, val_main_cst_4_apply, val_main_v41_apply, val_main_v40_apply,
    val_main_cst_3_apply, val_main_v39_apply, val_main_v38_apply, val_main_v37_apply, val_main_v25_apply,
    val_main_v28_apply, idx25, idx28, gi1, gh1]
  simp only [Ideal.hostDivf_def, Ideal.addf_def, Ideal.hostUnary_exp_def, Ideal.hostNegf_def, Ideal.negf_def,
    Ideal.ofBits_def, Ideal.ofBits_one_f32]
  rfl

/-- The candidate state: the hyperbolic tangent of the third input-side row plus the first gate times the third
    state-side row. -/
theorem nu1 (r f : Fin 1024) :
    val_main_v46 (F := Ideal) x0 x1 x2 x3 x4 x5 x6 x7 x8 x9 (ValueIdx.ix3 b r f)
      = Ideal.tanh (GruSpec.gi BX WB BB WI BI WIH BIH H0 r (GruSpec.gate2 f)
          + Ideal.logistic (GruSpec.gi BX WB BB WI BI WIH BIH H0 r (GruSpec.gate0 f)
              + GruSpec.gh WHH BHH H0 r (GruSpec.gate0 f))
            * GruSpec.gh WHH BHH H0 r (GruSpec.gate2 f)) := by
  rw [val_main_v46_apply, val_main_v45_apply, val_main_v44_apply, val_main_v26_apply, val_main_v29_apply, idx26, idx29,
    rho1, gi1, gh1]
  simp only [Ideal.hostUnary_tanh_def, Ideal.addf_def, Ideal.mulf_def]

/-- One round of the reference from the state array `x0` is the specification's round from image `b`'s state. -/
theorem step1 (r f : Fin 1024) :
    val_main_v51 (F := Ideal) x0 x1 x2 x3 x4 x5 x6 x7 x8 x9 (ValueIdx.ix3 b r f)
      = GruSpec.step BX WB BB WI BI WIH WHH BIH BHH H0 r f := by
  rw [val_main_v51_apply, val_main_v49_apply, val_main_v50_apply, val_main_v48_apply, val_main_v47_apply,
    val_main_cst_5_apply, zeta1, nu1]
  simp only [Ideal.addf_def, Ideal.mulf_def, Ideal.subf_def, Ideal.ofBits_def, Ideal.ofBits_one_f32]
  rfl

/-! ## Two rounds -/

/-- The reference's second round is its first round run from the first round's result: operation by operation the
    second round applies the same operation to the same arguments, with the first round's result in the state's
    place. -/
theorem round_two (j : S16x1024x1024.Idx) :
    val_main_v99 (F := Ideal) x0 x1 x2 x3 x4 x5 x6 x7 x8 x9 j
      = val_main_v51 (F := Ideal) (val_main_v51 (F := Ideal) x0 x1 x2 x3 x4 x5 x6 x7 x8 x9) x1 x2 x3 x4 x5 x6 x7 x8 x9 j :=
  rfl

/-- The reference program's result before its final reshape, at image `b`, region `r`, feature `f`, is two rounds
    of the specification from image `b`'s features. -/
theorem ref_two (r f : Fin 1024) :
    val_main_v99 (F := Ideal) x0 x1 x2 x3 x4 x5 x6 x7 x8 x9 (ValueIdx.ix3 b r f)
      = GruSpec.two (fun r k => x1 (ValueIdx.ix3 b r k)) (fun f k => x2 (ValueIdx.ix2 f k)) (fun f => x3 (ValueIdx.ix1 f))
          (fun i f => x4 (ValueIdx.ix2 i f)) (fun i => x5 (ValueIdx.ix1 i)) (fun g i => x6 (ValueIdx.ix2 g i)) (fun g f => x7 (ValueIdx.ix2 g f))
          (fun g => x8 (ValueIdx.ix1 g)) (fun g => x9 (ValueIdx.ix1 g)) (fun r f => x0 (ValueIdx.ix3 b r f)) r f := by
  rw [round_two, step1]
  have hst : (fun (r f : Fin 1024) => val_main_v51 (F := Ideal) x0 x1 x2 x3 x4 x5 x6 x7 x8 x9 (ValueIdx.ix3 b r f))
      = GruSpec.step BX WB BB WI BI WIH WHH BIH BHH H0 :=
    funext fun r => funext fun f => step1 x0 x1 x2 x3 x4 x5 x6 x7 x8 x9 b r f
  rw [hst]
  rfl

end Round

end Cert.ReferenceIdeal.RefValue

end
-- ==== Proof.lean ====
/-
  The certificate of a message-passing kernel against its jnp reference, on the extended reals.

  Both programs take sixteen images of 1024 regions with 1024 features each, the regions' boxes, and the weights of
  three linear maps and of a gated recurrent cell, and run two rounds of: every region's message (a linear map of the
  rectified product of its state with its box features), every region's input (the mean of the OTHER regions' messages:
  the sum over the image minus its own, over 1023), and the cell's new state. The kernel does this image by image, in
  tiles of 128 regions, with the state updated in place, the messages kept in a scratch buffer and their sum
  accumulated tile by tile; the reference does it on whole arrays. At the ideal instance a change of float format is
  the identity and sums may be regrouped, so both are the same function, `GruSpec.two`, of each image's slices of the
  arguments. The one place the two texts differ in arithmetic is the mean: the kernel multiplies by the constant the
  claim names `inv_1023` (the rational 1/1023), the reference divides by 1023; on the extended reals these agree.

  The claims: the three programs run and leave their arguments unchanged; the idealized kernel is the kernel's
  sanctioned idealization (the named constant, at its two sites); the two idealized programs end with equal results.
-/
import proofs.«127752_j39092792328632_2_alg».proof.Defs
import proofs.«127752_j39092792328632_2_alg».proof.Proof.Gen.Kernel
import proofs.«127752_j39092792328632_2_alg».proof.Proof.Gen.KernelIdeal
import proofs.«127752_j39092792328632_2_alg».proof.Proof.Gen.ReferenceIdeal
import proofs.«127752_j39092792328632_2_alg».proof.Proof.Gen.ReferenceIdeal.Run
import proofs.«127752_j39092792328632_2_alg».proof.Proof.Gen.ReferenceIdeal.Read
import proofs.«127752_j39092792328632_2_alg».proof.Proof.Gen.Pre_finite_inputs
import proofs.«127752_j39092792328632_2_alg».proof.Proof.KernelUnnamedFrame
import proofs.«127752_j39092792328632_2_alg».proof.Proof.KFinal
import proofs.«127752_j39092792328632_2_alg».proof.Proof.RefSide
import Idealize.ShloMosaic.PureOps.IdealRules
import Idealize.ShloMosaic.Adequacy
import Idealize.ShloMosaic.Init

noncomputable section

namespace Cert.Proof

open Idealize.ShloMosaic Idealize.ShloMosaic.ValueIdx Idealize.SL.Sem

/-- The word-level kernel runs and leaves its arguments unchanged (nothing is said of what it computes). -/
theorem frame_kernel : Cert.frame_Kernel :=
  fun m ρ _ => Cert.Kernel.GenU.frame m ρ

/-- The idealized kernel runs and leaves its arguments unchanged: its run with the result's value stated, the value dropped. -/
theorem frame_kernelIdeal : Cert.frame_KernelIdeal :=
  fun m ρ _ => (θ_run Cert.KernelIdeal.defs _ _).mono (fun _ h c => (h c).2) (Cert.KernelIdeal.Final.run m ρ)

/-- The reference runs and leaves its arguments unchanged: its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- The two sites of the named constant: the claim's table gives `inv_1023` the value 1/1023. -/
theorem preserves : Cert.preserves_Kernel_KernelIdeal :=
  ⟨IdealRules.named_const.statement Cert.KernelIdeal.κ "inv_1023" .f32 0x3A802008#32 ((1 / 1023 : ℝ) : EReal) rfl,
   IdealRules.named_const.statement Cert.KernelIdeal.κ "inv_1023" .f32 0x3A802008#32 ((1 / 1023 : ℝ) : EReal) rfl⟩

/-- Both idealized programs end with the flattened array whose image `b`, region `r`, feature `f` is two rounds of the
    specification from image `b`'s slices of the arguments: the kernel's run states it, and the reference's result before its
    final reshape is the same function index by index; the final reshape is the same operation on both sides. -/
theorem algebraic :
    Cert.algebraic_KernelIdeal_ReferenceIdeal := by
  intro m ρ m' ρ' _ hagree
  refine ⟨fun c => shapeCast Cert.KernelIdeal.S16384x1024 (Cert.KernelIdeal.Final.result m c) Cert.KernelIdeal.Facts₀.shapeCasts_S16x1024x1024_S16384x1024,
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v100_eq, a0, a1, a2, a3, a4, a5, a6, a7, a8, a9]
  unfold Cert.ReferenceIdeal.Read.val_main_v100
  refine congrArg (fun y => shapeCast Cert.KernelIdeal.S16384x1024 y Cert.KernelIdeal.Facts₀.shapeCasts_S16x1024x1024_S16384x1024) (funext fun j => ?_)
  obtain ⟨b, r, f, rfl⟩ : ∃ (b : Fin 16) (r f : Fin 1024), j = ix3 b r f := ⟨j 0, j 1, j 2, eq_ix3 j⟩
  exact Cert.ReferenceIdeal.RefValue.ref_two _ _ _ _ _ _ _ _ _ _ b r f

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
